-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S4096x2048 .f32) (main_arg5 : FVec F S2048 .f32) (main_arg6 : FVec F S4096x2048 .f32) (main_arg7 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S4096x2048 .f32) (main_arg3 : FVec F S2048 .f32) (main_arg4 : FVec F S4096x2048 .f32) (main_arg5 : FVec F S2048 .f32) (main_arg6 : FVec F S4096x2048 .f32) (main_arg7 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S4096x2048 : Shape := ⟨2, ![4096, 2048]⟩
abbrev S2048 : Shape := ⟨1, ![2048]⟩
abbrev S2048x2048 : Shape := ⟨2, ![2048, 2048]⟩
abbrev S2048x4096 : Shape := ⟨2, ![2048, 4096]⟩
abbrev S4096 : Shape := ⟨1, ![4096]⟩
abbrev S1x4096 : Shape := ⟨2, ![1, 4096]⟩
abbrev S4096x4096 : Shape := ⟨2, ![4096, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩
abbrev S1x2048 : Shape := ⟨2, ![1, 2048]⟩
abbrev S512x256 : Shape := ⟨2, ![512, 256]⟩
abbrev S256x2048 : Shape := ⟨2, ![256, 2048]⟩
abbrev S512x2048 : Shape := ⟨2, ![512, 2048]⟩

abbrev nBuf : Space → Nat
  | .hbm => 27
  | .vmem => 31
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048x4096, .f32⟩
  | .hbm, ⟨11, _⟩ => ⟨S2048x4096, .bf16⟩
  | .hbm, ⟨12, _⟩ => ⟨S2048x2048, .f32⟩
  | .hbm, ⟨13, _⟩ => ⟨S2048x2048, .f32⟩
  | .hbm, ⟨14, _⟩ => ⟨S2048x4096, .f32⟩
  | .hbm, ⟨15, _⟩ => ⟨S2048x4096, .bf16⟩
  | .hbm, ⟨16, _⟩ => ⟨S4096, .f32⟩
  | .hbm, ⟨17, _⟩ => ⟨S1x4096, .f32⟩
  | .hbm, ⟨18, _⟩ => ⟨S4096x4096, .f32⟩
  | .hbm, ⟨19, _⟩ => ⟨S4096x2048, .f32⟩
  | .hbm, ⟨20, _⟩ => ⟨S4096x2048, .f32⟩
  | .hbm, ⟨21, _⟩ => ⟨S2048x2048, .f32⟩
  | .hbm, ⟨22, _⟩ => ⟨S2048x2048, .bf16⟩
  | .hbm, ⟨23, _⟩ => ⟨S2048x2048, .f32⟩
  | .hbm, ⟨24, _⟩ => ⟨S2048x2048, .bf16⟩
  | .hbm, ⟨25, _⟩ => ⟨S1x2048, .f32⟩
  | .hbm, ⟨26, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S1x2048, .f32⟩
  | .local _ .vmem, ⟨24, _⟩ => ⟨S512x2048, .f32⟩
  | .local _ .vmem, ⟨25, _⟩ => ⟨S512x2048, .f32⟩
  | .local _ .vmem, ⟨26, _⟩ => ⟨S512x2048, .f32⟩
  | .local _ .vmem, ⟨27, _⟩ => ⟨S512x2048, .f32⟩
  | .local _ .vmem, ⟨28, _⟩ => ⟨S512x2048, .f32⟩
  | .local _ .vmem, ⟨29, _⟩ => ⟨S512x2048, .f32⟩
  | .local _ .vmem, ⟨30, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_15 : BitVec 32 := 0#32
  let v24 : BitVec 1 := Scalar.cmpi .ne v23 c0_i32_15
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  slices_S4096x2048_S2048x2048_0_0 : S4096x2048.Slices ![0, 0] S2048x2048
  concatenates_S2048x2048_S2048x2048_S2048x4096_d1 : Shape.Concatenates [S2048x2048, S2048x2048] S2048x4096 1
  bitsLt_bf16_f32 : FTy.bits .bf16 < FTy.bits .f32
  slices_S4096x2048_S2048x2048_2048_0 : S4096x2048.Slices ![2048, 0] S2048x2048
  concatenates_S2048_S2048_S4096_d0 : Shape.Concatenates [S2048, S2048] S4096 0
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S4096x4096_S4096x2048_0_0 : S4096x4096.Slices ![0, 0] S4096x2048
  slices_S4096x4096_S4096x2048_0_2048 : S4096x4096.Slices ![0, 2048] S4096x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S1024x512_S512x1024_S1024x1024_1_0_0_1_n_n_wf : DotDims.WF S1024x512 S512x1024 S1024x1024 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x2048.size a
  hwx0_0 : ∀ i : grid0.Coords, EltTy.bits .f32 = 32 ∨ (Rect.block (s := S4096x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x2048.size a
  hwx0_1 : ∀ i : grid0.Coords, EltTy.bits .f32 = 32 ∨ (Rect.block (s := S4096x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x4096.size a
  hwx0_2 : ∀ i : grid0.Coords, EltTy.bits .bf16 = 32 ∨ (Rect.block (s := S2048x4096) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x4096.size a
  hwx0_3 : ∀ i : grid0.Coords, EltTy.bits .bf16 = 32 ∨ (Rect.block (s := S2048x4096) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .f32 = 32 ∨ (Rect.block (s := S4096x4096) S1024x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x2048.size a
  hwx1_0 : ∀ i : grid1.Coords, EltTy.bits .f32 = 32 ∨ (Rect.block (s := S4096x2048) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x2048.size a
  hwx1_1 : ∀ i : grid1.Coords, EltTy.bits .f32 = 32 ∨ (Rect.block (s := S4096x2048) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S4096x2048.size a
  hwx1_2 : ∀ i : grid1.Coords, EltTy.bits .f32 = 32 ∨ (Rect.block (s := S4096x2048) S512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S2048x2048.size a
  hwx1_3 : ∀ i : grid1.Coords, EltTy.bits .bf16 = 32 ∨ (Rect.block (s := S2048x2048) S256x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S2048x2048.size a
  hwx1_4 : ∀ i : grid1.Coords, EltTy.bits .bf16 = 32 ∨ (Rect.block (s := S2048x2048) S256x2048.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x2048.size a ≤ S4096x2048.size a
  hwx1_6 : ∀ i : grid1.Coords, EltTy.bits .f32 = 32 ∨ (Rect.block (s := S4096x2048) S512x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x2048.size a ≤ S4096x2048.size a
  hwx1_7 : ∀ i : grid1.Coords, EltTy.bits .f32 = 32 ∨ (Rect.block (s := S4096x2048) S512x2048.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x2048.size a ≤ S4096x2048.size a
  hwx1_8 : ∀ i : grid1.Coords, EltTy.bits .f32 = 32 ∨ (Rect.block (s := S4096x2048) S512x2048.size (cc1_transform_8 i) (hinb1_8 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg1) S512x2048.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v12) S512x2048.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v18) S512x2048.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048 : Shape := ⟨1, ![2048]⟩
abbrev S2048x2048 : Shape := ⟨2, ![2048, 2048]⟩
abbrev S1x2048 : Shape := ⟨2, ![1, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S2048, .f32⟩
  | .hbm, ⟨8, _⟩ => ⟨S2048x2048, .f32⟩
  | .hbm, ⟨9, _⟩ => ⟨S4096x2048, .f32⟩
  | .hbm, ⟨10, _⟩ => ⟨S2048x2048, .f32⟩
  | .hbm, ⟨11, _⟩ => ⟨S4096x2048, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S2048x2048, .f32⟩
  | .hbm, ⟨25, _⟩ => ⟨S4096x2048, .f32⟩
  | .hbm, ⟨26, _⟩ => ⟨S2048x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S2048x2048, .f32⟩
  | .hbm, ⟨41, _⟩ => ⟨S4096x2048, .f32⟩
  | .hbm, ⟨42, _⟩ => ⟨S4096x2048, .f32⟩
  | .hbm, ⟨43, _⟩ => ⟨S2048x2048, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  slices_S4096x2048_S2048x2048_0_0 : S4096x2048.Slices ![0, 0] S2048x2048
  slices_S4096x2048_S2048x2048_2048_0 : S4096x2048.Slices ![2048, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.K0Shared.lean ====
import proofs.«172101_j11879879541673_2_alg».proof.Proof.Gen.KernelIdeal.Launch
import proofs.«172101_j11879879541673_2_alg».proof.Proof.Gen.KernelIdeal.Skeleton
import proofs.«172101_j11879879541673_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel (the gates r and z): what its three kinds of grid points share

The grid is 4 x 4 x 4, the last coordinate the reduction step. A point is the FIRST step of its tile (the accumulator is
reset), a MIDDLE step, or the LAST step (the bias is added, the logistic applied and the tile stored). -/

/-- The reduction step is the first one. -/
abbrev first0 (i : grid0.Coords) : Prop := (Scalar.cmpi .ne (Scalar.extui (Scalar.cmpi .eq (BitVec.ofNat 32 (i 2).val) 0#32)) 0#32) = 1#1
/-- The reduction step is the last one. -/
abbrev last0 (i : grid0.Coords) : Prop := k0_cond2 i = 1#1

/-- The first steps are the points whose number is a multiple of four. -/
theorem first0_iff : ∀ t : Fin cfg0.N, first0 (grid0.coords t) ↔ t.val % 4 = 0 :=
  (by decide +kernel : ∀ t : Fin grid0.N, first0 (grid0.coords t) ↔ t.val % 4 = 0)
/-- The last steps are the points whose number is three modulo four. -/
theorem last0_iff : ∀ t : Fin cfg0.N, last0 (grid0.coords t) ↔ t.val % 4 = 3 :=
  (by decide +kernel : ∀ t : Fin grid0.N, last0 (grid0.coords t) ↔ t.val % 4 = 3)

/-- The five input windows are live at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
/-- The output window is idle, and not written back, at every step but the last; live at the last. -/
theorem idle0_5 : ∀ t : Fin cfg0.N, ¬last0 (grid0.coords t) → cfg0.idle 5 (grid0.coords t) = true := by decide +kernel
theorem noFlush0_5 : ∀ t : Fin cfg0.N, ¬last0 (grid0.coords t) → (cfg0.win 5).flush t = false := by decide +kernel
theorem live0_5 : ∀ t : Fin cfg0.N, last0 (grid0.coords t) → cfg0.idle 5 (grid0.coords t) = false := by decide +kernel

/-- Each window's current staging memref at a point, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev acM0 : Memref sig .tc .vmem S1024x1024 .f32 := Memref.whole cc0_scratch0
/-- The views through which the accumulator's and the output buffer's contents are stated. -/
abbrev VA0 : View sig .tc .vmem S1024x1024 .f32 := acM0.view
abbrev VO0 : View sig .tc .vmem S1024x1024 .f32 := (Memref.whole cc0_stg5_0 : Memref sig .tc .vmem S1024x1024 .f32).view

/-- The scoped buffers the first kernel never touches (the second kernel's staging buffers and accumulator), each at
    some contents: they ride through the region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f))

/-- What the region's invariant holds besides the windows: the accumulator as a memref owned at some contents, the
    buffers the kernel never touches, and the generator register. -/
theorem PhiA0_eq (c : Dev nD) :
    (Pipeline.ΦA spec0 c : sProp 𝕄)
      = iprop(iprop((∃ d, owns (c : Thread nD τ) acM0 fullShare d) ∗ others0 c) ∗ (∃ r, prngReg c r)) := by
  unfold Pipeline.ΦA others0; rw [scopedRest0_eq]; simp only [acM0, owns_whole]; try rfl

end Cert.KernelIdeal.Hand

end
-- ==== Proof.K0RunB.lean ====
import proofs.«172101_j11879879541673_2_alg».proof.Proof.K0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A middle step of the first kernel: the two products of the step's blocks are added to the accumulator -/

set_option maxHeartbeats 1000000 in
/-- On whole staging memrefs — the five inputs at their blocks, the output's at contents handed back untouched, the
    accumulator at what the step before left — the body at a MIDDLE step runs to the continuation holding the inputs and
    the output's buffer as they were and the accumulator with the listed pieces written (last first). -/
noncomputable def run0_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : ¬last0 i)
    (x0 : Vec F S1024x512 .f32) (x1 : Vec F S1024x512 .f32) (x2 : Vec F S512x1024 .bf16) (x3 : Vec F S512x1024 .bf16) (x4 : Vec F S1x1024 .f32) (xa : Vec F S1024x1024 .f32) :
    { LA : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xa
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LA)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, fun xo E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fa, %hfa, HA⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfa
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HA

end Cert.KernelIdeal.Hand

end
-- ==== Proof.K0RunA.lean ====
import proofs.«172101_j11879879541673_2_alg».proof.Proof.K0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A first step of the first kernel: the accumulator is reset to zero, then the step's two products are added -/

set_option maxHeartbeats 1000000 in
/-- As at a middle step, but the accumulator may hold anything at entry: the body overwrites it whole before reading it. -/
noncomputable def run0_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : first0 i) (hl : ¬last0 i)
    (x0 : Vec F S1024x512 .f32) (x1 : Vec F S1024x512 .f32) (x2 : Vec F S512x1024 .bf16) (x3 : Vec F S512x1024 .bf16) (x4 : Vec F S1x1024 .f32) :
    { LA : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LA)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, fun xo E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%da, %fa, -, HA⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HA

end Cert.KernelIdeal.Hand

end
-- ==== Proof.K0RunC.lean ====
import proofs.«172101_j11879879541673_2_alg».proof.Proof.K0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A last step of the first kernel: the step's products are added, then the bias row is added to the accumulator,
the logistic function applied, and the tile stored into the output's buffer -/

set_option maxHeartbeats 1000000 in
/-- The output's buffer may hold anything at entry and ends with the listed pieces written; the accumulator as at a middle step. -/
noncomputable def run0_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : last0 i)
    (x0 : Vec F S1024x512 .f32) (x1 : Vec F S1024x512 .f32) (x2 : Vec F S512x1024 .bf16) (x3 : Vec F S512x1024 .bf16) (x4 : Vec F S1x1024 .f32) (xa : Vec F S1024x1024 .f32) :
    Σ' (LO : List (View.Piece (Elt F) S1024x1024 .f32)), { LA : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xa
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LA)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fa, %hfa, HA⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfa
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HA

end Cert.KernelIdeal.Hand

end
-- ==== Proof.K0Dat.lean ====
import proofs.«172101_j11879879541673_2_alg».proof.Proof.K0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's proof data: what its buffers hold point by point

Over a family `V` of contents of the core's buffers at the region's entry. At every point each input window's staging
buffer holds the block of its array the index map selects. The accumulator after a point is what that point's run
leaves in it — at a first step from anything, otherwise from what the point before left —, and the output's buffer
after a last step what that run stores; at the other steps the output's window is idle. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after a first step: its pieces read back. -/
def accA0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : first0 i) (hl : ¬last0 i) (x0 : Vec F S1024x512 .f32) (x1 : Vec F S1024x512 .f32) (x2 : Vec F S512x1024 .bf16) (x3 : Vec F S512x1024 .bf16) (x4 : Vec F S1x1024 .f32) : Vec F S1024x1024 .f32 :=
  VA0.read (Elt F) (VA0.writes (Elt F) VA0.junk (run0_A c i arg3 harg3 arg4 harg4 arg5 harg5 arg6 harg6 arg7 harg7 arg8 harg8 arg9 harg9 hf hl x0 x1 x2 x3 x4).1)
/-- after a middle step, -/
def accB0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : ¬last0 i) (x0 : Vec F S1024x512 .f32) (x1 : Vec F S1024x512 .f32) (x2 : Vec F S512x1024 .bf16) (x3 : Vec F S512x1024 .bf16) (x4 : Vec F S1x1024 .f32) (xa : Vec F S1024x1024 .f32) : Vec F S1024x1024 .f32 :=
  VA0.read (Elt F) (VA0.writes (Elt F) VA0.junk (run0_B c i arg3 harg3 arg4 harg4 arg5 harg5 arg6 harg6 arg7 harg7 arg8 harg8 arg9 harg9 hf hl x0 x1 x2 x3 x4 xa).1)
/-- after a last step, -/
def accC0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : last0 i) (x0 : Vec F S1024x512 .f32) (x1 : Vec F S1024x512 .f32) (x2 : Vec F S512x1024 .bf16) (x3 : Vec F S512x1024 .bf16) (x4 : Vec F S1x1024 .f32) (xa : Vec F S1024x1024 .f32) : Vec F S1024x1024 .f32 :=
  VA0.read (Elt F) (VA0.writes (Elt F) VA0.junk (run0_C c i arg3 harg3 arg4 harg4 arg5 harg5 arg6 harg6 arg7 harg7 arg8 harg8 arg9 harg9 hf hl x0 x1 x2 x3 x4 xa).2.1)
/-- and the output's buffer after a last step. -/
def outC0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : last0 i) (x0 : Vec F S1024x512 .f32) (x1 : Vec F S1024x512 .f32) (x2 : Vec F S512x1024 .bf16) (x3 : Vec F S512x1024 .bf16) (x4 : Vec F S1x1024 .f32) (xa : Vec F S1024x1024 .f32) : Vec F S1024x1024 .f32 :=
  VO0.read (Elt F) (VO0.writes (Elt F) VO0.junk (run0_C c i arg3 harg3 arg4 harg4 arg5 harg5 arg6 harg6 arg7 harg7 arg8 harg8 arg9 harg9 hf hl x0 x1 x2 x3 x4 xa).1)
/-- Where the output's window is idle nothing is said of its buffer: a placeholder nothing consults. -/
def idleOut0 : Vec F S1024x1024 .f32 := VO0.read (Elt F) VO0.junk

/-- Each run's pieces cover the buffer they are written to (every store is of the whole tile). -/
theorem coverA0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : first0 i) (hl : ¬last0 i) (x0 : Vec F S1024x512 .f32) (x1 : Vec F S1024x512 .f32) (x2 : Vec F S512x1024 .bf16) (x3 : Vec F S512x1024 .bf16) (x4 : Vec F S1x1024 .f32) (y : S1024x1024.Idx) :
    ∃ pc ∈ (run0_A c i arg3 harg3 arg4 harg4 arg5 harg5 arg6 harg6 arg7 harg7 arg8 harg8 arg9 harg9 hf hl x0 x1 x2 x3 x4).1, y ∈ pc.1.set :=
  View.cover_of_tiledL (run0_A c i arg3 harg3 arg4 harg4 arg5 harg5 arg6 harg6 arg7 harg7 arg8 harg8 arg9 harg9 hf hl x0 x1 x2 x3 x4).1 S1024x1024.size (by sl_kernel_rfl) y
theorem coverB0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : ¬last0 i) (x0 : Vec F S1024x512 .f32) (x1 : Vec F S1024x512 .f32) (x2 : Vec F S512x1024 .bf16) (x3 : Vec F S512x1024 .bf16) (x4 : Vec F S1x1024 .f32) (xa : Vec F S1024x1024 .f32) (y : S1024x1024.Idx) :
    ∃ pc ∈ (run0_B c i arg3 harg3 arg4 harg4 arg5 harg5 arg6 harg6 arg7 harg7 arg8 harg8 arg9 harg9 hf hl x0 x1 x2 x3 x4 xa).1, y ∈ pc.1.set :=
  View.cover_of_tiledL (run0_B c i arg3 harg3 arg4 harg4 arg5 harg5 arg6 harg6 arg7 harg7 arg8 harg8 arg9 harg9 hf hl x0 x1 x2 x3 x4 xa).1 S1024x1024.size (by sl_kernel_rfl) y
theorem coverC0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : last0 i) (x0 : Vec F S1024x512 .f32) (x1 : Vec F S1024x512 .f32) (x2 : Vec F S512x1024 .bf16) (x3 : Vec F S512x1024 .bf16) (x4 : Vec F S1x1024 .f32) (xa : Vec F S1024x1024 .f32) (y : S1024x1024.Idx) :
    ∃ pc ∈ (run0_C c i arg3 harg3 arg4 harg4 arg5 harg5 arg6 harg6 arg7 harg7 arg8 harg8 arg9 harg9 hf hl x0 x1 x2 x3 x4 xa).2.1, y ∈ pc.1.set :=
  View.cover_of_tiledL (run0_C c i arg3 harg3 arg4 harg4 arg5 harg5 arg6 harg6 arg7 harg7 arg8 harg8 arg9 harg9 hf hl x0 x1 x2 x3 x4 xa).2.1 S1024x1024.size (by sl_kernel_rfl) y
theorem coverO0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : last0 i) (x0 : Vec F S1024x512 .f32) (x1 : Vec F S1024x512 .f32) (x2 : Vec F S512x1024 .bf16) (x3 : Vec F S512x1024 .bf16) (x4 : Vec F S1x1024 .f32) (xa : Vec F S1024x1024 .f32) (y : S1024x1024.Idx) :
    ∃ pc ∈ (run0_C c i arg3 harg3 arg4 harg4 arg5 harg5 arg6 harg6 arg7 harg7 arg8 harg8 arg9 harg9 hf hl x0 x1 x2 x3 x4 xa).1, y ∈ pc.1.set :=
  View.cover_of_tiledL (run0_C c i arg3 harg3 arg4 harg4 arg5 harg5 arg6 harg6 arg7 harg7 arg8 harg8 arg9 harg9 hf hl x0 x1 x2 x3 x4 xa).1 S1024x1024.size (by sl_kernel_rfl) y

/-- THE ACCUMULATION: what the output's staging buffer and the accumulator hold after the body at position `n`, by
    recursion on the position. -/
def outsAt0 (c : Dev nD) : (n : ℕ) → n < cfg0.N → Vec F S1024x1024 .f32 × Vec F S1024x1024 .f32
  | 0, hn => (idleOut0, accA0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) acM0 (Memref.isWhole_whole _) ((first0_iff ⟨0, hn⟩).mpr (Nat.zero_mod _)) (fun h => (fun h => by (try dsimp only at h); omega) ((last0_iff ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then False.elim (by omega)
      else (idleOut0, accA0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) acM0 (Memref.isWhole_whole _) ((first0_iff ⟨n + 1, hn⟩).mpr h0) (fun h => h1 ((last0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (outC0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) acM0 (Memref.isWhole_whole _) (fun h => h0 ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
         accC0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) acM0 (Memref.isWhole_whole _) (fun h => h0 ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (idleOut0, accB0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) acM0 (Memref.isWhole_whole _) (fun h => h0 ((first0_iff ⟨n + 1, hn⟩).mp h)) (fun h => h1 ((last0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at a first step. -/
theorem outsAt0_A (c : Dev nD) (t : Fin cfg0.N) (h0 : t.val % 4 = 0) (h1 : ¬t.val % 4 = 3) :
    outsAt0 V c t.val t.isLt = (idleOut0, accA0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) ((first0_iff t).mpr h0) (fun h => h1 ((last0_iff t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)
/-- at a middle step, over what the point before left, -/
theorem outsAt0_B (c : Dev nD) (t : Fin cfg0.N) (h0 : ¬t.val % 4 = 0) (h1 : ¬t.val % 4 = 3) :
    outsAt0 V c t.val t.isLt = (idleOut0, accB0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) (fun h => h0 ((first0_iff t).mp h)) (fun h => h1 ((last0_iff t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
/-- at a last step. -/
theorem outsAt0_C (c : Dev nD) (t : Fin cfg0.N) (h0 : ¬t.val % 4 = 0) (h1 : t.val % 4 = 3) :
    outsAt0 V c t.val t.isLt = (outC0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) (fun h => h0 ((first0_iff t).mp h)) ((last0_iff t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      accC0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) (fun h => h0 ((first0_iff t).mp h)) ((last0_iff t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region; afterwards the
    accumulator at what the point before left in it, the untouched buffers and the generator register. -/
def PhiS0 (c : Dev nD) : (n : ℕ) → n ≤ cfg0.N → sProp 𝕄
  | 0, _ => Pipeline.ΦA spec0 c
  | n + 1, hn => iprop(iprop(owns (c : Thread nD τ) acM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) acM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) acM0 fullShare ((outsAt0 V c (n - 1) (by omega)).2) ∗ others0 c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

end Cert.KernelIdeal.Hand

end
-- ==== Proof.K0Body.lean ====
import proofs.«172101_j11879879541673_2_alg».proof.Proof.K0Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body obligation: at every point the body runs from the invariant and the windows' buffers
to the invariant at the next point and the buffers at what the proof data say -/

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' buffers hold their blocks; the point's number modulo four says which kind of step
    it is; the invariant hands the body the accumulator at what the point before left (at anything before the first point)
    and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · have h1 : ¬t.val % 4 = 3 := by omega
    have hf : first0 (grid0.coords t) := (first0_iff t).mpr h0
    have hl : ¬last0 (grid0.coords t) := fun h => h1 ((last0_iff t).mp h)
    rw [show (dat0 V c).leavesExact 0 t = owns (c : Thread nD τ) (ms0_0 t) fullShare ((dat0 V c).after 0 t) from by
      unfold Dat.leavesExact; rw [live0_0 t], after0_0]
    rw [show (dat0 V c).leavesExact 1 t = owns (c : Thread nD τ) (ms0_1 t) fullShare ((dat0 V c).after 1 t) from by
      unfold Dat.leavesExact; rw [live0_1 t], after0_1]
    rw [show (dat0 V c).leavesExact 2 t = owns (c : Thread nD τ) (ms0_2 t) fullShare ((dat0 V c).after 2 t) from by
      unfold Dat.leavesExact; rw [live0_2 t], after0_2]
    rw [show (dat0 V c).leavesExact 3 t = owns (c : Thread nD τ) (ms0_3 t) fullShare ((dat0 V c).after 3 t) from by
      unfold Dat.leavesExact; rw [live0_3 t], after0_3]
    rw [show (dat0 V c).leavesExact 4 t = owns (c : Thread nD τ) (ms0_4 t) fullShare ((dat0 V c).after 4 t) from by
      unfold Dat.leavesExact; rw [live0_4 t], after0_4]
    rw [Dat.leavesExact_idle (dat0 V c) 5 t (idle0_5 t hl) (noFlush0_5 t hl)]
    rw [outsAt0_A V c t h0 h1]
    unfold accA0; (try dsimp only)
    by_cases hz : t.val = 0
    · rw [PhiS0_castSucc V c t, PhiS0_zero V c _ _ hz, PhiA0_eq]
      iintro ⟨⟨⟨HA, Hoth⟩, Hg⟩, Ho, ⟨%d0, H0⟩, ⟨%d1, H1⟩, ⟨%d2, H2⟩, ⟨%d3, H3⟩, ⟨%d4, H4⟩, ⟨%d5, H5⟩⟩
      iapply ((run0_A c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      iintro ⟨H0, H1, H2, H3, H4, H5, ⟨%fa, HA⟩⟩
      isplitl [HA Hoth Hg]
      · isplitl [HA Hoth]
        · isplitl [HA]
          · unfold owns; iexists _; isplitr
            swap; · iexact HA
            ipureintro; exact View.read_writes_of_cover _ _ _ _ _ (coverA0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HA, Hoth⟩, Hg⟩, Ho, ⟨%d0, H0⟩, ⟨%d1, H1⟩, ⟨%d2, H2⟩, ⟨%d3, H3⟩, ⟨%d4, H4⟩, ⟨%d5, H5⟩⟩
      iapply ((run0_A c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexists _; iexact HA
      iintro ⟨H0, H1, H2, H3, H4, H5, ⟨%fa, HA⟩⟩
      isplitl [HA Hoth Hg]
      · isplitl [HA Hoth]
        · isplitl [HA]
          · unfold owns; iexists _; isplitr
            swap; · iexact HA
            ipureintro; exact View.read_writes_of_cover _ _ _ _ _ (coverA0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hf : ¬first0 (grid0.coords t) := fun h => h0 ((first0_iff t).mp h)
    by_cases h1 : t.val % 4 = 3
    · have hl : last0 (grid0.coords t) := (last0_iff t).mpr h1
      rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [show (dat0 V c).leavesExact 3 t = owns (c : Thread nD τ) (ms0_3 t) fullShare ((dat0 V c).after 3 t) from by
        unfold Dat.leavesExact; rw [live0_3 t], after0_3]
      rw [show (dat0 V c).leavesExact 4 t = owns (c : Thread nD τ) (ms0_4 t) fullShare ((dat0 V c).after 4 t) from by
        unfold Dat.leavesExact; rw [live0_4 t], after0_4]
      rw [show (dat0 V c).leavesExact 5 t = owns (c : Thread nD τ) (ms0_5 t) fullShare ((dat0 V c).after 5 t) from by
        unfold Dat.leavesExact; rw [live0_5 t hl], after0_5]
      rw [outsAt0_C V c t h0 h1]
      unfold outC0 accC0; (try dsimp only)
      rw [PhiS0_castSucc V c t, PhiS0_pos V c _ _ hz]
      iintro ⟨⟨⟨HA, Hoth⟩, Hg⟩, Ho, ⟨%d0, H0⟩, ⟨%d1, H1⟩, ⟨%d2, H2⟩, ⟨%d3, H3⟩, ⟨%d4, H4⟩, ⟨%d5, H5⟩⟩
      iapply ((run0_C c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t) (outsAt0 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HA]; · iexact HA
      iintro ⟨H0, H1, H2, H3, H4, ⟨%f5, H5⟩, ⟨%fa, HA⟩⟩
      isplitl [HA Hoth Hg]
      · isplitl [HA Hoth]
        · isplitl [HA]
          · unfold owns; iexists _; isplitr
            swap; · iexact HA
            ipureintro; exact View.read_writes_of_cover _ _ _ _ _ (coverC0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t) (outsAt0 V c (t.val - 1) (Nat.lt_of_le_of_lt (Nat.sub_le _ _) t.isLt)).2)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverO0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t) (outsAt0 V c (t.val - 1) (Nat.lt_of_le_of_lt (Nat.sub_le _ _) t.isLt)).2)
    · have hl : ¬last0 (grid0.coords t) := fun h => h1 ((last0_iff t).mp h)
      rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [show (dat0 V c).leavesExact 3 t = owns (c : Thread nD τ) (ms0_3 t) fullShare ((dat0 V c).after 3 t) from by
        unfold Dat.leavesExact; rw [live0_3 t], after0_3]
      rw [show (dat0 V c).leavesExact 4 t = owns (c : Thread nD τ) (ms0_4 t) fullShare ((dat0 V c).after 4 t) from by
        unfold Dat.leavesExact; rw [live0_4 t], after0_4]
      rw [Dat.leavesExact_idle (dat0 V c) 5 t (idle0_5 t hl) (noFlush0_5 t hl)]
      rw [outsAt0_B V c t h0 h1]
      unfold accB0; (try dsimp only)
      rw [PhiS0_castSucc V c t, PhiS0_pos V c _ _ hz]
      iintro ⟨⟨⟨HA, Hoth⟩, Hg⟩, Ho, ⟨%d0, H0⟩, ⟨%d1, H1⟩, ⟨%d2, H2⟩, ⟨%d3, H3⟩, ⟨%d4, H4⟩, ⟨%d5, H5⟩⟩
      iapply ((run0_B c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t) (outsAt0 V c (t.val - 1) (Nat.lt_of_le_of_lt (Nat.sub_le _ _) t.isLt)).2).2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      iintro ⟨H0, H1, H2, H3, H4, H5, ⟨%fa, HA⟩⟩
      isplitl [HA Hoth Hg]
      · isplitl [HA Hoth]
        · isplitl [HA]
          · unfold owns; iexists _; isplitr
            swap; · iexact HA
            ipureintro; exact View.read_writes_of_cover _ _ _ _ _ (coverB0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t) (outsAt0 V c (t.val - 1) (Nat.lt_of_le_of_lt (Nat.sub_le _ _) t.isLt)).2)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HA, Hoth⟩, Hg⟩
  isplitl [HA Hoth]
  · isplitl [HA]; · iexists _; iexact HA
    iexact Hoth
  iexact Hg

end Cert.KernelIdeal.Hand

end
-- ==== Proof.Mid.lean ====
import proofs.«172101_j11879879541673_2_alg».proof.Proof.K0Body
import proofs.«172101_j11879879541673_2_alg».proof.Proof.Gen.KernelIdeal.Regions
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents between the items of the program

The program is: host operations (the weights' halves cut, joined and converted; the bias rows joined), the first kernel
(the gates), host operations (the gates' two halves cut out; the candidate's weights cut and converted), the second
kernel. The contents of the core's buffers at each boundary, folded through the program from the launch memory. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the second kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- A buffer no host operation of the first stretch writes is as launched after it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A buffer no host operation of the second stretch writes is after it as the first kernel left it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

end Cert.KernelIdeal.Hand

end
-- ==== Proof.K1Shared.lean ====
import proofs.«172101_j11879879541673_2_alg».proof.Proof.Gen.KernelIdeal.Launch
import proofs.«172101_j11879879541673_2_alg».proof.Proof.Gen.KernelIdeal.Skeleton
import proofs.«172101_j11879879541673_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel (the candidate state and the blend): what its three kinds of grid points share

The grid is 8 x 8, the second coordinate the reduction step. A point is the FIRST step of its tile (the accumulator is
reset), a MIDDLE step, or the LAST step (the bias row is added, the hyperbolic tangent applied, the result blended with
the previous state by the gate, and the tile stored). -/

/-- The reduction step is the first one. -/
abbrev first1 (i : grid1.Coords) : Prop := (Scalar.cmpi .ne (Scalar.extui (Scalar.cmpi .eq (BitVec.ofNat 32 (i 1).val) 0#32)) 0#32) = 1#1
/-- The reduction step is the last one. -/
abbrev last1 (i : grid1.Coords) : Prop := k1_cond2 i = 1#1

/-- The first steps are the points whose number is a multiple of eight. -/
theorem first1_iff : ∀ t : Fin cfg1.N, first1 (grid1.coords t) ↔ t.val % 8 = 0 :=
  (by decide +kernel : ∀ t : Fin grid1.N, first1 (grid1.coords t) ↔ t.val % 8 = 0)
/-- The last steps are the points whose number is seven modulo eight. -/
theorem last1_iff : ∀ t : Fin cfg1.N, last1 (grid1.coords t) ↔ t.val % 8 = 7 :=
  (by decide +kernel : ∀ t : Fin grid1.N, last1 (grid1.coords t) ↔ t.val % 8 = 7)

/-- The eight input windows are live at every point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem live1_6 : ∀ t : Fin cfg1.N, cfg1.idle 6 (grid1.coords t) = false := by decide +kernel
theorem live1_7 : ∀ t : Fin cfg1.N, cfg1.idle 7 (grid1.coords t) = false := by decide +kernel
/-- The output window is idle, and not written back, at every step but the last; live at the last. -/
theorem idle1_8 : ∀ t : Fin cfg1.N, ¬last1 (grid1.coords t) → cfg1.idle 8 (grid1.coords t) = true := by decide +kernel
theorem noFlush1_8 : ∀ t : Fin cfg1.N, ¬last1 (grid1.coords t) → (cfg1.win 8).flush t = false := by decide +kernel
theorem live1_8 : ∀ t : Fin cfg1.N, last1 (grid1.coords t) → cfg1.idle 8 (grid1.coords t) = false := by decide +kernel

/-- Each window's current staging memref at a point, and its wholeness. -/
abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x2048 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x2048 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x2048 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x2048 .f32 := win1_8.stage (cfg1.slots t 8)
abbrev hs1_8 (t : Fin cfg1.N) : (ms1_8 t).IsWhole := hstage1_8 ((cfg1.slots t 8).cast nbuf1_8)
/-- The accumulator: a whole scoped buffer of the kernel's own. -/
abbrev acM1 : Memref sig .tc .vmem S512x2048 .f32 := Memref.whole cc1_scratch0
/-- The views through which the accumulator's and the output buffer's contents are stated. -/
abbrev VA1 : View sig .tc .vmem S512x2048 .f32 := acM1.view
abbrev VO1 : View sig .tc .vmem S512x2048 .f32 := (Memref.whole cc1_stg8_0 : Memref sig .tc .vmem S512x2048 .f32).view

/-- The scoped buffers the second kernel never touches (the first kernel's staging buffers and accumulator), each at
    some contents: they ride through the region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- Two assertions each entailing the other are equal. -/
theorem eq_of_entails1 {X Y : sProp 𝕄} (h₁ : X ⊢ Y) (h₂ : Y ⊢ X) : X = Y := BI.Entails.antisymm h₁ h₂

/-- What the region's invariant holds besides the windows: the accumulator as a memref owned at some contents, the
    buffers the kernel never touches, and the generator register. The invariant lists the accumulator's buffer after
    the untouched ones; separating conjunction is commutative and associative, so it may be brought to the front. -/
theorem PhiA1_eq (c : Dev nD) :
    (Pipeline.ΦA spec1 c : sProp 𝕄)
      = iprop(iprop((∃ d, owns (c : Thread nD τ) acM1 fullShare d) ∗ others1 c) ∗ (∃ r, prngReg c r)) := by
  unfold Pipeline.ΦA others1; rw [scopedRest1_eq]; simp only [acM1, owns_whole]
  refine congrArg (fun X : sProp 𝕄 => iprop(X ∗ (∃ r, prngReg c r))) ?_
  refine eq_of_entails1 ?_ ?_
  · iintro ⟨H1, H2, H3, H4, H5, H6, H7, H8, H9, H10, H11, H12, H13, HA⟩
    isplitl [HA]; · iexact HA
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨HA, H1, H2, H3, H4, H5, H6, H7, H8, H9, H10, H11, H12, H13⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HA

end Cert.KernelIdeal.Hand

end
-- ==== Proof.K1RunB.lean ====
import proofs.«172101_j11879879541673_2_alg».proof.Proof.K1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A middle step of the second kernel: the two products of the step's blocks are added to the accumulator -/

set_option maxHeartbeats 1000000 in
/-- On whole staging memrefs — the eight inputs at their blocks, the output's at contents handed back untouched, the
    accumulator at what the step before left — the body at a MIDDLE step runs to the continuation holding the inputs and
    the output's buffer as they were and the accumulator with the listed pieces written (last first). -/
noncomputable def run1_B (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : ¬last1 i)
    (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) :
    { LA : List (View.Piece (Elt F) S512x2048 .f32) //
      ∀ (xo : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ (∃ f, arg11.view.loc (c : Thread nD τ) ↦[arg11.view.set]{fullShare} arg11.view.writes (Elt F) f LA)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, fun xo E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hfa
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HA

end Cert.KernelIdeal.Hand

end
-- ==== Proof.K1RunA.lean ====
import proofs.«172101_j11879879541673_2_alg».proof.Proof.K1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A first step of the second kernel: the accumulator is reset to zero, then the step's two products are added -/

set_option maxHeartbeats 1000000 in
/-- As at a middle step, but the accumulator may hold anything at entry: the body overwrites it whole before reading it. -/
noncomputable def run1_A (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : first1 i) (hl : ¬last1 i)
    (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) :
    { LA : List (View.Piece (Elt F) S512x2048 .f32) //
      ∀ (xo : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ (∃ f, arg11.view.loc (c : Thread nD τ) ↦[arg11.view.set]{fullShare} arg11.view.writes (Elt F) f LA)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, fun xo E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%da, %fa, -, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HA

end Cert.KernelIdeal.Hand

end
-- ==== Proof.K1RunC.lean ====
import proofs.«172101_j11879879541673_2_alg».proof.Proof.K1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A last step of the second kernel: the step's products are added, then the bias row is added to the accumulator,
the hyperbolic tangent applied, the result blended with the previous state by the gate, and the tile stored into the
output's buffer -/

set_option maxHeartbeats 1000000 in
/-- The output's buffer may hold anything at entry and ends with the listed pieces written; the accumulator as at a middle step. -/
noncomputable def run1_C (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : last1 i)
    (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) :
    Σ' (LO : List (View.Piece (Elt F) S512x2048 .f32)), { LA : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LA)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    obtain rfl := harg11.eq_unread hfa
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HA

end Cert.KernelIdeal.Hand

end
-- ==== Proof.K1Dat.lean ====
import proofs.«172101_j11879879541673_2_alg».proof.Proof.K1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's proof data: what its buffers hold point by point

Over a family `V` of contents of the core's buffers at the region's entry. At every point each input window's staging
buffer holds the block of its array the index map selects. The accumulator after a point is what that point's run
leaves in it — at a first step from anything, otherwise from what the point before left —, and the output's buffer
after a last step what that run stores; at the other steps the output's window is idle. One array is read through two
windows, which therefore hold it at the two halves of the full share. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after a first step: its pieces read back. -/
def accA1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : first1 i) (hl : ¬last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) : Vec F S512x2048 .f32 :=
  VA1.read (Elt F) (VA1.writes (Elt F) VA1.junk (run1_A c i arg2 harg2 arg3 harg3 arg4 harg4 arg5 harg5 arg6 harg6 arg7 harg7 arg8 harg8 arg9 harg9 arg10 harg10 arg11 harg11 hf hl x0 x1 x2 x3 x4 x5 x6 x7).1)
/-- after a middle step, -/
def accB1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : ¬last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) : Vec F S512x2048 .f32 :=
  VA1.read (Elt F) (VA1.writes (Elt F) VA1.junk (run1_B c i arg2 harg2 arg3 harg3 arg4 harg4 arg5 harg5 arg6 harg6 arg7 harg7 arg8 harg8 arg9 harg9 arg10 harg10 arg11 harg11 hf hl x0 x1 x2 x3 x4 x5 x6 x7 xa).1)
/-- after a last step, -/
def accC1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) : Vec F S512x2048 .f32 :=
  VA1.read (Elt F) (VA1.writes (Elt F) VA1.junk (run1_C c i arg2 harg2 arg3 harg3 arg4 harg4 arg5 harg5 arg6 harg6 arg7 harg7 arg8 harg8 arg9 harg9 arg10 harg10 arg11 harg11 hf hl x0 x1 x2 x3 x4 x5 x6 x7 xa).2.1)
/-- and the output's buffer after a last step. -/
def outC1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) : Vec F S512x2048 .f32 :=
  VO1.read (Elt F) (VO1.writes (Elt F) VO1.junk (run1_C c i arg2 harg2 arg3 harg3 arg4 harg4 arg5 harg5 arg6 harg6 arg7 harg7 arg8 harg8 arg9 harg9 arg10 harg10 arg11 harg11 hf hl x0 x1 x2 x3 x4 x5 x6 x7 xa).1)
/-- Where the output's window is idle nothing is said of its buffer: a placeholder nothing consults. -/
def idleOut1 : Vec F S512x2048 .f32 := VO1.read (Elt F) VO1.junk

/-- Each run's pieces cover the buffer they are written to (every store is of the whole tile). -/
theorem coverA1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : first1 i) (hl : ¬last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (y : S512x2048.Idx) :
    ∃ pc ∈ (run1_A c i arg2 harg2 arg3 harg3 arg4 harg4 arg5 harg5 arg6 harg6 arg7 harg7 arg8 harg8 arg9 harg9 arg10 harg10 arg11 harg11 hf hl x0 x1 x2 x3 x4 x5 x6 x7).1, y ∈ pc.1.set :=
  View.cover_of_tiledL (run1_A c i arg2 harg2 arg3 harg3 arg4 harg4 arg5 harg5 arg6 harg6 arg7 harg7 arg8 harg8 arg9 harg9 arg10 harg10 arg11 harg11 hf hl x0 x1 x2 x3 x4 x5 x6 x7).1 S512x2048.size (by sl_kernel_rfl) y
theorem coverB1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : ¬last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) (y : S512x2048.Idx) :
    ∃ pc ∈ (run1_B c i arg2 harg2 arg3 harg3 arg4 harg4 arg5 harg5 arg6 harg6 arg7 harg7 arg8 harg8 arg9 harg9 arg10 harg10 arg11 harg11 hf hl x0 x1 x2 x3 x4 x5 x6 x7 xa).1, y ∈ pc.1.set :=
  View.cover_of_tiledL (run1_B c i arg2 harg2 arg3 harg3 arg4 harg4 arg5 harg5 arg6 harg6 arg7 harg7 arg8 harg8 arg9 harg9 arg10 harg10 arg11 harg11 hf hl x0 x1 x2 x3 x4 x5 x6 x7 xa).1 S512x2048.size (by sl_kernel_rfl) y
theorem coverC1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) (y : S512x2048.Idx) :
    ∃ pc ∈ (run1_C c i arg2 harg2 arg3 harg3 arg4 harg4 arg5 harg5 arg6 harg6 arg7 harg7 arg8 harg8 arg9 harg9 arg10 harg10 arg11 harg11 hf hl x0 x1 x2 x3 x4 x5 x6 x7 xa).2.1, y ∈ pc.1.set :=
  View.cover_of_tiledL (run1_C c i arg2 harg2 arg3 harg3 arg4 harg4 arg5 harg5 arg6 harg6 arg7 harg7 arg8 harg8 arg9 harg9 arg10 harg10 arg11 harg11 hf hl x0 x1 x2 x3 x4 x5 x6 x7 xa).2.1 S512x2048.size (by sl_kernel_rfl) y
theorem coverO1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) (y : S512x2048.Idx) :
    ∃ pc ∈ (run1_C c i arg2 harg2 arg3 harg3 arg4 harg4 arg5 harg5 arg6 harg6 arg7 harg7 arg8 harg8 arg9 harg9 arg10 harg10 arg11 harg11 hf hl x0 x1 x2 x3 x4 x5 x6 x7 xa).1, y ∈ pc.1.set :=
  View.cover_of_tiledL (run1_C c i arg2 harg2 arg3 harg3 arg4 harg4 arg5 harg5 arg6 harg6 arg7 harg7 arg8 harg8 arg9 harg9 arg10 harg10 arg11 harg11 hf hl x0 x1 x2 x3 x4 x5 x6 x7 xa).1 S512x2048.size (by sl_kernel_rfl) y

/-- THE ACCUMULATION: what the output's staging buffer and the accumulator hold after the body at position `n`, by
    recursion on the position. -/
def outsAt1 (c : Dev nD) : (n : ℕ) → n < cfg1.N → Vec F S512x2048 .f32 × Vec F S512x2048 .f32
  | 0, hn => (idleOut1, accA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) acM1 (Memref.isWhole_whole _) ((first1_iff ⟨0, hn⟩).mpr (Nat.zero_mod _)) (fun h => (fun h => by (try dsimp only at h); omega) ((last1_iff ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 8 = 0 then
      if h1 : (n + 1) % 8 = 7 then False.elim (by omega)
      else (idleOut1, accA1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) acM1 (Memref.isWhole_whole _) ((first1_iff ⟨n + 1, hn⟩).mpr h0) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 8 = 7 then
        (outC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) acM1 (Memref.isWhole_whole _) (fun h => h0 ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2,
         accC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) acM1 (Memref.isWhole_whole _) (fun h => h0 ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (idleOut1, accB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) acM1 (Memref.isWhole_whole _) (fun h => h0 ((first1_iff ⟨n + 1, hn⟩).mp h)) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

/-- `outsAt1` at a first step. -/
theorem outsAt1_A (c : Dev nD) (t : Fin cfg1.N) (h0 : t.val % 8 = 0) (h1 : ¬t.val % 8 = 7) :
    outsAt1 V c t.val t.isLt = (idleOut1, accA1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) ((first1_iff t).mpr h0) (fun h => h1 ((last1_iff t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)
/-- at a middle step, over what the point before left, -/
theorem outsAt1_B (c : Dev nD) (t : Fin cfg1.N) (h0 : ¬t.val % 8 = 0) (h1 : ¬t.val % 8 = 7) :
    outsAt1 V c t.val t.isLt = (idleOut1, accB1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) (fun h => h0 ((first1_iff t).mp h)) (fun h => h1 ((last1_iff t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
/-- at a last step. -/
theorem outsAt1_C (c : Dev nD) (t : Fin cfg1.N) (h0 : ¬t.val % 8 = 0) (h1 : t.val % 8 = 7) :
    outsAt1 V c t.val t.isLt = (outC1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) (fun h => h0 ((first1_iff t).mp h)) ((last1_iff t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
      accC1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) (fun h => h0 ((first1_iff t).mp h)) ((last1_iff t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region; afterwards the
    accumulator at what the point before left in it, the untouched buffers and the generator register. -/
def PhiS1 (c : Dev nD) : (n : ℕ) → n ≤ cfg1.N → sProp 𝕄
  | 0, _ => Pipeline.ΦA spec1 c
  | n + 1, hn => iprop(iprop(owns (c : Thread nD τ) acM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) acM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) acM1 fullShare ((outsAt1 V c (n - 1) (by omega)).2) ∗ others1 c) ∗ (∃ r, prngReg c r)) := by
  cases n with
  | zero => exact absurd rfl hz
  | succ n => rfl

/-- The proof data of the second pipeline on core `c`. Windows 1 and 6 read the same array: each holds it at one half
    of the full share, and the two halves make the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare
    | ⟨5, _⟩ => fullShare
    | ⟨6, _⟩ => fullShare.right
    | ⟨7, _⟩ => fullShare
    | ⟨8, _⟩ => fullShare
  owed _ := 0

/-- The two halves at which windows 1 and 6 hold their common array compose to the full share. -/
theorem full_halves : (fullShare : PosShare TreeShare) ∈ PCS.op (fullShare : PosShare TreeShare).left (fullShare : PosShare TreeShare).right :=
  PosShare.mem_left_op_right fullShare
theorem q1_1 (c : Dev nD) : (dat1 V c).q 1 = fullShare.left := rfl
theorem q1_6 (c : Dev nD) : (dat1 V c).q 6 = fullShare.right := rfl
theorem q1_0 (c : Dev nD) : (dat1 V c).q 0 = fullShare := rfl
theorem q1_2 (c : Dev nD) : (dat1 V c).q 2 = fullShare := rfl
theorem q1_3 (c : Dev nD) : (dat1 V c).q 3 = fullShare := rfl
theorem q1_4 (c : Dev nD) : (dat1 V c).q 4 = fullShare := rfl
theorem q1_5 (c : Dev nD) : (dat1 V c).q 5 = fullShare := rfl
theorem q1_7 (c : Dev nD) : (dat1 V c).q 7 = fullShare := rfl
theorem q1_8 (c : Dev nD) : (dat1 V c).q 8 = fullShare := rfl

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)

end Cert.KernelIdeal.Hand

end
-- ==== Proof.K1Body.lean ====
import proofs.«172101_j11879879541673_2_alg».proof.Proof.K1Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body obligation: at every point the body runs from the invariant and the windows' buffers
to the invariant at the next point and the buffers at what the proof data say -/

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t)

set_option maxHeartbeats 4800000 in
/-- The body at any point. The inputs' buffers hold their blocks; the point's number modulo eight says which kind of step
    it is; the invariant hands the body the accumulator at what the point before left (at anything before the first point)
    and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · have h1 : ¬t.val % 8 = 7 := by omega
    have hf : first1 (grid1.coords t) := (first1_iff t).mpr h0
    have hl : ¬last1 (grid1.coords t) := fun h => h1 ((last1_iff t).mp h)
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [show (dat1 V c).leavesExact 2 t = owns (c : Thread nD τ) (ms1_2 t) fullShare ((dat1 V c).after 2 t) from by
      unfold Dat.leavesExact; rw [live1_2 t], after1_2]
    rw [show (dat1 V c).leavesExact 3 t = owns (c : Thread nD τ) (ms1_3 t) fullShare ((dat1 V c).after 3 t) from by
      unfold Dat.leavesExact; rw [live1_3 t], after1_3]
    rw [show (dat1 V c).leavesExact 4 t = owns (c : Thread nD τ) (ms1_4 t) fullShare ((dat1 V c).after 4 t) from by
      unfold Dat.leavesExact; rw [live1_4 t], after1_4]
    rw [show (dat1 V c).leavesExact 5 t = owns (c : Thread nD τ) (ms1_5 t) fullShare ((dat1 V c).after 5 t) from by
      unfold Dat.leavesExact; rw [live1_5 t], after1_5]
    rw [show (dat1 V c).leavesExact 6 t = owns (c : Thread nD τ) (ms1_6 t) fullShare ((dat1 V c).after 6 t) from by
      unfold Dat.leavesExact; rw [live1_6 t], after1_6]
    rw [show (dat1 V c).leavesExact 7 t = owns (c : Thread nD τ) (ms1_7 t) fullShare ((dat1 V c).after 7 t) from by
      unfold Dat.leavesExact; rw [live1_7 t], after1_7]
    rw [Dat.leavesExact_idle (dat1 V c) 8 t (idle1_8 t hl) (noFlush1_8 t hl)]
    rw [outsAt1_A V c t h0 h1]
    unfold accA1; (try dsimp only)
    by_cases hz : t.val = 0
    · rw [PhiS1_castSucc V c t, PhiS1_zero V c _ _ hz, PhiA1_eq]
      iintro ⟨⟨⟨HA, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexact HA
      iintro ⟨H0, H1, H2, H3, H4, H5, H6, H7, H8, ⟨%fa, HA⟩⟩
      isplitl [HA Hoth Hg]
      · isplitl [HA Hoth]
        · isplitl [HA]
          · unfold owns; iexists _; isplitr
            swap; · iexact HA
            ipureintro; exact View.read_writes_of_cover _ _ _ _ _ (coverA1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS1_castSucc V c t, PhiS1_pos V c _ _ hz]
      iintro ⟨⟨⟨HA, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexists _; iexact HA
      iintro ⟨H0, H1, H2, H3, H4, H5, H6, H7, H8, ⟨%fa, HA⟩⟩
      isplitl [HA Hoth Hg]
      · isplitl [HA Hoth]
        · isplitl [HA]
          · unfold owns; iexists _; isplitr
            swap; · iexact HA
            ipureintro; exact View.read_writes_of_cover _ _ _ _ _ (coverA1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    have hf : ¬first1 (grid1.coords t) := fun h => h0 ((first1_iff t).mp h)
    by_cases h1 : t.val % 8 = 7
    · have hl : last1 (grid1.coords t) := (last1_iff t).mpr h1
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t], after1_4]
      rw [show (dat1 V c).leavesExact 5 t = owns (c : Thread nD τ) (ms1_5 t) fullShare ((dat1 V c).after 5 t) from by
        unfold Dat.leavesExact; rw [live1_5 t], after1_5]
      rw [show (dat1 V c).leavesExact 6 t = owns (c : Thread nD τ) (ms1_6 t) fullShare ((dat1 V c).after 6 t) from by
        unfold Dat.leavesExact; rw [live1_6 t], after1_6]
      rw [show (dat1 V c).leavesExact 7 t = owns (c : Thread nD τ) (ms1_7 t) fullShare ((dat1 V c).after 7 t) from by
        unfold Dat.leavesExact; rw [live1_7 t], after1_7]
      rw [show (dat1 V c).leavesExact 8 t = owns (c : Thread nD τ) (ms1_8 t) fullShare ((dat1 V c).after 8 t) from by
        unfold Dat.leavesExact; rw [live1_8 t hl], after1_8]
      rw [outsAt1_C V c t h0 h1]
      unfold outC1 accC1; (try dsimp only)
      rw [PhiS1_castSucc V c t, PhiS1_pos V c _ _ hz]
      iintro ⟨⟨⟨HA, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HA]; · iexact HA
      iintro ⟨H0, H1, H2, H3, H4, H5, H6, H7, ⟨%f8, H8⟩, ⟨%fa, HA⟩⟩
      isplitl [HA Hoth Hg]
      · isplitl [HA Hoth]
        · isplitl [HA]
          · unfold owns; iexists _; isplitr
            swap; · iexact HA
            ipureintro; exact View.read_writes_of_cover _ _ _ _ _ (coverC1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverO1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2)
    · have hl : ¬last1 (grid1.coords t) := fun h => h1 ((last1_iff t).mp h)
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t], after1_4]
      rw [show (dat1 V c).leavesExact 5 t = owns (c : Thread nD τ) (ms1_5 t) fullShare ((dat1 V c).after 5 t) from by
        unfold Dat.leavesExact; rw [live1_5 t], after1_5]
      rw [show (dat1 V c).leavesExact 6 t = owns (c : Thread nD τ) (ms1_6 t) fullShare ((dat1 V c).after 6 t) from by
        unfold Dat.leavesExact; rw [live1_6 t], after1_6]
      rw [show (dat1 V c).leavesExact 7 t = owns (c : Thread nD τ) (ms1_7 t) fullShare ((dat1 V c).after 7 t) from by
        unfold Dat.leavesExact; rw [live1_7 t], after1_7]
      rw [Dat.leavesExact_idle (dat1 V c) 8 t (idle1_8 t hl) (noFlush1_8 t hl)]
      rw [outsAt1_B V c t h0 h1]
      unfold accB1; (try dsimp only)
      rw [PhiS1_castSucc V c t, PhiS1_pos V c _ _ hz]
      iintro ⟨⟨⟨HA, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexact HA
      iintro ⟨H0, H1, H2, H3, H4, H5, H6, H7, H8, ⟨%fa, HA⟩⟩
      isplitl [HA Hoth Hg]
      · isplitl [HA Hoth]
        · isplitl [HA]
          · unfold owns; iexists _; isplitr
            swap; · iexact HA
            ipureintro; exact View.read_writes_of_cover _ _ _ _ _ (coverB1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HA, Hoth⟩, Hg⟩
  isplitl [HA Hoth]
  · isplitl [HA]; · iexists _; iexact HA
    iexact Hoth
  iexact Hg

end Cert.KernelIdeal.Hand

end
-- ==== Proof.Shared1.lean ====
import proofs.«172101_j11879879541673_2_alg».proof.Proof.Gen.KernelIdeal.Launch
import proofs.«172101_j11879879541673_2_alg».proof.Proof.Gen.KernelIdeal.Points
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # An array read through two windows

The second kernel is handed the states array twice: blocked along the reduction axis for the product, and in full rows
for the final blend. Each of the two windows holds it at one half of the full share; here the eight distinct buffers
behind the nine windows, whole at the full share, are dealt to the windows, and gathered back. -/

variable {c : Dev nD} (dat : Dat τ (Elt F) Unit ℕ (UR sig nD τ) ℕ cfg1 c)

/-- A listed conjunction of eight, spelled out. -/
theorem bigSepL8 {M : Type} [URA M] {I : Type} (a b c d e f g h : I) (Φ : I → sProp M) :
    bigSepL [a, b, c, d, e, f, g, h] Φ = iprop(Φ a ∗ Φ b ∗ Φ c ∗ Φ d ∗ Φ e ∗ Φ f ∗ Φ g ∗ Φ h) := rfl

/-- The share each window of the second kernel holds its array at. -/
def sh1 : Fin cfg1.W → PosShare TreeShare
  | ⟨1, _⟩ => fullShare.left
  | ⟨6, _⟩ => fullShare.right
  | _ => fullShare

/-- The eight buffers behind the nine windows, each whole, are the windows' arrays: the states array's full share is
    cut in two halves, one per window on it. -/
theorem split1 (hsh : ∀ w, dat.share w = sh1 w) (V : (b : Ref sig .tc) → Buf (Elt F) ((c : Thread nD τ).loc b))
    (Fa : (w : Fin cfg1.W) → Buf (Elt F) ((cfg1.win w).arr.view.loc (c : Thread nD τ))) (hF : ∀ w, Fa w = V (Pipeline.arrRef spec1 w)) :
    (Pipeline.arrBufs (Ix := Unit) (Name := ℕ) (U := UR sig nD τ) (Lvl := ℕ) spec1 c V : sProp 𝕄) ⊢ dat.arrays Fa := by
  unfold Dat.arrays Pipeline.arrBufs
  rw [bigSep_W1, bigSep_eq_bigSepL_of_eq [main_arg0, main_arg1, main_v11, main_v14, main_v16, main_v17, main_v12, main_v18] (by decide) (by decide)]
  rw [bigSepL8]
  simp only [hsh, hF, sh1, View.set_whole]
  iintro ⟨H0, H1, H2, H3, H4, H5, H7, H8⟩
  ihave H16 := (pointsTo_share (PosShare.mem_left_op_right fullShare)).1 $$ H1
  icases H16 with ⟨H1, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The converse, at any contents: the nine windows' arrays, the shared one held in two halves, are the eight buffers
    behind them whole. -/
theorem join1 (hsh : ∀ w, dat.share w = sh1 w) (V : (b : Ref sig .tc) → Buf (Elt F) ((c : Thread nD τ).loc b))
    (Fa : (w : Fin cfg1.W) → Buf (Elt F) ((cfg1.win w).arr.view.loc (c : Thread nD τ))) (hF : ∀ w, Fa w = V (Pipeline.arrRef spec1 w)) :
    dat.arrays Fa ⊢ (Pipeline.arrBufs (Ix := Unit) (Name := ℕ) (U := UR sig nD τ) (Lvl := ℕ) spec1 c V : sProp 𝕄) := by
  unfold Dat.arrays Pipeline.arrBufs
  rw [bigSep_W1, bigSep_eq_bigSepL_of_eq [main_arg0, main_arg1, main_v11, main_v14, main_v16, main_v17, main_v12, main_v18] (by decide) (by decide)]
  rw [bigSepL8]
  simp only [hsh, hF, sh1, View.set_whole]
  iintro ⟨H0, H1, H2, H3, H4, H5, H6, H7, H8⟩
  ihave H16 := (pointsTo_share (PosShare.mem_left_op_right fullShare)).2 $$ [H1 H6]
  · isplitl [H1]; · iexact H1
    iexact H6
  isplitl [H0]; · iexact H0
  isplitl [H16]; · iexact H16
  isplitl [H2]; · iexact H2
  isplitl [H3]; · iexact H3
  isplitl [H4]; · iexact H4
  isplitl [H5]; · iexact H5
  isplitl [H7]; · iexact H7
  iexact H8

end Cert.KernelIdeal.Hand

end
-- ==== Proof.Run.lean ====
import proofs.«172101_j11879879541673_2_alg».proof.Proof.Mid
import proofs.«172101_j11879879541673_2_alg».proof.Proof.K1Body
import proofs.«172101_j11879879541673_2_alg».proof.Proof.Shared1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

The program's four items as segments — each host stretch over the contents folded so far, each kernel region from
the core's unscoped buffers at its entry contents to the same at its exit contents —, chained from the launch to the
return; the last contents read against the final memory: the result array holds what the second pipeline leaves in it
and every argument array what it held at launch. -/

variable (m : (ℓ : Loc nD τ sig) → Buf (Elt F) ℓ) (ρ : Dev nD → PrngReg)

/-- At the second kernel's exit: the result array at what the pipeline leaves, every other buffer as entered (the
    kernel's other arrays are inputs). -/
def W4 (c : Dev nD) : Valuation τ sig (Elt F) :=
  Function.update (W3 m ρ c) (Proc.devRef .tc main_v18) ((dat1 (V3 m ρ) c).arrAt 8 cfg1.N)
abbrev V4 : (c : Dev nD) → (b : Ref sig .tc) → Buf (Elt F) ((c : Thread nD τ).loc b) := fun c b => W4 m ρ c b

theorem W4_result (c : Dev nD) : W4 m ρ c (Proc.devRef .tc main_v18) = (dat1 (V3 m ρ) c).arrAt 8 cfg1.N := by
  unfold W4; exact Function.update_self _ _ _
theorem W4_of_ne (c : Dev nD) (b : Ref sig .tc) (hb : b ≠ main_v18) :
    W4 m ρ c (Proc.devRef .tc b) = W3 m ρ c (Proc.devRef .tc b) := by
  unfold W4; exact Function.update_of_ne (StableHlo.devRef_ne_of_ne hb) _ _

/-- The two activation arrays reach the end as launched: the host stretches write neither, both kernels only read them. -/
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    ((W2_arr m ρ c 0).trans (((dat0 (V1 m ρ) c).arrAt_in 0 rfl _).trans (A_eq0 (V1 m ρ) c 0))).trans <|
      (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    ((W2_arr m ρ c 1).trans (((dat0 (V1 m ρ) c).arrAt_in 1 rfl _).trans (A_eq0 (V1 m ρ) c 1))).trans <|
      (W1_of m ρ c main_arg1 (by decide)).trans rfl
/-- A weight or bias array reaches the end as launched: nothing writes it and no kernel stages it. -/
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl
/-- A weight or bias array reaches the end as launched: nothing writes it and no kernel stages it. -/
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| (W1_of m ρ c main_arg3 (by decide)).trans rfl
/-- A weight or bias array reaches the end as launched: nothing writes it and no kernel stages it. -/
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <|
    (W2_of_ne m ρ c main_arg4 (by decide)).trans <| (W1_of m ρ c main_arg4 (by decide)).trans rfl
/-- A weight or bias array reaches the end as launched: nothing writes it and no kernel stages it. -/
theorem W4_main_arg5 (c : Dev nD) : W4 m ρ c (Proc.devRef .tc main_arg5) = m ((c : Thread nD τ).loc main_arg5) :=
  (W4_of_ne m ρ c main_arg5 (by decide)).trans <| (W3_of m ρ c main_arg5 (by decide)).trans <|
    (W2_of_ne m ρ c main_arg5 (by decide)).trans <| (W1_of m ρ c main_arg5 (by decide)).trans rfl
/-- A weight or bias array reaches the end as launched: nothing writes it and no kernel stages it. -/
theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <|
    (W2_of_ne m ρ c main_arg6 (by decide)).trans <| (W1_of m ρ c main_arg6 (by decide)).trans rfl
/-- A weight or bias array reaches the end as launched: nothing writes it and no kernel stages it. -/
theorem W4_main_arg7 (c : Dev nD) : W4 m ρ c (Proc.devRef .tc main_arg7) = m ((c : Thread nD τ).loc main_arg7) :=
  (W4_of_ne m ρ c main_arg7 (by decide)).trans <| (W3_of m ρ c main_arg7 (by decide)).trans <|
    (W2_of_ne m ρ c main_arg7 (by decide)).trans <| (W1_of m ρ c main_arg7 (by decide)).trans rfl

/-- At the second kernel's exit each window's array holds what the exit contents say: an input as entered, the result
    what the pipeline leaves. -/
theorem arrAt1_exit (c : Dev nD) : ∀ w, (dat1 (V3 m ρ) c).arrAt w cfg1.N = V4 m ρ c (Pipeline.arrRef spec1 w) := by
  intro w
  fin_cases w
  · exact (((dat1 (V3 m ρ) c).arrAt_in 0 rfl _).trans (A_eq1 (V3 m ρ) c 0)).trans (W4_of_ne m ρ c main_arg0 (by decide)).symm
  · exact (((dat1 (V3 m ρ) c).arrAt_in 1 rfl _).trans (A_eq1 (V3 m ρ) c 1)).trans (W4_of_ne m ρ c main_arg1 (by decide)).symm
  · exact (((dat1 (V3 m ρ) c).arrAt_in 2 rfl _).trans (A_eq1 (V3 m ρ) c 2)).trans (W4_of_ne m ρ c main_v11 (by decide)).symm
  · exact (((dat1 (V3 m ρ) c).arrAt_in 3 rfl _).trans (A_eq1 (V3 m ρ) c 3)).trans (W4_of_ne m ρ c main_v14 (by decide)).symm
  · exact (((dat1 (V3 m ρ) c).arrAt_in 4 rfl _).trans (A_eq1 (V3 m ρ) c 4)).trans (W4_of_ne m ρ c main_v16 (by decide)).symm
  · exact (((dat1 (V3 m ρ) c).arrAt_in 5 rfl _).trans (A_eq1 (V3 m ρ) c 5)).trans (W4_of_ne m ρ c main_v17 (by decide)).symm
  · exact (((dat1 (V3 m ρ) c).arrAt_in 6 rfl _).trans (A_eq1 (V3 m ρ) c 6)).trans (W4_of_ne m ρ c main_arg1 (by decide)).symm
  · exact (((dat1 (V3 m ρ) c).arrAt_in 7 rfl _).trans (A_eq1 (V3 m ρ) c 7)).trans (W4_of_ne m ρ c main_v12 (by decide)).symm
  · exact (W4_result m ρ c).symm

/-- Off the second kernel's arrays the exit contents are the entry contents. -/
theorem rest1_exit (c : Dev nD) :
    (Pipeline.unscopedRest (Ix := Unit) (Name := ℕ) (U := UR sig nD τ) (Lvl := ℕ) spec1 c (V3 m ρ c) : sProp 𝕄)
      ⊢ Pipeline.unscopedRest spec1 c (V4 m ρ c) := by
  refine Entails.of_eq (Eq.symm ?_)
  unfold Pipeline.unscopedRest
  exact bigSep_congr fun b hb => by
    rw [show V4 m ρ c b = V3 m ρ c b from W4_of_ne m ρ c b fun e =>
      (Finset.mem_sdiff.mp hb).2 (e ▸ Finset.mem_image.mpr ⟨8, Finset.mem_univ _, rfl⟩)]

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first kernel over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second pipeline's windows hold their arrays at the full share, but for the states array, read through two
    windows and held by each at one half. -/
theorem share1 (c : Dev nD) (w : Fin cfg1.W) : (dat1 (V3 m ρ) c).share w = sh1 w := by
  fin_cases w <;> rfl

set_option backward.isDefEq.respectTransparency.types false in
/-- The second kernel over the thread state: entered from every unscoped buffer at `W3`, left at `W4`. The states
    array is dealt to its two windows in halves at the entry and joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsp := Pipeline.unscopedBufs_split₀ (Ix := Unit) (Name := ℕ) (U := UR sig nD τ) (Lvl := ℕ) (Pipeline.pin (pcfgs (F := F)) adm) 1 winFacts₀1.arr_unscoped c (V3 m ρ c)
    rw [Pipeline.unscopedBufs_held] at hsp
    rw [hsp]
    iintro ⟨⟨⟨Hab, Hrest⟩, Hp, HO⟩, -, -⟩
    ihave Ha := (split1 (dat1 (V3 m ρ) c) (share1 m ρ c) (V3 m ρ c) ((dat1 (V3 m ρ) c).arrAt · 0) (fun _ => rfl)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 1 winFacts₀1.arr_unscoped c (V4 m ρ c)
    rw [Pipeline.unscopedBufs_held] at hsp
    iintro ⟨Ha, HO, HY, Hrest⟩
    imodintro
    isplitl [Ha Hrest HY]
    · isplitl [Ha Hrest]
      · rw [hsp]
        isplitl [Ha]
        · iapply (join1 (dat1 (V3 m ρ) c) (share1 m ρ c) (V4 m ρ c) ((dat1 (V3 m ρ) c).arrAt · cfg1.N) (arrAt1_exit m ρ c))
          iexact Ha
        · iapply (rest1_exit m ρ c); iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN, at any instance: from any memory with zero counters every weakly fair execution of the program on the
    TensorCores terminates, nothing faulting, and every final state has the result array at what the second pipeline
    leaves in it and the eight argument arrays as launched. -/
theorem run : θ_run defs (onTc (τ := τ) (main (F := F))) ⟨m, fun _ => 0, ρ⟩ (fun r => ∀ c : Dev nD,
      r.2.mem ((c.tc : Thread nD τ).loc main_v18) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v18 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.WK0Shared.lean ====
import proofs.«172101_j11879879541673_2_alg».proof.Proof.Gen.Kernel.Launch
import proofs.«172101_j11879879541673_2_alg».proof.Proof.Gen.Kernel.Skeleton
import proofs.«172101_j11879879541673_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel (the gates r and z): what its three kinds of grid points share

The grid is 4 x 4 x 4, the last coordinate the reduction step. A point is the FIRST step of its tile (the accumulator is
reset), a MIDDLE step, or the LAST step (the bias is added, the logistic applied and the tile stored). -/

/-- The reduction step is the first one. -/
abbrev first0 (i : grid0.Coords) : Prop := (Scalar.cmpi .ne (Scalar.extui (Scalar.cmpi .eq (BitVec.ofNat 32 (i 2).val) 0#32)) 0#32) = 1#1
/-- The reduction step is the last one. -/
abbrev last0 (i : grid0.Coords) : Prop := k0_cond2 i = 1#1

/-- The first steps are the points whose number is a multiple of four. -/
theorem first0_iff : ∀ t : Fin cfg0.N, first0 (grid0.coords t) ↔ t.val % 4 = 0 :=
  (by decide +kernel : ∀ t : Fin grid0.N, first0 (grid0.coords t) ↔ t.val % 4 = 0)
/-- The last steps are the points whose number is three modulo four. -/
theorem last0_iff : ∀ t : Fin cfg0.N, last0 (grid0.coords t) ↔ t.val % 4 = 3 :=
  (by decide +kernel : ∀ t : Fin grid0.N, last0 (grid0.coords t) ↔ t.val % 4 = 3)

/-- The five input windows are live at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
/-- The output window is idle, and not written back, at every step but the last; live at the last. -/
theorem idle0_5 : ∀ t : Fin cfg0.N, ¬last0 (grid0.coords t) → cfg0.idle 5 (grid0.coords t) = true := by decide +kernel
theorem noFlush0_5 : ∀ t : Fin cfg0.N, ¬last0 (grid0.coords t) → (cfg0.win 5).flush t = false := by decide +kernel
theorem live0_5 : ∀ t : Fin cfg0.N, last0 (grid0.coords t) → cfg0.idle 5 (grid0.coords t) = false := by decide +kernel

/-- Each window's current staging memref at a point, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev acM0 : Memref sig .tc .vmem S1024x1024 .f32 := Memref.whole cc0_scratch0
/-- The views through which the accumulator's and the output buffer's contents are stated. -/
abbrev VA0 : View sig .tc .vmem S1024x1024 .f32 := acM0.view
abbrev VO0 : View sig .tc .vmem S1024x1024 .f32 := (Memref.whole cc0_stg5_0 : Memref sig .tc .vmem S1024x1024 .f32).view

/-- The scoped buffers the first kernel never touches (the second kernel's staging buffers and accumulator), each at
    some contents: they ride through the region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f))

/-- What the region's invariant holds besides the windows: the accumulator as a memref owned at some contents, the
    buffers the kernel never touches, and the generator register. -/
theorem PhiA0_eq (c : Dev nD) :
    (Pipeline.ΦA spec0 c : sProp 𝕄)
      = iprop(iprop((∃ d, owns (c : Thread nD τ) acM0 fullShare d) ∗ others0 c) ∗ (∃ r, prngReg c r)) := by
  unfold Pipeline.ΦA others0; rw [scopedRest0_eq]; simp only [acM0, owns_whole]; try rfl

end Cert.Kernel.Hand

end
-- ==== Proof.WK0RunB.lean ====
import proofs.«172101_j11879879541673_2_alg».proof.Proof.WK0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A middle step of the first kernel: the two products of the step's blocks are added to the accumulator -/

set_option maxHeartbeats 1000000 in
/-- On whole staging memrefs — the five inputs at their blocks, the output's at contents handed back untouched, the
    accumulator at what the step before left — the body at a MIDDLE step runs to the continuation holding the inputs and
    the output's buffer as they were and the accumulator with the listed pieces written (last first). -/
noncomputable def run0_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : ¬last0 i)
    (x0 : Vec F S1024x512 .f32) (x1 : Vec F S1024x512 .f32) (x2 : Vec F S512x1024 .bf16) (x3 : Vec F S512x1024 .bf16) (x4 : Vec F S1x1024 .f32) (xa : Vec F S1024x1024 .f32) :
    { LA : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xa
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LA)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, fun xo E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fa, %hfa, HA⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfa
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HA

end Cert.Kernel.Hand

end
-- ==== Proof.WK0RunA.lean ====
import proofs.«172101_j11879879541673_2_alg».proof.Proof.WK0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A first step of the first kernel: the accumulator is reset to zero, then the step's two products are added -/

set_option maxHeartbeats 1000000 in
/-- As at a middle step, but the accumulator may hold anything at entry: the body overwrites it whole before reading it. -/
noncomputable def run0_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : first0 i) (hl : ¬last0 i)
    (x0 : Vec F S1024x512 .f32) (x1 : Vec F S1024x512 .f32) (x2 : Vec F S512x1024 .bf16) (x3 : Vec F S512x1024 .bf16) (x4 : Vec F S1x1024 .f32) :
    { LA : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LA)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, fun xo E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%da, %fa, -, HA⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HA

end Cert.Kernel.Hand

end
-- ==== Proof.WK0RunC.lean ====
import proofs.«172101_j11879879541673_2_alg».proof.Proof.WK0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A last step of the first kernel: the step's products are added, then the bias row is added to the accumulator,
the logistic function applied, and the tile stored into the output's buffer -/

set_option maxHeartbeats 1000000 in
/-- The output's buffer may hold anything at entry and ends with the listed pieces written; the accumulator as at a middle step. -/
noncomputable def run0_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : last0 i)
    (x0 : Vec F S1024x512 .f32) (x1 : Vec F S1024x512 .f32) (x2 : Vec F S512x1024 .bf16) (x3 : Vec F S512x1024 .bf16) (x4 : Vec F S1x1024 .f32) (xa : Vec F S1024x1024 .f32) :
    Σ' (LO : List (View.Piece (Elt F) S1024x1024 .f32)), { LA : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xa
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LA)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fa, %hfa, HA⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfa
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HA

end Cert.Kernel.Hand

end
-- ==== Proof.WK0Dat.lean ====
import proofs.«172101_j11879879541673_2_alg».proof.Proof.WK0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's proof data: what its buffers hold point by point

Over a family `V` of contents of the core's buffers at the region's entry. At every point each input window's staging
buffer holds the block of its array the index map selects. The accumulator after a point is what that point's run
leaves in it — at a first step from anything, otherwise from what the point before left —, and the output's buffer
after a last step what that run stores; at the other steps the output's window is idle. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after a first step: its pieces read back. -/
def accA0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : first0 i) (hl : ¬last0 i) (x0 : Vec F S1024x512 .f32) (x1 : Vec F S1024x512 .f32) (x2 : Vec F S512x1024 .bf16) (x3 : Vec F S512x1024 .bf16) (x4 : Vec F S1x1024 .f32) : Vec F S1024x1024 .f32 :=
  VA0.read (Elt F) (VA0.writes (Elt F) VA0.junk (run0_A c i arg3 harg3 arg4 harg4 arg5 harg5 arg6 harg6 arg7 harg7 arg8 harg8 arg9 harg9 hf hl x0 x1 x2 x3 x4).1)
/-- after a middle step, -/
def accB0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : ¬last0 i) (x0 : Vec F S1024x512 .f32) (x1 : Vec F S1024x512 .f32) (x2 : Vec F S512x1024 .bf16) (x3 : Vec F S512x1024 .bf16) (x4 : Vec F S1x1024 .f32) (xa : Vec F S1024x1024 .f32) : Vec F S1024x1024 .f32 :=
  VA0.read (Elt F) (VA0.writes (Elt F) VA0.junk (run0_B c i arg3 harg3 arg4 harg4 arg5 harg5 arg6 harg6 arg7 harg7 arg8 harg8 arg9 harg9 hf hl x0 x1 x2 x3 x4 xa).1)
/-- after a last step, -/
def accC0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : last0 i) (x0 : Vec F S1024x512 .f32) (x1 : Vec F S1024x512 .f32) (x2 : Vec F S512x1024 .bf16) (x3 : Vec F S512x1024 .bf16) (x4 : Vec F S1x1024 .f32) (xa : Vec F S1024x1024 .f32) : Vec F S1024x1024 .f32 :=
  VA0.read (Elt F) (VA0.writes (Elt F) VA0.junk (run0_C c i arg3 harg3 arg4 harg4 arg5 harg5 arg6 harg6 arg7 harg7 arg8 harg8 arg9 harg9 hf hl x0 x1 x2 x3 x4 xa).2.1)
/-- and the output's buffer after a last step. -/
def outC0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : last0 i) (x0 : Vec F S1024x512 .f32) (x1 : Vec F S1024x512 .f32) (x2 : Vec F S512x1024 .bf16) (x3 : Vec F S512x1024 .bf16) (x4 : Vec F S1x1024 .f32) (xa : Vec F S1024x1024 .f32) : Vec F S1024x1024 .f32 :=
  VO0.read (Elt F) (VO0.writes (Elt F) VO0.junk (run0_C c i arg3 harg3 arg4 harg4 arg5 harg5 arg6 harg6 arg7 harg7 arg8 harg8 arg9 harg9 hf hl x0 x1 x2 x3 x4 xa).1)
/-- Where the output's window is idle nothing is said of its buffer: a placeholder nothing consults. -/
def idleOut0 : Vec F S1024x1024 .f32 := VO0.read (Elt F) VO0.junk

/-- Each run's pieces cover the buffer they are written to (every store is of the whole tile). -/
theorem coverA0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : first0 i) (hl : ¬last0 i) (x0 : Vec F S1024x512 .f32) (x1 : Vec F S1024x512 .f32) (x2 : Vec F S512x1024 .bf16) (x3 : Vec F S512x1024 .bf16) (x4 : Vec F S1x1024 .f32) (y : S1024x1024.Idx) :
    ∃ pc ∈ (run0_A c i arg3 harg3 arg4 harg4 arg5 harg5 arg6 harg6 arg7 harg7 arg8 harg8 arg9 harg9 hf hl x0 x1 x2 x3 x4).1, y ∈ pc.1.set :=
  View.cover_of_tiledL (run0_A c i arg3 harg3 arg4 harg4 arg5 harg5 arg6 harg6 arg7 harg7 arg8 harg8 arg9 harg9 hf hl x0 x1 x2 x3 x4).1 S1024x1024.size (by sl_kernel_rfl) y
theorem coverB0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : ¬last0 i) (x0 : Vec F S1024x512 .f32) (x1 : Vec F S1024x512 .f32) (x2 : Vec F S512x1024 .bf16) (x3 : Vec F S512x1024 .bf16) (x4 : Vec F S1x1024 .f32) (xa : Vec F S1024x1024 .f32) (y : S1024x1024.Idx) :
    ∃ pc ∈ (run0_B c i arg3 harg3 arg4 harg4 arg5 harg5 arg6 harg6 arg7 harg7 arg8 harg8 arg9 harg9 hf hl x0 x1 x2 x3 x4 xa).1, y ∈ pc.1.set :=
  View.cover_of_tiledL (run0_B c i arg3 harg3 arg4 harg4 arg5 harg5 arg6 harg6 arg7 harg7 arg8 harg8 arg9 harg9 hf hl x0 x1 x2 x3 x4 xa).1 S1024x1024.size (by sl_kernel_rfl) y
theorem coverC0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : last0 i) (x0 : Vec F S1024x512 .f32) (x1 : Vec F S1024x512 .f32) (x2 : Vec F S512x1024 .bf16) (x3 : Vec F S512x1024 .bf16) (x4 : Vec F S1x1024 .f32) (xa : Vec F S1024x1024 .f32) (y : S1024x1024.Idx) :
    ∃ pc ∈ (run0_C c i arg3 harg3 arg4 harg4 arg5 harg5 arg6 harg6 arg7 harg7 arg8 harg8 arg9 harg9 hf hl x0 x1 x2 x3 x4 xa).2.1, y ∈ pc.1.set :=
  View.cover_of_tiledL (run0_C c i arg3 harg3 arg4 harg4 arg5 harg5 arg6 harg6 arg7 harg7 arg8 harg8 arg9 harg9 hf hl x0 x1 x2 x3 x4 xa).2.1 S1024x1024.size (by sl_kernel_rfl) y
theorem coverO0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : last0 i) (x0 : Vec F S1024x512 .f32) (x1 : Vec F S1024x512 .f32) (x2 : Vec F S512x1024 .bf16) (x3 : Vec F S512x1024 .bf16) (x4 : Vec F S1x1024 .f32) (xa : Vec F S1024x1024 .f32) (y : S1024x1024.Idx) :
    ∃ pc ∈ (run0_C c i arg3 harg3 arg4 harg4 arg5 harg5 arg6 harg6 arg7 harg7 arg8 harg8 arg9 harg9 hf hl x0 x1 x2 x3 x4 xa).1, y ∈ pc.1.set :=
  View.cover_of_tiledL (run0_C c i arg3 harg3 arg4 harg4 arg5 harg5 arg6 harg6 arg7 harg7 arg8 harg8 arg9 harg9 hf hl x0 x1 x2 x3 x4 xa).1 S1024x1024.size (by sl_kernel_rfl) y

/-- THE ACCUMULATION: what the output's staging buffer and the accumulator hold after the body at position `n`, by
    recursion on the position. -/
def outsAt0 (c : Dev nD) : (n : ℕ) → n < cfg0.N → Vec F S1024x1024 .f32 × Vec F S1024x1024 .f32
  | 0, hn => (idleOut0, accA0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) acM0 (Memref.isWhole_whole _) ((first0_iff ⟨0, hn⟩).mpr (Nat.zero_mod _)) (fun h => (fun h => by (try dsimp only at h); omega) ((last0_iff ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then False.elim (by omega)
      else (idleOut0, accA0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) acM0 (Memref.isWhole_whole _) ((first0_iff ⟨n + 1, hn⟩).mpr h0) (fun h => h1 ((last0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (outC0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) acM0 (Memref.isWhole_whole _) (fun h => h0 ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
         accC0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) acM0 (Memref.isWhole_whole _) (fun h => h0 ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (idleOut0, accB0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) acM0 (Memref.isWhole_whole _) (fun h => h0 ((first0_iff ⟨n + 1, hn⟩).mp h)) (fun h => h1 ((last0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at a first step. -/
theorem outsAt0_A (c : Dev nD) (t : Fin cfg0.N) (h0 : t.val % 4 = 0) (h1 : ¬t.val % 4 = 3) :
    outsAt0 V c t.val t.isLt = (idleOut0, accA0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) ((first0_iff t).mpr h0) (fun h => h1 ((last0_iff t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)
/-- at a middle step, over what the point before left, -/
theorem outsAt0_B (c : Dev nD) (t : Fin cfg0.N) (h0 : ¬t.val % 4 = 0) (h1 : ¬t.val % 4 = 3) :
    outsAt0 V c t.val t.isLt = (idleOut0, accB0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) (fun h => h0 ((first0_iff t).mp h)) (fun h => h1 ((last0_iff t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
/-- at a last step. -/
theorem outsAt0_C (c : Dev nD) (t : Fin cfg0.N) (h0 : ¬t.val % 4 = 0) (h1 : t.val % 4 = 3) :
    outsAt0 V c t.val t.isLt = (outC0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) (fun h => h0 ((first0_iff t).mp h)) ((last0_iff t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      accC0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) (fun h => h0 ((first0_iff t).mp h)) ((last0_iff t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region; afterwards the
    accumulator at what the point before left in it, the untouched buffers and the generator register. -/
def PhiS0 (c : Dev nD) : (n : ℕ) → n ≤ cfg0.N → sProp 𝕄
  | 0, _ => Pipeline.ΦA spec0 c
  | n + 1, hn => iprop(iprop(owns (c : Thread nD τ) acM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) acM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) acM0 fullShare ((outsAt0 V c (n - 1) (by omega)).2) ∗ others0 c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

end Cert.Kernel.Hand

end
-- ==== Proof.WK0Body.lean ====
import proofs.«172101_j11879879541673_2_alg».proof.Proof.WK0Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body obligation: at every point the body runs from the invariant and the windows' buffers
to the invariant at the next point and the buffers at what the proof data say -/

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' buffers hold their blocks; the point's number modulo four says which kind of step
    it is; the invariant hands the body the accumulator at what the point before left (at anything before the first point)
    and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · have h1 : ¬t.val % 4 = 3 := by omega
    have hf : first0 (grid0.coords t) := (first0_iff t).mpr h0
    have hl : ¬last0 (grid0.coords t) := fun h => h1 ((last0_iff t).mp h)
    rw [show (dat0 V c).leavesExact 0 t = owns (c : Thread nD τ) (ms0_0 t) fullShare ((dat0 V c).after 0 t) from by
      unfold Dat.leavesExact; rw [live0_0 t], after0_0]
    rw [show (dat0 V c).leavesExact 1 t = owns (c : Thread nD τ) (ms0_1 t) fullShare ((dat0 V c).after 1 t) from by
      unfold Dat.leavesExact; rw [live0_1 t], after0_1]
    rw [show (dat0 V c).leavesExact 2 t = owns (c : Thread nD τ) (ms0_2 t) fullShare ((dat0 V c).after 2 t) from by
      unfold Dat.leavesExact; rw [live0_2 t], after0_2]
    rw [show (dat0 V c).leavesExact 3 t = owns (c : Thread nD τ) (ms0_3 t) fullShare ((dat0 V c).after 3 t) from by
      unfold Dat.leavesExact; rw [live0_3 t], after0_3]
    rw [show (dat0 V c).leavesExact 4 t = owns (c : Thread nD τ) (ms0_4 t) fullShare ((dat0 V c).after 4 t) from by
      unfold Dat.leavesExact; rw [live0_4 t], after0_4]
    rw [Dat.leavesExact_idle (dat0 V c) 5 t (idle0_5 t hl) (noFlush0_5 t hl)]
    rw [outsAt0_A V c t h0 h1]
    unfold accA0; (try dsimp only)
    by_cases hz : t.val = 0
    · rw [PhiS0_castSucc V c t, PhiS0_zero V c _ _ hz, PhiA0_eq]
      iintro ⟨⟨⟨HA, Hoth⟩, Hg⟩, Ho, ⟨%d0, H0⟩, ⟨%d1, H1⟩, ⟨%d2, H2⟩, ⟨%d3, H3⟩, ⟨%d4, H4⟩, ⟨%d5, H5⟩⟩
      iapply ((run0_A c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      iintro ⟨H0, H1, H2, H3, H4, H5, ⟨%fa, HA⟩⟩
      isplitl [HA Hoth Hg]
      · isplitl [HA Hoth]
        · isplitl [HA]
          · unfold owns; iexists _; isplitr
            swap; · iexact HA
            ipureintro; exact View.read_writes_of_cover _ _ _ _ _ (coverA0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HA, Hoth⟩, Hg⟩, Ho, ⟨%d0, H0⟩, ⟨%d1, H1⟩, ⟨%d2, H2⟩, ⟨%d3, H3⟩, ⟨%d4, H4⟩, ⟨%d5, H5⟩⟩
      iapply ((run0_A c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexists _; iexact HA
      iintro ⟨H0, H1, H2, H3, H4, H5, ⟨%fa, HA⟩⟩
      isplitl [HA Hoth Hg]
      · isplitl [HA Hoth]
        · isplitl [HA]
          · unfold owns; iexists _; isplitr
            swap; · iexact HA
            ipureintro; exact View.read_writes_of_cover _ _ _ _ _ (coverA0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hf : ¬first0 (grid0.coords t) := fun h => h0 ((first0_iff t).mp h)
    by_cases h1 : t.val % 4 = 3
    · have hl : last0 (grid0.coords t) := (last0_iff t).mpr h1
      rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [show (dat0 V c).leavesExact 3 t = owns (c : Thread nD τ) (ms0_3 t) fullShare ((dat0 V c).after 3 t) from by
        unfold Dat.leavesExact; rw [live0_3 t], after0_3]
      rw [show (dat0 V c).leavesExact 4 t = owns (c : Thread nD τ) (ms0_4 t) fullShare ((dat0 V c).after 4 t) from by
        unfold Dat.leavesExact; rw [live0_4 t], after0_4]
      rw [show (dat0 V c).leavesExact 5 t = owns (c : Thread nD τ) (ms0_5 t) fullShare ((dat0 V c).after 5 t) from by
        unfold Dat.leavesExact; rw [live0_5 t hl], after0_5]
      rw [outsAt0_C V c t h0 h1]
      unfold outC0 accC0; (try dsimp only)
      rw [PhiS0_castSucc V c t, PhiS0_pos V c _ _ hz]
      iintro ⟨⟨⟨HA, Hoth⟩, Hg⟩, Ho, ⟨%d0, H0⟩, ⟨%d1, H1⟩, ⟨%d2, H2⟩, ⟨%d3, H3⟩, ⟨%d4, H4⟩, ⟨%d5, H5⟩⟩
      iapply ((run0_C c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t) (outsAt0 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HA]; · iexact HA
      iintro ⟨H0, H1, H2, H3, H4, ⟨%f5, H5⟩, ⟨%fa, HA⟩⟩
      isplitl [HA Hoth Hg]
      · isplitl [HA Hoth]
        · isplitl [HA]
          · unfold owns; iexists _; isplitr
            swap; · iexact HA
            ipureintro; exact View.read_writes_of_cover _ _ _ _ _ (coverC0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t) (outsAt0 V c (t.val - 1) (Nat.lt_of_le_of_lt (Nat.sub_le _ _) t.isLt)).2)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverO0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t) (outsAt0 V c (t.val - 1) (Nat.lt_of_le_of_lt (Nat.sub_le _ _) t.isLt)).2)
    · have hl : ¬last0 (grid0.coords t) := fun h => h1 ((last0_iff t).mp h)
      rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [show (dat0 V c).leavesExact 3 t = owns (c : Thread nD τ) (ms0_3 t) fullShare ((dat0 V c).after 3 t) from by
        unfold Dat.leavesExact; rw [live0_3 t], after0_3]
      rw [show (dat0 V c).leavesExact 4 t = owns (c : Thread nD τ) (ms0_4 t) fullShare ((dat0 V c).after 4 t) from by
        unfold Dat.leavesExact; rw [live0_4 t], after0_4]
      rw [Dat.leavesExact_idle (dat0 V c) 5 t (idle0_5 t hl) (noFlush0_5 t hl)]
      rw [outsAt0_B V c t h0 h1]
      unfold accB0; (try dsimp only)
      rw [PhiS0_castSucc V c t, PhiS0_pos V c _ _ hz]
      iintro ⟨⟨⟨HA, Hoth⟩, Hg⟩, Ho, ⟨%d0, H0⟩, ⟨%d1, H1⟩, ⟨%d2, H2⟩, ⟨%d3, H3⟩, ⟨%d4, H4⟩, ⟨%d5, H5⟩⟩
      iapply ((run0_B c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t) (outsAt0 V c (t.val - 1) (Nat.lt_of_le_of_lt (Nat.sub_le _ _) t.isLt)).2).2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      iintro ⟨H0, H1, H2, H3, H4, H5, ⟨%fa, HA⟩⟩
      isplitl [HA Hoth Hg]
      · isplitl [HA Hoth]
        · isplitl [HA]
          · unfold owns; iexists _; isplitr
            swap; · iexact HA
            ipureintro; exact View.read_writes_of_cover _ _ _ _ _ (coverB0 c (grid0.coords t) (ms0_0 t) (hs0_0 t) (ms0_1 t) (hs0_1 t) (ms0_2 t) (hs0_2 t) (ms0_3 t) (hs0_3 t) (ms0_4 t) (hs0_4 t) (ms0_5 t) (hs0_5 t) acM0 (Memref.isWhole_whole _) hf hl (iblk0 V c 0 t) (iblk0 V c 1 t) (iblk0 V c 2 t) (iblk0 V c 3 t) (iblk0 V c 4 t) (outsAt0 V c (t.val - 1) (Nat.lt_of_le_of_lt (Nat.sub_le _ _) t.isLt)).2)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HA, Hoth⟩, Hg⟩
  isplitl [HA Hoth]
  · isplitl [HA]; · iexists _; iexact HA
    iexact Hoth
  iexact Hg

end Cert.Kernel.Hand

end
-- ==== Proof.WMid.lean ====
import proofs.«172101_j11879879541673_2_alg».proof.Proof.WK0Body
import proofs.«172101_j11879879541673_2_alg».proof.Proof.Gen.Kernel.Regions
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents between the items of the program

The program is: host operations (the weights' halves cut, joined and converted; the bias rows joined), the first kernel
(the gates), host operations (the gates' two halves cut out; the candidate's weights cut and converted), the second
kernel. The contents of the core's buffers at each boundary, folded through the program from the launch memory. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the second kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- A buffer no host operation of the first stretch writes is as launched after it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A buffer no host operation of the second stretch writes is after it as the first kernel left it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

end Cert.Kernel.Hand

end
-- ==== Proof.WK1Shared.lean ====
import proofs.«172101_j11879879541673_2_alg».proof.Proof.Gen.Kernel.Launch
import proofs.«172101_j11879879541673_2_alg».proof.Proof.Gen.Kernel.Skeleton
import proofs.«172101_j11879879541673_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel (the candidate state and the blend): what its three kinds of grid points share

The grid is 8 x 8, the second coordinate the reduction step. A point is the FIRST step of its tile (the accumulator is
reset), a MIDDLE step, or the LAST step (the bias row is added, the hyperbolic tangent applied, the result blended with
the previous state by the gate, and the tile stored). -/

/-- The reduction step is the first one. -/
abbrev first1 (i : grid1.Coords) : Prop := (Scalar.cmpi .ne (Scalar.extui (Scalar.cmpi .eq (BitVec.ofNat 32 (i 1).val) 0#32)) 0#32) = 1#1
/-- The reduction step is the last one. -/
abbrev last1 (i : grid1.Coords) : Prop := k1_cond2 i = 1#1

/-- The first steps are the points whose number is a multiple of eight. -/
theorem first1_iff : ∀ t : Fin cfg1.N, first1 (grid1.coords t) ↔ t.val % 8 = 0 :=
  (by decide +kernel : ∀ t : Fin grid1.N, first1 (grid1.coords t) ↔ t.val % 8 = 0)
/-- The last steps are the points whose number is seven modulo eight. -/
theorem last1_iff : ∀ t : Fin cfg1.N, last1 (grid1.coords t) ↔ t.val % 8 = 7 :=
  (by decide +kernel : ∀ t : Fin grid1.N, last1 (grid1.coords t) ↔ t.val % 8 = 7)

/-- The eight input windows are live at every point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem live1_6 : ∀ t : Fin cfg1.N, cfg1.idle 6 (grid1.coords t) = false := by decide +kernel
theorem live1_7 : ∀ t : Fin cfg1.N, cfg1.idle 7 (grid1.coords t) = false := by decide +kernel
/-- The output window is idle, and not written back, at every step but the last; live at the last. -/
theorem idle1_8 : ∀ t : Fin cfg1.N, ¬last1 (grid1.coords t) → cfg1.idle 8 (grid1.coords t) = true := by decide +kernel
theorem noFlush1_8 : ∀ t : Fin cfg1.N, ¬last1 (grid1.coords t) → (cfg1.win 8).flush t = false := by decide +kernel
theorem live1_8 : ∀ t : Fin cfg1.N, last1 (grid1.coords t) → cfg1.idle 8 (grid1.coords t) = false := by decide +kernel

/-- Each window's current staging memref at a point, and its wholeness. -/
abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x2048 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x2048 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x2048 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x2048 .f32 := win1_8.stage (cfg1.slots t 8)
abbrev hs1_8 (t : Fin cfg1.N) : (ms1_8 t).IsWhole := hstage1_8 ((cfg1.slots t 8).cast nbuf1_8)
/-- The accumulator: a whole scoped buffer of the kernel's own. -/
abbrev acM1 : Memref sig .tc .vmem S512x2048 .f32 := Memref.whole cc1_scratch0
/-- The views through which the accumulator's and the output buffer's contents are stated. -/
abbrev VA1 : View sig .tc .vmem S512x2048 .f32 := acM1.view
abbrev VO1 : View sig .tc .vmem S512x2048 .f32 := (Memref.whole cc1_stg8_0 : Memref sig .tc .vmem S512x2048 .f32).view

/-- The scoped buffers the second kernel never touches (the first kernel's staging buffers and accumulator), each at
    some contents: they ride through the region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- Two assertions each entailing the other are equal. -/
theorem eq_of_entails1 {X Y : sProp 𝕄} (h₁ : X ⊢ Y) (h₂ : Y ⊢ X) : X = Y := BI.Entails.antisymm h₁ h₂

/-- What the region's invariant holds besides the windows: the accumulator as a memref owned at some contents, the
    buffers the kernel never touches, and the generator register. The invariant lists the accumulator's buffer after
    the untouched ones; separating conjunction is commutative and associative, so it may be brought to the front. -/
theorem PhiA1_eq (c : Dev nD) :
    (Pipeline.ΦA spec1 c : sProp 𝕄)
      = iprop(iprop((∃ d, owns (c : Thread nD τ) acM1 fullShare d) ∗ others1 c) ∗ (∃ r, prngReg c r)) := by
  unfold Pipeline.ΦA others1; rw [scopedRest1_eq]; simp only [acM1, owns_whole]
  refine congrArg (fun X : sProp 𝕄 => iprop(X ∗ (∃ r, prngReg c r))) ?_
  refine eq_of_entails1 ?_ ?_
  · iintro ⟨H1, H2, H3, H4, H5, H6, H7, H8, H9, H10, H11, H12, H13, HA⟩
    isplitl [HA]; · iexact HA
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨HA, H1, H2, H3, H4, H5, H6, H7, H8, H9, H10, H11, H12, H13⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HA

end Cert.Kernel.Hand

end
-- ==== Proof.WK1RunB.lean ====
import proofs.«172101_j11879879541673_2_alg».proof.Proof.WK1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A middle step of the second kernel: the two products of the step's blocks are added to the accumulator -/

set_option maxHeartbeats 1000000 in
/-- On whole staging memrefs — the eight inputs at their blocks, the output's at contents handed back untouched, the
    accumulator at what the step before left — the body at a MIDDLE step runs to the continuation holding the inputs and
    the output's buffer as they were and the accumulator with the listed pieces written (last first). -/
noncomputable def run1_B (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : ¬last1 i)
    (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) :
    { LA : List (View.Piece (Elt F) S512x2048 .f32) //
      ∀ (xo : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ (∃ f, arg11.view.loc (c : Thread nD τ) ↦[arg11.view.set]{fullShare} arg11.view.writes (Elt F) f LA)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, fun xo E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hfa
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HA

end Cert.Kernel.Hand

end
-- ==== Proof.WK1RunA.lean ====
import proofs.«172101_j11879879541673_2_alg».proof.Proof.WK1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A first step of the second kernel: the accumulator is reset to zero, then the step's two products are added -/

set_option maxHeartbeats 1000000 in
/-- As at a middle step, but the accumulator may hold anything at entry: the body overwrites it whole before reading it. -/
noncomputable def run1_A (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : first1 i) (hl : ¬last1 i)
    (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) :
    { LA : List (View.Piece (Elt F) S512x2048 .f32) //
      ∀ (xo : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ (∃ f, arg11.view.loc (c : Thread nD τ) ↦[arg11.view.set]{fullShare} arg11.view.writes (Elt F) f LA)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, fun xo E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%da, %fa, -, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HA

end Cert.Kernel.Hand

end
-- ==== Proof.WK1RunC.lean ====
import proofs.«172101_j11879879541673_2_alg».proof.Proof.WK1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A last step of the second kernel: the step's products are added, then the bias row is added to the accumulator,
the hyperbolic tangent applied, the result blended with the previous state by the gate, and the tile stored into the
output's buffer -/

set_option maxHeartbeats 1000000 in
/-- The output's buffer may hold anything at entry and ends with the listed pieces written; the accumulator as at a middle step. -/
noncomputable def run1_C (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : last1 i)
    (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) :
    Σ' (LO : List (View.Piece (Elt F) S512x2048 .f32)), { LA : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LA)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    obtain rfl := harg11.eq_unread hfa
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HA

end Cert.Kernel.Hand

end
-- ==== Proof.WK1Dat.lean ====
import proofs.«172101_j11879879541673_2_alg».proof.Proof.WK1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's proof data: what its buffers hold point by point

Over a family `V` of contents of the core's buffers at the region's entry. At every point each input window's staging
buffer holds the block of its array the index map selects. The accumulator after a point is what that point's run
leaves in it — at a first step from anything, otherwise from what the point before left —, and the output's buffer
after a last step what that run stores; at the other steps the output's window is idle. One array is read through two
windows, which therefore hold it at the two halves of the full share. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after a first step: its pieces read back. -/
def accA1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : first1 i) (hl : ¬last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) : Vec F S512x2048 .f32 :=
  VA1.read (Elt F) (VA1.writes (Elt F) VA1.junk (run1_A c i arg2 harg2 arg3 harg3 arg4 harg4 arg5 harg5 arg6 harg6 arg7 harg7 arg8 harg8 arg9 harg9 arg10 harg10 arg11 harg11 hf hl x0 x1 x2 x3 x4 x5 x6 x7).1)
/-- after a middle step, -/
def accB1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : ¬last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) : Vec F S512x2048 .f32 :=
  VA1.read (Elt F) (VA1.writes (Elt F) VA1.junk (run1_B c i arg2 harg2 arg3 harg3 arg4 harg4 arg5 harg5 arg6 harg6 arg7 harg7 arg8 harg8 arg9 harg9 arg10 harg10 arg11 harg11 hf hl x0 x1 x2 x3 x4 x5 x6 x7 xa).1)
/-- after a last step, -/
def accC1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) : Vec F S512x2048 .f32 :=
  VA1.read (Elt F) (VA1.writes (Elt F) VA1.junk (run1_C c i arg2 harg2 arg3 harg3 arg4 harg4 arg5 harg5 arg6 harg6 arg7 harg7 arg8 harg8 arg9 harg9 arg10 harg10 arg11 harg11 hf hl x0 x1 x2 x3 x4 x5 x6 x7 xa).2.1)
/-- and the output's buffer after a last step. -/
def outC1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) : Vec F S512x2048 .f32 :=
  VO1.read (Elt F) (VO1.writes (Elt F) VO1.junk (run1_C c i arg2 harg2 arg3 harg3 arg4 harg4 arg5 harg5 arg6 harg6 arg7 harg7 arg8 harg8 arg9 harg9 arg10 harg10 arg11 harg11 hf hl x0 x1 x2 x3 x4 x5 x6 x7 xa).1)
/-- Where the output's window is idle nothing is said of its buffer: a placeholder nothing consults. -/
def idleOut1 : Vec F S512x2048 .f32 := VO1.read (Elt F) VO1.junk

/-- Each run's pieces cover the buffer they are written to (every store is of the whole tile). -/
theorem coverA1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : first1 i) (hl : ¬last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (y : S512x2048.Idx) :
    ∃ pc ∈ (run1_A c i arg2 harg2 arg3 harg3 arg4 harg4 arg5 harg5 arg6 harg6 arg7 harg7 arg8 harg8 arg9 harg9 arg10 harg10 arg11 harg11 hf hl x0 x1 x2 x3 x4 x5 x6 x7).1, y ∈ pc.1.set :=
  View.cover_of_tiledL (run1_A c i arg2 harg2 arg3 harg3 arg4 harg4 arg5 harg5 arg6 harg6 arg7 harg7 arg8 harg8 arg9 harg9 arg10 harg10 arg11 harg11 hf hl x0 x1 x2 x3 x4 x5 x6 x7).1 S512x2048.size (by sl_kernel_rfl) y
theorem coverB1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : ¬last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) (y : S512x2048.Idx) :
    ∃ pc ∈ (run1_B c i arg2 harg2 arg3 harg3 arg4 harg4 arg5 harg5 arg6 harg6 arg7 harg7 arg8 harg8 arg9 harg9 arg10 harg10 arg11 harg11 hf hl x0 x1 x2 x3 x4 x5 x6 x7 xa).1, y ∈ pc.1.set :=
  View.cover_of_tiledL (run1_B c i arg2 harg2 arg3 harg3 arg4 harg4 arg5 harg5 arg6 harg6 arg7 harg7 arg8 harg8 arg9 harg9 arg10 harg10 arg11 harg11 hf hl x0 x1 x2 x3 x4 x5 x6 x7 xa).1 S512x2048.size (by sl_kernel_rfl) y
theorem coverC1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) (y : S512x2048.Idx) :
    ∃ pc ∈ (run1_C c i arg2 harg2 arg3 harg3 arg4 harg4 arg5 harg5 arg6 harg6 arg7 harg7 arg8 harg8 arg9 harg9 arg10 harg10 arg11 harg11 hf hl x0 x1 x2 x3 x4 x5 x6 x7 xa).2.1, y ∈ pc.1.set :=
  View.cover_of_tiledL (run1_C c i arg2 harg2 arg3 harg3 arg4 harg4 arg5 harg5 arg6 harg6 arg7 harg7 arg8 harg8 arg9 harg9 arg10 harg10 arg11 harg11 hf hl x0 x1 x2 x3 x4 x5 x6 x7 xa).2.1 S512x2048.size (by sl_kernel_rfl) y
theorem coverO1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) (y : S512x2048.Idx) :
    ∃ pc ∈ (run1_C c i arg2 harg2 arg3 harg3 arg4 harg4 arg5 harg5 arg6 harg6 arg7 harg7 arg8 harg8 arg9 harg9 arg10 harg10 arg11 harg11 hf hl x0 x1 x2 x3 x4 x5 x6 x7 xa).1, y ∈ pc.1.set :=
  View.cover_of_tiledL (run1_C c i arg2 harg2 arg3 harg3 arg4 harg4 arg5 harg5 arg6 harg6 arg7 harg7 arg8 harg8 arg9 harg9 arg10 harg10 arg11 harg11 hf hl x0 x1 x2 x3 x4 x5 x6 x7 xa).1 S512x2048.size (by sl_kernel_rfl) y

/-- THE ACCUMULATION: what the output's staging buffer and the accumulator hold after the body at position `n`, by
    recursion on the position. -/
def outsAt1 (c : Dev nD) : (n : ℕ) → n < cfg1.N → Vec F S512x2048 .f32 × Vec F S512x2048 .f32
  | 0, hn => (idleOut1, accA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) acM1 (Memref.isWhole_whole _) ((first1_iff ⟨0, hn⟩).mpr (Nat.zero_mod _)) (fun h => (fun h => by (try dsimp only at h); omega) ((last1_iff ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 8 = 0 then
      if h1 : (n + 1) % 8 = 7 then False.elim (by omega)
      else (idleOut1, accA1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) acM1 (Memref.isWhole_whole _) ((first1_iff ⟨n + 1, hn⟩).mpr h0) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 8 = 7 then
        (outC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) acM1 (Memref.isWhole_whole _) (fun h => h0 ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2,
         accC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) acM1 (Memref.isWhole_whole _) (fun h => h0 ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (idleOut1, accB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) acM1 (Memref.isWhole_whole _) (fun h => h0 ((first1_iff ⟨n + 1, hn⟩).mp h)) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

/-- `outsAt1` at a first step. -/
theorem outsAt1_A (c : Dev nD) (t : Fin cfg1.N) (h0 : t.val % 8 = 0) (h1 : ¬t.val % 8 = 7) :
    outsAt1 V c t.val t.isLt = (idleOut1, accA1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) ((first1_iff t).mpr h0) (fun h => h1 ((last1_iff t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)
/-- at a middle step, over what the point before left, -/
theorem outsAt1_B (c : Dev nD) (t : Fin cfg1.N) (h0 : ¬t.val % 8 = 0) (h1 : ¬t.val % 8 = 7) :
    outsAt1 V c t.val t.isLt = (idleOut1, accB1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) (fun h => h0 ((first1_iff t).mp h)) (fun h => h1 ((last1_iff t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
/-- at a last step. -/
theorem outsAt1_C (c : Dev nD) (t : Fin cfg1.N) (h0 : ¬t.val % 8 = 0) (h1 : t.val % 8 = 7) :
    outsAt1 V c t.val t.isLt = (outC1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) (fun h => h0 ((first1_iff t).mp h)) ((last1_iff t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
      accC1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) (fun h => h0 ((first1_iff t).mp h)) ((last1_iff t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region; afterwards the
    accumulator at what the point before left in it, the untouched buffers and the generator register. -/
def PhiS1 (c : Dev nD) : (n : ℕ) → n ≤ cfg1.N → sProp 𝕄
  | 0, _ => Pipeline.ΦA spec1 c
  | n + 1, hn => iprop(iprop(owns (c : Thread nD τ) acM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) acM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) acM1 fullShare ((outsAt1 V c (n - 1) (by omega)).2) ∗ others1 c) ∗ (∃ r, prngReg c r)) := by
  cases n with
  | zero => exact absurd rfl hz
  | succ n => rfl

/-- The proof data of the second pipeline on core `c`. Windows 1 and 6 read the same array: each holds it at one half
    of the full share, and the two halves make the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare
    | ⟨5, _⟩ => fullShare
    | ⟨6, _⟩ => fullShare.right
    | ⟨7, _⟩ => fullShare
    | ⟨8, _⟩ => fullShare
  owed _ := 0

/-- The two halves at which windows 1 and 6 hold their common array compose to the full share. -/
theorem full_halves : (fullShare : PosShare TreeShare) ∈ PCS.op (fullShare : PosShare TreeShare).left (fullShare : PosShare TreeShare).right :=
  PosShare.mem_left_op_right fullShare
theorem q1_1 (c : Dev nD) : (dat1 V c).q 1 = fullShare.left := rfl
theorem q1_6 (c : Dev nD) : (dat1 V c).q 6 = fullShare.right := rfl
theorem q1_0 (c : Dev nD) : (dat1 V c).q 0 = fullShare := rfl
theorem q1_2 (c : Dev nD) : (dat1 V c).q 2 = fullShare := rfl
theorem q1_3 (c : Dev nD) : (dat1 V c).q 3 = fullShare := rfl
theorem q1_4 (c : Dev nD) : (dat1 V c).q 4 = fullShare := rfl
theorem q1_5 (c : Dev nD) : (dat1 V c).q 5 = fullShare := rfl
theorem q1_7 (c : Dev nD) : (dat1 V c).q 7 = fullShare := rfl
theorem q1_8 (c : Dev nD) : (dat1 V c).q 8 = fullShare := rfl

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)

end Cert.Kernel.Hand

end
-- ==== Proof.WK1Body.lean ====
import proofs.«172101_j11879879541673_2_alg».proof.Proof.WK1Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body obligation: at every point the body runs from the invariant and the windows' buffers
to the invariant at the next point and the buffers at what the proof data say -/

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t)

set_option maxHeartbeats 4800000 in
/-- The body at any point. The inputs' buffers hold their blocks; the point's number modulo eight says which kind of step
    it is; the invariant hands the body the accumulator at what the point before left (at anything before the first point)
    and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · have h1 : ¬t.val % 8 = 7 := by omega
    have hf : first1 (grid1.coords t) := (first1_iff t).mpr h0
    have hl : ¬last1 (grid1.coords t) := fun h => h1 ((last1_iff t).mp h)
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [show (dat1 V c).leavesExact 2 t = owns (c : Thread nD τ) (ms1_2 t) fullShare ((dat1 V c).after 2 t) from by
      unfold Dat.leavesExact; rw [live1_2 t], after1_2]
    rw [show (dat1 V c).leavesExact 3 t = owns (c : Thread nD τ) (ms1_3 t) fullShare ((dat1 V c).after 3 t) from by
      unfold Dat.leavesExact; rw [live1_3 t], after1_3]
    rw [show (dat1 V c).leavesExact 4 t = owns (c : Thread nD τ) (ms1_4 t) fullShare ((dat1 V c).after 4 t) from by
      unfold Dat.leavesExact; rw [live1_4 t], after1_4]
    rw [show (dat1 V c).leavesExact 5 t = owns (c : Thread nD τ) (ms1_5 t) fullShare ((dat1 V c).after 5 t) from by
      unfold Dat.leavesExact; rw [live1_5 t], after1_5]
    rw [show (dat1 V c).leavesExact 6 t = owns (c : Thread nD τ) (ms1_6 t) fullShare ((dat1 V c).after 6 t) from by
      unfold Dat.leavesExact; rw [live1_6 t], after1_6]
    rw [show (dat1 V c).leavesExact 7 t = owns (c : Thread nD τ) (ms1_7 t) fullShare ((dat1 V c).after 7 t) from by
      unfold Dat.leavesExact; rw [live1_7 t], after1_7]
    rw [Dat.leavesExact_idle (dat1 V c) 8 t (idle1_8 t hl) (noFlush1_8 t hl)]
    rw [outsAt1_A V c t h0 h1]
    unfold accA1; (try dsimp only)
    by_cases hz : t.val = 0
    · rw [PhiS1_castSucc V c t, PhiS1_zero V c _ _ hz, PhiA1_eq]
      iintro ⟨⟨⟨HA, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexact HA
      iintro ⟨H0, H1, H2, H3, H4, H5, H6, H7, H8, ⟨%fa, HA⟩⟩
      isplitl [HA Hoth Hg]
      · isplitl [HA Hoth]
        · isplitl [HA]
          · unfold owns; iexists _; isplitr
            swap; · iexact HA
            ipureintro; exact View.read_writes_of_cover _ _ _ _ _ (coverA1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS1_castSucc V c t, PhiS1_pos V c _ _ hz]
      iintro ⟨⟨⟨HA, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexists _; iexact HA
      iintro ⟨H0, H1, H2, H3, H4, H5, H6, H7, H8, ⟨%fa, HA⟩⟩
      isplitl [HA Hoth Hg]
      · isplitl [HA Hoth]
        · isplitl [HA]
          · unfold owns; iexists _; isplitr
            swap; · iexact HA
            ipureintro; exact View.read_writes_of_cover _ _ _ _ _ (coverA1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    have hf : ¬first1 (grid1.coords t) := fun h => h0 ((first1_iff t).mp h)
    by_cases h1 : t.val % 8 = 7
    · have hl : last1 (grid1.coords t) := (last1_iff t).mpr h1
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t], after1_4]
      rw [show (dat1 V c).leavesExact 5 t = owns (c : Thread nD τ) (ms1_5 t) fullShare ((dat1 V c).after 5 t) from by
        unfold Dat.leavesExact; rw [live1_5 t], after1_5]
      rw [show (dat1 V c).leavesExact 6 t = owns (c : Thread nD τ) (ms1_6 t) fullShare ((dat1 V c).after 6 t) from by
        unfold Dat.leavesExact; rw [live1_6 t], after1_6]
      rw [show (dat1 V c).leavesExact 7 t = owns (c : Thread nD τ) (ms1_7 t) fullShare ((dat1 V c).after 7 t) from by
        unfold Dat.leavesExact; rw [live1_7 t], after1_7]
      rw [show (dat1 V c).leavesExact 8 t = owns (c : Thread nD τ) (ms1_8 t) fullShare ((dat1 V c).after 8 t) from by
        unfold Dat.leavesExact; rw [live1_8 t hl], after1_8]
      rw [outsAt1_C V c t h0 h1]
      unfold outC1 accC1; (try dsimp only)
      rw [PhiS1_castSucc V c t, PhiS1_pos V c _ _ hz]
      iintro ⟨⟨⟨HA, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HA]; · iexact HA
      iintro ⟨H0, H1, H2, H3, H4, H5, H6, H7, ⟨%f8, H8⟩, ⟨%fa, HA⟩⟩
      isplitl [HA Hoth Hg]
      · isplitl [HA Hoth]
        · isplitl [HA]
          · unfold owns; iexists _; isplitr
            swap; · iexact HA
            ipureintro; exact View.read_writes_of_cover _ _ _ _ _ (coverC1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverO1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2)
    · have hl : ¬last1 (grid1.coords t) := fun h => h1 ((last1_iff t).mp h)
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t], after1_4]
      rw [show (dat1 V c).leavesExact 5 t = owns (c : Thread nD τ) (ms1_5 t) fullShare ((dat1 V c).after 5 t) from by
        unfold Dat.leavesExact; rw [live1_5 t], after1_5]
      rw [show (dat1 V c).leavesExact 6 t = owns (c : Thread nD τ) (ms1_6 t) fullShare ((dat1 V c).after 6 t) from by
        unfold Dat.leavesExact; rw [live1_6 t], after1_6]
      rw [show (dat1 V c).leavesExact 7 t = owns (c : Thread nD τ) (ms1_7 t) fullShare ((dat1 V c).after 7 t) from by
        unfold Dat.leavesExact; rw [live1_7 t], after1_7]
      rw [Dat.leavesExact_idle (dat1 V c) 8 t (idle1_8 t hl) (noFlush1_8 t hl)]
      rw [outsAt1_B V c t h0 h1]
      unfold accB1; (try dsimp only)
      rw [PhiS1_castSucc V c t, PhiS1_pos V c _ _ hz]
      iintro ⟨⟨⟨HA, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexact HA
      iintro ⟨H0, H1, H2, H3, H4, H5, H6, H7, H8, ⟨%fa, HA⟩⟩
      isplitl [HA Hoth Hg]
      · isplitl [HA Hoth]
        · isplitl [HA]
          · unfold owns; iexists _; isplitr
            swap; · iexact HA
            ipureintro; exact View.read_writes_of_cover _ _ _ _ _ (coverB1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) acM1 (Memref.isWhole_whole _) hf hl (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HA, Hoth⟩, Hg⟩
  isplitl [HA Hoth]
  · isplitl [HA]; · iexists _; iexact HA
    iexact Hoth
  iexact Hg

end Cert.Kernel.Hand

end
-- ==== Proof.WShared1.lean ====
import proofs.«172101_j11879879541673_2_alg».proof.Proof.Gen.Kernel.Launch
import proofs.«172101_j11879879541673_2_alg».proof.Proof.Gen.Kernel.Points
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # An array read through two windows

The second kernel is handed the states array twice: blocked along the reduction axis for the product, and in full rows
for the final blend. Each of the two windows holds it at one half of the full share; here the eight distinct buffers
behind the nine windows, whole at the full share, are dealt to the windows, and gathered back. -/

variable {c : Dev nD} (dat : Dat τ (Elt F) Unit ℕ (UR sig nD τ) ℕ cfg1 c)

/-- A listed conjunction of eight, spelled out. -/
theorem bigSepL8 {M : Type} [URA M] {I : Type} (a b c d e f g h : I) (Φ : I → sProp M) :
    bigSepL [a, b, c, d, e, f, g, h] Φ = iprop(Φ a ∗ Φ b ∗ Φ c ∗ Φ d ∗ Φ e ∗ Φ f ∗ Φ g ∗ Φ h) := rfl

/-- The share each window of the second kernel holds its array at. -/
def sh1 : Fin cfg1.W → PosShare TreeShare
  | ⟨1, _⟩ => fullShare.left
  | ⟨6, _⟩ => fullShare.right
  | _ => fullShare

/-- The eight buffers behind the nine windows, each whole, are the windows' arrays: the states array's full share is
    cut in two halves, one per window on it. -/
theorem split1 (hsh : ∀ w, dat.share w = sh1 w) (V : (b : Ref sig .tc) → Buf (Elt F) ((c : Thread nD τ).loc b))
    (Fa : (w : Fin cfg1.W) → Buf (Elt F) ((cfg1.win w).arr.view.loc (c : Thread nD τ))) (hF : ∀ w, Fa w = V (Pipeline.arrRef spec1 w)) :
    (Pipeline.arrBufs (Ix := Unit) (Name := ℕ) (U := UR sig nD τ) (Lvl := ℕ) spec1 c V : sProp 𝕄) ⊢ dat.arrays Fa := by
  unfold Dat.arrays Pipeline.arrBufs
  rw [bigSep_W1, bigSep_eq_bigSepL_of_eq [main_arg0, main_arg1, main_v11, main_v14, main_v16, main_v17, main_v12, main_v18] (by decide) (by decide)]
  rw [bigSepL8]
  simp only [hsh, hF, sh1, View.set_whole]
  iintro ⟨H0, H1, H2, H3, H4, H5, H7, H8⟩
  ihave H16 := (pointsTo_share (PosShare.mem_left_op_right fullShare)).1 $$ H1
  icases H16 with ⟨H1, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The converse, at any contents: the nine windows' arrays, the shared one held in two halves, are the eight buffers
    behind them whole. -/
theorem join1 (hsh : ∀ w, dat.share w = sh1 w) (V : (b : Ref sig .tc) → Buf (Elt F) ((c : Thread nD τ).loc b))
    (Fa : (w : Fin cfg1.W) → Buf (Elt F) ((cfg1.win w).arr.view.loc (c : Thread nD τ))) (hF : ∀ w, Fa w = V (Pipeline.arrRef spec1 w)) :
    dat.arrays Fa ⊢ (Pipeline.arrBufs (Ix := Unit) (Name := ℕ) (U := UR sig nD τ) (Lvl := ℕ) spec1 c V : sProp 𝕄) := by
  unfold Dat.arrays Pipeline.arrBufs
  rw [bigSep_W1, bigSep_eq_bigSepL_of_eq [main_arg0, main_arg1, main_v11, main_v14, main_v16, main_v17, main_v12, main_v18] (by decide) (by decide)]
  rw [bigSepL8]
  simp only [hsh, hF, sh1, View.set_whole]
  iintro ⟨H0, H1, H2, H3, H4, H5, H6, H7, H8⟩
  ihave H16 := (pointsTo_share (PosShare.mem_left_op_right fullShare)).2 $$ [H1 H6]
  · isplitl [H1]; · iexact H1
    iexact H6
  isplitl [H0]; · iexact H0
  isplitl [H16]; · iexact H16
  isplitl [H2]; · iexact H2
  isplitl [H3]; · iexact H3
  isplitl [H4]; · iexact H4
  isplitl [H5]; · iexact H5
  isplitl [H7]; · iexact H7
  iexact H8

end Cert.Kernel.Hand

end
-- ==== Proof.WRun.lean ====
import proofs.«172101_j11879879541673_2_alg».proof.Proof.WMid
import proofs.«172101_j11879879541673_2_alg».proof.Proof.WK1Body
import proofs.«172101_j11879879541673_2_alg».proof.Proof.WShared1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

The program's four items as segments — each host stretch over the contents folded so far, each kernel region from
the core's unscoped buffers at its entry contents to the same at its exit contents —, chained from the launch to the
return; the last contents read against the final memory: the result array holds what the second pipeline leaves in it
and every argument array what it held at launch. -/

variable (m : (ℓ : Loc nD τ sig) → Buf (Elt F) ℓ) (ρ : Dev nD → PrngReg)

/-- At the second kernel's exit: the result array at what the pipeline leaves, every other buffer as entered (the
    kernel's other arrays are inputs). -/
def W4 (c : Dev nD) : Valuation τ sig (Elt F) :=
  Function.update (W3 m ρ c) (Proc.devRef .tc main_v18) ((dat1 (V3 m ρ) c).arrAt 8 cfg1.N)
abbrev V4 : (c : Dev nD) → (b : Ref sig .tc) → Buf (Elt F) ((c : Thread nD τ).loc b) := fun c b => W4 m ρ c b

theorem W4_result (c : Dev nD) : W4 m ρ c (Proc.devRef .tc main_v18) = (dat1 (V3 m ρ) c).arrAt 8 cfg1.N := by
  unfold W4; exact Function.update_self _ _ _
theorem W4_of_ne (c : Dev nD) (b : Ref sig .tc) (hb : b ≠ main_v18) :
    W4 m ρ c (Proc.devRef .tc b) = W3 m ρ c (Proc.devRef .tc b) := by
  unfold W4; exact Function.update_of_ne (StableHlo.devRef_ne_of_ne hb) _ _

/-- The two activation arrays reach the end as launched: the host stretches write neither, both kernels only read them. -/
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    ((W2_arr m ρ c 0).trans (((dat0 (V1 m ρ) c).arrAt_in 0 rfl _).trans (A_eq0 (V1 m ρ) c 0))).trans <|
      (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    ((W2_arr m ρ c 1).trans (((dat0 (V1 m ρ) c).arrAt_in 1 rfl _).trans (A_eq0 (V1 m ρ) c 1))).trans <|
      (W1_of m ρ c main_arg1 (by decide)).trans rfl
/-- A weight or bias array reaches the end as launched: nothing writes it and no kernel stages it. -/
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl
/-- A weight or bias array reaches the end as launched: nothing writes it and no kernel stages it. -/
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| (W1_of m ρ c main_arg3 (by decide)).trans rfl
/-- A weight or bias array reaches the end as launched: nothing writes it and no kernel stages it. -/
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <|
    (W2_of_ne m ρ c main_arg4 (by decide)).trans <| (W1_of m ρ c main_arg4 (by decide)).trans rfl
/-- A weight or bias array reaches the end as launched: nothing writes it and no kernel stages it. -/
theorem W4_main_arg5 (c : Dev nD) : W4 m ρ c (Proc.devRef .tc main_arg5) = m ((c : Thread nD τ).loc main_arg5) :=
  (W4_of_ne m ρ c main_arg5 (by decide)).trans <| (W3_of m ρ c main_arg5 (by decide)).trans <|
    (W2_of_ne m ρ c main_arg5 (by decide)).trans <| (W1_of m ρ c main_arg5 (by decide)).trans rfl
/-- A weight or bias array reaches the end as launched: nothing writes it and no kernel stages it. -/
theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <|
    (W2_of_ne m ρ c main_arg6 (by decide)).trans <| (W1_of m ρ c main_arg6 (by decide)).trans rfl
/-- A weight or bias array reaches the end as launched: nothing writes it and no kernel stages it. -/
theorem W4_main_arg7 (c : Dev nD) : W4 m ρ c (Proc.devRef .tc main_arg7) = m ((c : Thread nD τ).loc main_arg7) :=
  (W4_of_ne m ρ c main_arg7 (by decide)).trans <| (W3_of m ρ c main_arg7 (by decide)).trans <|
    (W2_of_ne m ρ c main_arg7 (by decide)).trans <| (W1_of m ρ c main_arg7 (by decide)).trans rfl

/-- At the second kernel's exit each window's array holds what the exit contents say: an input as entered, the result
    what the pipeline leaves. -/
theorem arrAt1_exit (c : Dev nD) : ∀ w, (dat1 (V3 m ρ) c).arrAt w cfg1.N = V4 m ρ c (Pipeline.arrRef spec1 w) := by
  intro w
  fin_cases w
  · exact (((dat1 (V3 m ρ) c).arrAt_in 0 rfl _).trans (A_eq1 (V3 m ρ) c 0)).trans (W4_of_ne m ρ c main_arg0 (by decide)).symm
  · exact (((dat1 (V3 m ρ) c).arrAt_in 1 rfl _).trans (A_eq1 (V3 m ρ) c 1)).trans (W4_of_ne m ρ c main_arg1 (by decide)).symm
  · exact (((dat1 (V3 m ρ) c).arrAt_in 2 rfl _).trans (A_eq1 (V3 m ρ) c 2)).trans (W4_of_ne m ρ c main_v11 (by decide)).symm
  · exact (((dat1 (V3 m ρ) c).arrAt_in 3 rfl _).trans (A_eq1 (V3 m ρ) c 3)).trans (W4_of_ne m ρ c main_v14 (by decide)).symm
  · exact (((dat1 (V3 m ρ) c).arrAt_in 4 rfl _).trans (A_eq1 (V3 m ρ) c 4)).trans (W4_of_ne m ρ c main_v16 (by decide)).symm
  · exact (((dat1 (V3 m ρ) c).arrAt_in 5 rfl _).trans (A_eq1 (V3 m ρ) c 5)).trans (W4_of_ne m ρ c main_v17 (by decide)).symm
  · exact (((dat1 (V3 m ρ) c).arrAt_in 6 rfl _).trans (A_eq1 (V3 m ρ) c 6)).trans (W4_of_ne m ρ c main_arg1 (by decide)).symm
  · exact (((dat1 (V3 m ρ) c).arrAt_in 7 rfl _).trans (A_eq1 (V3 m ρ) c 7)).trans (W4_of_ne m ρ c main_v12 (by decide)).symm
  · exact (W4_result m ρ c).symm

/-- Off the second kernel's arrays the exit contents are the entry contents. -/
theorem rest1_exit (c : Dev nD) :
    (Pipeline.unscopedRest (Ix := Unit) (Name := ℕ) (U := UR sig nD τ) (Lvl := ℕ) spec1 c (V3 m ρ c) : sProp 𝕄)
      ⊢ Pipeline.unscopedRest spec1 c (V4 m ρ c) := by
  refine Entails.of_eq (Eq.symm ?_)
  unfold Pipeline.unscopedRest
  exact bigSep_congr fun b hb => by
    rw [show V4 m ρ c b = V3 m ρ c b from W4_of_ne m ρ c b fun e =>
      (Finset.mem_sdiff.mp hb).2 (e ▸ Finset.mem_image.mpr ⟨8, Finset.mem_univ _, rfl⟩)]

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first kernel over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second pipeline's windows hold their arrays at the full share, but for the states array, read through two
    windows and held by each at one half. -/
theorem share1 (c : Dev nD) (w : Fin cfg1.W) : (dat1 (V3 m ρ) c).share w = sh1 w := by
  fin_cases w <;> rfl

set_option backward.isDefEq.respectTransparency.types false in
/-- The second kernel over the thread state: entered from every unscoped buffer at `W3`, left at `W4`. The states
    array is dealt to its two windows in halves at the entry and joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsp := Pipeline.unscopedBufs_split₀ (Ix := Unit) (Name := ℕ) (U := UR sig nD τ) (Lvl := ℕ) (Pipeline.pin (pcfgs (F := F)) adm) 1 winFacts₀1.arr_unscoped c (V3 m ρ c)
    rw [Pipeline.unscopedBufs_held] at hsp
    rw [hsp]
    iintro ⟨⟨⟨Hab, Hrest⟩, Hp, HO⟩, -, -⟩
    ihave Ha := (split1 (dat1 (V3 m ρ) c) (share1 m ρ c) (V3 m ρ c) ((dat1 (V3 m ρ) c).arrAt · 0) (fun _ => rfl)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 1 winFacts₀1.arr_unscoped c (V4 m ρ c)
    rw [Pipeline.unscopedBufs_held] at hsp
    iintro ⟨Ha, HO, HY, Hrest⟩
    imodintro
    isplitl [Ha Hrest HY]
    · isplitl [Ha Hrest]
      · rw [hsp]
        isplitl [Ha]
        · iapply (join1 (dat1 (V3 m ρ) c) (share1 m ρ c) (V4 m ρ c) ((dat1 (V3 m ρ) c).arrAt · cfg1.N) (arrAt1_exit m ρ c))
          iexact Ha
        · iapply (rest1_exit m ρ c); iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN, at any instance: from any memory with zero counters every weakly fair execution of the program on the
    TensorCores terminates, nothing faulting, and every final state has the result array at what the second pipeline
    leaves in it and the eight argument arrays as launched. -/
theorem run : θ_run defs (onTc (τ := τ) (main (F := F))) ⟨m, fun _ => 0, ρ⟩ (fun r => ∀ c : Dev nD,
      r.2.mem ((c.tc : Thread nD τ).loc main_v18) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v18 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Kernel.Hand

end
-- ==== Proof.Spec.lean ====
/-
  The gated recurrent cell, as one function of its eight argument arrays, entry by entry, on the
  extended reals.

  With inputs X and states S, both 4096 × 2048, a weight W of 4096 rows whose upper half (rows 0 … 2047)
  multiplies X and whose lower half (rows 2048 … 4095) multiplies the state operand, and a bias b of length
  2048, the PRE-ACTIVATION at (p, q) is

      pre X S W b (p, q) = (Σ_k X(p,k)·W(k,q) + Σ_k S(p,k)·W(2048+k,q)) + b(q),     k < 2048.

  The reset gate is r = σ(pre X S W_r b_r) and the update gate z = σ(pre X S W_z b_z), with
  σ(t) = 1 / (1 + e^(−t)). The candidate is n = tanh(pre X (S ⊙ r) W_n b_n), where (S ⊙ r)(p,k) = S(p,k)·r(p,k),
  and the new state is the blend (1 − z)·S + z·n.
-/
import Idealize.ShloMosaic.PureOps.Ideal
import Idealize.ShloMosaic.Lib.ValueIdx

noncomputable section

namespace Cert.Gru

open Idealize.ShloMosaic Idealize.ShloMosaic.ValueIdx

/-- A 4096 × 2048 array of extended reals. -/
abbrev Mat : Type := (⟨2, ![4096, 2048]⟩ : Shape).Idx → EReal
/-- A vector of 2048 extended reals. -/
abbrev Row : Type := (⟨1, ![2048]⟩ : Shape).Idx → EReal

/-- Row `k` of a weight's upper half (the rows that meet the inputs). -/
abbrev upper (k : Fin 2048) : Fin 4096 := ⟨k.val, by have := k.isLt; omega⟩
/-- Row `2048 + k` of a weight: row `k` of its lower half (the rows that meet the states). -/
abbrev lower (k : Fin 2048) : Fin 4096 := ⟨2048 + k.val, by have := k.isLt; omega⟩

/-- The pre-activation: inputs against the weight's upper half, plus states against its lower half, plus the bias. -/
def pre (x s w : Mat) (b : Row) : Mat := fun i =>
  ((∑ k : Fin 2048, x (ix2 (i 0 : Fin 4096) k) * w (ix2 (upper k) (i 1 : Fin 2048)))
    + (∑ k : Fin 2048, s (ix2 (i 0 : Fin 4096) k) * w (ix2 (lower k) (i 1 : Fin 2048))))
  + b (ix1 (i 1 : Fin 2048))

/-- The pre-activation at entry `(p, q)`. -/
theorem pre_apply (x s w : Mat) (b : Row) (p : Fin 4096) (q : Fin 2048) :
    pre x s w b (ix2 p q)
      = ((∑ k : Fin 2048, x (ix2 p k) * w (ix2 (upper k) q))
          + (∑ k : Fin 2048, s (ix2 p k) * w (ix2 (lower k) q)))
        + b (ix1 q) := rfl

/-- A gate: the logistic function of a pre-activation. -/
def gate (x s w : Mat) (b : Row) : Mat := fun i => Ideal.logistic (pre x s w b i)

theorem gate_apply (x s w : Mat) (b : Row) (i : (⟨2, ![4096, 2048]⟩ : Shape).Idx) :
    gate x s w b i = Ideal.logistic (pre x s w b i) := rfl

/-- The reset gate `r`. -/
abbrev gateR (x s wr : Mat) (br : Row) : Mat := gate x s wr br
/-- The update gate `z`. -/
abbrev gateZ (x s wz : Mat) (bz : Row) : Mat := gate x s wz bz

/-- The states scaled entry by entry by the reset gate: `(S ⊙ r)(p,k) = S(p,k)·r(p,k)`. -/
def reset (x s wr : Mat) (br : Row) : Mat := fun j => s j * gateR x s wr br j

theorem reset_apply (x s wr : Mat) (br : Row) (j : (⟨2, ![4096, 2048]⟩ : Shape).Idx) :
    reset x s wr br j = s j * gateR x s wr br j := rfl

/-- The candidate `n`: the hyperbolic tangent of the pre-activation taken with the reset states. -/
def cand (x s wr : Mat) (br : Row) (wn : Mat) (bn : Row) : Mat := fun i =>
  Ideal.tanh (pre x (reset x s wr br) wn bn i)

theorem cand_apply (x s wr : Mat) (br : Row) (wn : Mat) (bn : Row) (i : (⟨2, ![4096, 2048]⟩ : Shape).Idx) :
    cand x s wr br wn bn i = Ideal.tanh (pre x (reset x s wr br) wn bn i) := rfl

/-- The candidate at entry `(p, q)`, with its sums written out. -/
theorem cand_apply_ix (x s wr : Mat) (br : Row) (wn : Mat) (bn : Row) (p : Fin 4096) (q : Fin 2048) :
    cand x s wr br wn bn (ix2 p q)
      = Ideal.tanh (((∑ k : Fin 2048, x (ix2 p k) * wn (ix2 (upper k) q))
          + (∑ k : Fin 2048, (s (ix2 p k) * gateR x s wr br (ix2 p k)) * wn (ix2 (lower k) q)))
        + bn (ix1 q)) := rfl

/-- The cell's result: the blend `(1 − z)·S + z·n`. -/
def G (x s wr : Mat) (br : Row) (wz : Mat) (bz : Row) (wn : Mat) (bn : Row) : Mat := fun i =>
  (1 - gateZ x s wz bz i) * s i + gateZ x s wz bz i * cand x s wr br wn bn i

theorem G_apply (x s wr : Mat) (br : Row) (wz : Mat) (bz : Row) (wn : Mat) (bn : Row)
    (i : (⟨2, ![4096, 2048]⟩ : Shape).Idx) :
    G x s wr br wz bz wn bn i
      = (1 - gateZ x s wz bz i) * s i + gateZ x s wz bz i * cand x s wr br wn bn i := rfl

/-- The result at entry `(p, q)`. -/
theorem G_apply_ix (x s wr : Mat) (br : Row) (wz : Mat) (bz : Row) (wn : Mat) (bn : Row)
    (p : Fin 4096) (q : Fin 2048) :
    G x s wr br wz bz wn bn (ix2 p q)
      = (1 - Ideal.logistic (pre x s wz bz (ix2 p q))) * s (ix2 p q)
        + Ideal.logistic (pre x s wz bz (ix2 p q))
          * Ideal.tanh (pre x (reset x s wr br) wn bn (ix2 p q)) := rfl

end Cert.Gru

end
-- ==== Proof.RefValue.lean ====
/-
  The reference computes the gated recurrent cell of Proof/Spec.lean.

  Read one operation at a time, the reference forms three pre-activations of one shape — a product of
  the inputs with the upper half of a weight, plus a product of a state operand with the lower half,
  plus the bias spread over the rows —, passes two of them through 1 / (1 + e^(−t)) and the third, taken
  with the states scaled by the first gate, through tanh, and blends. Each matrix product at an entry
  is the sum over the contracted coordinate, each slice reads its operand at the row it starts from, so
  entry (p, q) of every stage is the corresponding expression of the specification.
-/
import proofs.«172101_j11879879541673_2_alg».proof.Proof.Gen.ReferenceIdeal.Read
import proofs.«172101_j11879879541673_2_alg».proof.Proof.Spec

noncomputable section

namespace Cert.Gru.Ref

open Idealize.ShloMosaic Idealize.ShloMosaic.ValueIdx
open Cert.ReferenceIdeal Cert.ReferenceIdeal.Read
open Cert.Gru

/-- The pattern of the float one denotes the real one. -/
theorem ofBits_one : Ideal.ofBits .f32 0x3F800000#32 = 1 := by
  simp [Ideal.ofBits, Ideal.ieee, -EReal.coe_mul]; norm_num

/-! ### Where the reference's operations read their operands -/

/-- The left operand of a product is read at row `p`, column `k`. -/
theorem lidx_eq (p : Fin 4096) (q k : Fin 2048) : lidx_main_v1 (ix2 p q) k = ix2 p k :=
  funext fun a => Fin.ext (by match a with | ⟨0, _⟩ => rfl | ⟨1, _⟩ => rfl)

/-- The left operand of the second product is read at row `p`, column `k` as well. -/
theorem lidx_eq' (p : Fin 4096) (q k : Fin 2048) : lidx_main_v3 (ix2 p q) k = ix2 p k :=
  funext fun a => Fin.ext (by match a with | ⟨0, _⟩ => rfl | ⟨1, _⟩ => rfl)

/-- The upper half of a weight, as the right operand, is read at row `k`, column `q`. -/
theorem upper_eq (p : Fin 4096) (q k : Fin 2048) :
    idx_main_v0 (ridx_main_v1 (ix2 p q) k) = ix2 (upper k) q :=
  funext fun a => Fin.ext (by match a with | ⟨0, _⟩ => rfl | ⟨1, _⟩ => rfl)

/-- The lower half of a weight, as the right operand, is read at row `2048 + k`, column `q`. -/
theorem lower_eq (p : Fin 4096) (q k : Fin 2048) :
    idx_main_v2 (ridx_main_v3 (ix2 p q) k) = ix2 (lower k) q :=
  funext fun a => Fin.ext (by match a with | ⟨0, _⟩ => rfl | ⟨1, _⟩ => rfl)

/-- The bias spread over the rows is read at `q`. -/
theorem bias_eq (p : Fin 4096) (q : Fin 2048) : idx_main_v5 (idx_main_v6 (ix2 p q)) = ix1 q :=
  funext fun a => Fin.ext (by match a with | ⟨0, _⟩ => rfl)

/-! ### The three pre-activations -/

/-- The reference's first pre-activation stage, of ANY four operands, is the specification's. -/
theorem pre_eq (x s w : Mat) (b : Row) : val_main_v7 (F := Ideal) x s w b = pre x s w b := by
  funext i
  obtain ⟨p, q, rfl⟩ : ∃ (p : Fin 4096) (q : Fin 2048), i = ix2 p q := ⟨i 0, i 1, eq_ix2 i⟩
  rw [val_main_v7_apply, val_main_v4_apply, val_main_v1_apply, val_main_v3_apply, val_main_v6_apply,
    val_main_v5_apply, pre_apply]
  simp only [val_main_v0_apply, val_main_v2_apply, lidx_eq, lidx_eq', upper_eq, lower_eq, bias_eq, Ideal.addf_def]

/-- The update gate's pre-activation is the same stage at the update weight and bias. -/
theorem pre_z (x s w : Mat) (b : Row) : val_main_v21 (F := Ideal) x s w b = val_main_v7 (F := Ideal) x s w b := rfl

/-- The candidate's pre-activation is the same stage with the scaled states as its state operand. -/
theorem pre_n (x s wr : Mat) (br : Row) (wn : Mat) (bn : Row) :
    val_main_v36 (F := Ideal) x s wr br wn bn
      = val_main_v7 (F := Ideal) x (val_main_v30 (F := Ideal) x s wr br) wn bn := rfl

/-! ### The gates, the candidate and the blend -/

/-- The reset gate: the quotient of one by one plus the exponential of the negated pre-activation. -/
theorem gate_eq (x s w : Mat) (b : Row) : val_main_v13 (F := Ideal) x s w b = gate x s w b := by
  funext i
  rw [val_main_v13_apply, val_main_v12_apply, val_main_cst_0_apply, val_main_v11_apply, val_main_v10_apply,
    val_main_cst_apply, val_main_v9_apply, val_main_v8_apply, pre_eq, gate_apply]
  simp only [Ideal.hostDivf_def, Ideal.addf_def, Ideal.hostUnary_exp_def, Ideal.hostNegf_def, Ideal.negf_def,
    Ideal.ofBits_def, ofBits_one, Ideal.logistic]

/-- The update gate is the same stage at the update weight and bias. -/
theorem gate_z (x s w : Mat) (b : Row) : val_main_v27 (F := Ideal) x s w b = val_main_v13 (F := Ideal) x s w b := rfl

/-- The states scaled by the reset gate. -/
theorem reset_eq (x s wr : Mat) (br : Row) : val_main_v30 (F := Ideal) x s wr br = reset x s wr br := by
  funext j
  rw [val_main_v30_apply, gate_eq, reset_apply]
  simp only [Ideal.mulf_def]

/-- The candidate. -/
theorem cand_eq (x s wr : Mat) (br : Row) (wn : Mat) (bn : Row) :
    val_main_v37 (F := Ideal) x s wr br wn bn = cand x s wr br wn bn := by
  funext i
  rw [val_main_v37_apply, pre_n, reset_eq, pre_eq, cand_apply]
  simp only [Ideal.hostUnary_tanh_def]

/-- The reference's result stage is the cell of the specification. -/
theorem ref_eq_G (a0 a1 a2 : (⟨S4096x2048, .f32⟩ : BufTy).Contents (Elt Ideal))
    (a3 : (⟨S2048, .f32⟩ : BufTy).Contents (Elt Ideal))
    (a4 : (⟨S4096x2048, .f32⟩ : BufTy).Contents (Elt Ideal))
    (a5 : (⟨S2048, .f32⟩ : BufTy).Contents (Elt Ideal))
    (a6 : (⟨S4096x2048, .f32⟩ : BufTy).Contents (Elt Ideal))
    (a7 : (⟨S2048, .f32⟩ : BufTy).Contents (Elt Ideal)) :
    val_main_v42 (F := Ideal) a0 a1 a2 a3 a4 a5 a6 a7 = Cert.Gru.G a0 a1 a2 a3 a4 a5 a6 a7 := by
  funext i
  rw [val_main_v42_apply, val_main_v40_apply, val_main_v39_apply, val_main_v38_apply, val_main_cst_3_apply,
    val_main_v41_apply, gate_z, gate_eq, cand_eq, G_apply]
  simp only [Ideal.addf_def, Ideal.mulf_def, Ideal.subf_def, Ideal.ofBits_def, ofBits_one]

end Cert.Gru.Ref

end
-- ==== Proof.RefRun.lean ====
/-
  The reference's run, with its result stated as the cell of Proof/Spec.lean.

  The reference is a straight line of host operations: every weakly fair execution ends, faulting
  nowhere, with each argument array as it was and the result array holding the operations' composed
  value of the arguments — which Proof/RefValue.lean shows to be the gated recurrent cell. Dropping the
  result gives the frame claim; keeping it, with the arguments named, gives the reference's half of
  the comparison with the kernel.
-/
import proofs.«172101_j11879879541673_2_alg».proof.Defs
import proofs.«172101_j11879879541673_2_alg».proof.Proof.Gen.ReferenceIdeal
import proofs.«172101_j11879879541673_2_alg».proof.Proof.Gen.Pre_finite_inputs
import proofs.«172101_j11879879541673_2_alg».proof.Proof.Gen.ReferenceIdeal.Read
import proofs.«172101_j11879879541673_2_alg».proof.Proof.RefValue

noncomputable section

namespace Cert.Gru.Ref

open Idealize.ShloMosaic Idealize.ShloMosaic.TcCoe Idealize.SL.Sem

/-- The reference runs to the end, faults nowhere and leaves its arguments unchanged. -/
theorem ref_frame :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From any memory, the reference ends with its result array at the cell of its own arguments, and the
    arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v42)
        = Cert.Gru.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run Cert.ReferenceIdeal.defs _ _).mono
    (fun _ h c => ⟨(h c).1.trans ((Cert.ReferenceIdeal.Read.val_main_v42_eq _ _ _ _ _ _ _ _).trans
      (ref_eq_G _ _ _ _ _ _ _ _)), (h c).2⟩)
    (Cert.ReferenceIdeal.Value.run (F := Ideal) m ρ)

/-- The same run, from a memory whose arguments are eight given arrays: the result is the cell of those
    arrays. -/
theorem ref_run_of_agree (m : (ℓ : Loc Cert.ReferenceIdeal.nD Cert.ReferenceIdeal.τ Cert.ReferenceIdeal.sig) → Buf (Elt Ideal) ℓ)
    (ρ : Dev Cert.ReferenceIdeal.nD → PrngReg)
    (x s wr : Dev Cert.ReferenceIdeal.nD → Mat) (br : Dev Cert.ReferenceIdeal.nD → Row)
    (wz : Dev Cert.ReferenceIdeal.nD → Mat) (bz : Dev Cert.ReferenceIdeal.nD → Row)
    (wn : Dev Cert.ReferenceIdeal.nD → Mat) (bn : Dev Cert.ReferenceIdeal.nD → Row)
    (hagree : ∀ c : Dev Cert.ReferenceIdeal.nD,
      m ((c.tc : Thread Cert.ReferenceIdeal.nD Cert.ReferenceIdeal.τ).loc Cert.ReferenceIdeal.main_arg0) = x c
      ∧ m ((c.tc : Thread Cert.ReferenceIdeal.nD Cert.ReferenceIdeal.τ).loc Cert.ReferenceIdeal.main_arg1) = s c
      ∧ m ((c.tc : Thread Cert.ReferenceIdeal.nD Cert.ReferenceIdeal.τ).loc Cert.ReferenceIdeal.main_arg2) = wr c
      ∧ m ((c.tc : Thread Cert.ReferenceIdeal.nD Cert.ReferenceIdeal.τ).loc Cert.ReferenceIdeal.main_arg3) = br c
      ∧ m ((c.tc : Thread Cert.ReferenceIdeal.nD Cert.ReferenceIdeal.τ).loc Cert.ReferenceIdeal.main_arg4) = wz c
      ∧ m ((c.tc : Thread Cert.ReferenceIdeal.nD Cert.ReferenceIdeal.τ).loc Cert.ReferenceIdeal.main_arg5) = bz c
      ∧ m ((c.tc : Thread Cert.ReferenceIdeal.nD Cert.ReferenceIdeal.τ).loc Cert.ReferenceIdeal.main_arg6) = wn c
      ∧ m ((c.tc : Thread Cert.ReferenceIdeal.nD Cert.ReferenceIdeal.τ).loc Cert.ReferenceIdeal.main_arg7) = bn c) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v42)
        = Cert.Gru.G (x c) (s c) (wr c) (br c) (wz c) (bz c) (wn c) (bn c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run Cert.ReferenceIdeal.defs _ _).mono
    (fun _ h c => ⟨by
      rw [(h c).1, (hagree c).1, (hagree c).2.1, (hagree c).2.2.1, (hagree c).2.2.2.1, (hagree c).2.2.2.2.1,
        (hagree c).2.2.2.2.2.1, (hagree c).2.2.2.2.2.2.1, (hagree c).2.2.2.2.2.2.2], (h c).2⟩)
    (ref_run m ρ)

end Cert.Gru.Ref

end
-- ==== Proof.K1Pieces.lean ====
/-
  What a step of the second kernel leaves in the accumulator and, at a last step, in the output's
  buffer — as the stored values themselves.

  Every store of the body writes a whole tile, so what a buffer holds afterwards is the value of the
  last store into it, and a load of a whole buffer reads what it holds. A first step stores zero, reads
  it back and stores zero plus the step's two products; a middle step stores the accumulator plus the
  two products; a last step does the same and then stores, into the output's buffer, the blend of the
  states' rows with the hyperbolic tangent of that sum plus the bias, weighted by the gate's rows.
-/
import proofs.«172101_j11879879541673_2_alg».proof.Proof.K1Dat
import Idealize.ShloMosaic.Lib.Pipeline.Value
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]

/-- The offsets of a whole-tile access are zero. -/
theorem hz1 : (![0, 0] : Fin 2 → Nat) = fun _ => 0 := funext fun a => by fin_cases a <;> rfl

/-- After a FIRST step the accumulator holds zero plus the step's two products. -/
theorem accA1_eq (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : first1 i) (hl : ¬last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) :
    accA1 c i arg2 harg2 arg3 harg3 arg4 harg4 arg5 harg5 arg6 harg6 arg7 harg7 arg8 harg8 arg9 harg9 arg10 harg10 arg11 harg11 hf hl x0 x1 x2 x3 x4 x5 x6 x7 = k1_pay2 x1 x2 x0 x3 x4 (k1_pay1 (F := F)) := by
  unfold accA1
  rw [View.read_writes_eq_canon _ _ _ (coverA1 c i arg2 harg2 arg3 harg3 arg4 harg4 arg5 harg5 arg6 harg6 arg7 harg7 arg8 harg8 arg9 harg9 arg10 harg10 arg11 harg11 hf hl x0 x1 x2 x3 x4 x5 x6 x7)]
  unfold run1_A
  dsimp only
  sl_unfold_words
  rw [View.canon_cons_unit_zero (S := S512x2048) hz1, View.readCov_unit_zero (S := S512x2048) _ hz1]
  simp only [View.readAt_eq_ld, harg2.read_unread, harg3.read_unread, harg4.read_unread, harg5.read_unread, harg6.read_unread, harg7.read_unread, harg8.read_unread, harg9.read_unread, harg11.read_unread,
    View.ld_unit_zero (S := S512x256) hz1, View.ld_unit_zero (S := S256x2048) hz1, View.ld_unit_zero (S := S512x2048) hz1, View.ld_unit_zero (S := S1x2048) hz1]

/-- After a MIDDLE step it holds what it held plus the step's two products. -/
theorem accB1_eq (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : ¬last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) :
    accB1 c i arg2 harg2 arg3 harg3 arg4 harg4 arg5 harg5 arg6 harg6 arg7 harg7 arg8 harg8 arg9 harg9 arg10 harg10 arg11 harg11 hf hl x0 x1 x2 x3 x4 x5 x6 x7 xa = k1_pay2 x1 x2 x0 x3 x4 xa := by
  unfold accB1
  rw [View.read_writes_eq_canon _ _ _ (coverB1 c i arg2 harg2 arg3 harg3 arg4 harg4 arg5 harg5 arg6 harg6 arg7 harg7 arg8 harg8 arg9 harg9 arg10 harg10 arg11 harg11 hf hl x0 x1 x2 x3 x4 x5 x6 x7 xa)]
  unfold run1_B
  dsimp only
  rw [View.canon_unit_zero (S := S512x2048) hz1]
  simp only [View.readAt_eq_ld, harg2.read_unread, harg3.read_unread, harg4.read_unread, harg5.read_unread, harg6.read_unread, harg7.read_unread, harg8.read_unread, harg9.read_unread, harg11.read_unread,
    View.ld_unit_zero (S := S512x256) hz1, View.ld_unit_zero (S := S256x2048) hz1, View.ld_unit_zero (S := S512x2048) hz1, View.ld_unit_zero (S := S1x2048) hz1]

/-- After a LAST step likewise. -/
theorem accC1_eq (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) :
    accC1 c i arg2 harg2 arg3 harg3 arg4 harg4 arg5 harg5 arg6 harg6 arg7 harg7 arg8 harg8 arg9 harg9 arg10 harg10 arg11 harg11 hf hl x0 x1 x2 x3 x4 x5 x6 x7 xa = k1_pay2 x1 x2 x0 x3 x4 xa := by
  unfold accC1
  rw [View.read_writes_eq_canon _ _ _ (coverC1 c i arg2 harg2 arg3 harg3 arg4 harg4 arg5 harg5 arg6 harg6 arg7 harg7 arg8 harg8 arg9 harg9 arg10 harg10 arg11 harg11 hf hl x0 x1 x2 x3 x4 x5 x6 x7 xa)]
  unfold run1_C
  dsimp only
  sl_unfold_words
  rw [View.canon_unit_zero (S := S512x2048) hz1]
  simp only [View.readAt_eq_ld, harg2.read_unread, harg3.read_unread, harg4.read_unread, harg5.read_unread, harg6.read_unread, harg7.read_unread, harg8.read_unread, harg9.read_unread, harg11.read_unread,
    View.ld_unit_zero (S := S512x256) hz1, View.ld_unit_zero (S := S256x2048) hz1, View.ld_unit_zero (S := S512x2048) hz1, View.ld_unit_zero (S := S1x2048) hz1]

/-- A LAST step leaves in the output's buffer the blend: one minus the gate's rows times the states' rows, plus the
    gate's rows times the hyperbolic tangent of the finished sum plus the bias. -/
theorem outC1_eq (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x2048 .f32) (harg11 : arg11.IsWhole) (hf : ¬first1 i) (hl : last1 i) (x0 : Vec F S512x256 .f32) (x1 : Vec F S512x256 .f32) (x2 : Vec F S512x256 .f32) (x3 : Vec F S256x2048 .bf16) (x4 : Vec F S256x2048 .bf16) (x5 : Vec F S1x2048 .f32) (x6 : Vec F S512x2048 .f32) (x7 : Vec F S512x2048 .f32) (xa : Vec F S512x2048 .f32) :
    outC1 c i arg2 harg2 arg3 harg3 arg4 harg4 arg5 harg5 arg6 harg6 arg7 harg7 arg8 harg8 arg9 harg9 arg10 harg10 arg11 harg11 hf hl x0 x1 x2 x3 x4 x5 x6 x7 xa = k1_pay3 (k1_pay2 x1 x2 x0 x3 x4 xa) x5 x7 x6 := by
  unfold outC1
  rw [View.read_writes_eq_canon _ _ _ (coverO1 c i arg2 harg2 arg3 harg3 arg4 harg4 arg5 harg5 arg6 harg6 arg7 harg7 arg8 harg8 arg9 harg9 arg10 harg10 arg11 harg11 hf hl x0 x1 x2 x3 x4 x5 x6 x7 xa)]
  unfold run1_C
  dsimp only
  sl_unfold_words
  rw [View.canon_unit_zero (S := S512x2048) hz1, View.readCov_unit_zero (S := S512x2048) _ hz1]
  simp only [View.readAt_eq_ld, harg2.read_unread, harg3.read_unread, harg4.read_unread, harg5.read_unread, harg6.read_unread, harg7.read_unread, harg8.read_unread, harg9.read_unread, harg11.read_unread,
    View.ld_unit_zero (S := S512x256) hz1, View.ld_unit_zero (S := S256x2048) hz1, View.ld_unit_zero (S := S512x2048) hz1, View.ld_unit_zero (S := S1x2048) hz1]

end Cert.KernelIdeal.HandValue

end
-- ==== Proof.K1Payload.lean ====
/-
  The second kernel's three stored values, entry by entry, on the extended reals.

  The accumulator's reset stores zero. A reduction step adds to the accumulator the product of the
  step's block of inputs with its block of the upper weight and the product of its block of states,
  scaled entry by entry by its block of the reset gate, with its block of the lower weight: at (p, q)
  that is the accumulator's entry plus the two sums, over the 256 columns of the step, of the products
  of entries. (Narrowing an operand to the shorter float format changes no extended real, and a product
  into a zero accumulator is the bare sum.) The last step adds the bias row, the same for every row of
  the tile, applies the hyperbolic tangent, and blends: one minus the update gate's entry times the
  state's entry, plus the gate's entry times the tangent.
-/
import proofs.«172101_j11879879541673_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx

local notation "D₁" => dot_S512x256_S256x2048_S512x2048_1_0_0_1_n_n

/-! ### Where a product of a 512 × 256 block with a 256 × 2048 block reads its operands -/

theorem lhs1_0 (i : S512x2048.Idx) (q : (D₁).contr.Idx) : ((D₁).lhsIdx i q 0).val = (i 0).val := by
  unfold DotDims.lhsIdx
  rw [dif_neg (show ¬(0 : Fin S512x256.rank) ∈ (D₁).lhsBatch by decide),
    dif_pos (show (0 : Fin S512x256.rank) ∈ (D₁).lhsNonContracting by decide)]
  rfl
theorem lhs1_1 (i : S512x2048.Idx) (q : (D₁).contr.Idx) : ((D₁).lhsIdx i q 1).val = (q ⟨0, by decide⟩).val :=
  (D₁).lhsIdx_val_of_single rfl i q
theorem rhs1_0 (i : S512x2048.Idx) (q : (D₁).contr.Idx) : ((D₁).rhsIdx i q 0).val = (q ⟨0, by decide⟩).val :=
  (D₁).rhsIdx_val_of_single rfl i q
theorem rhs1_1 (i : S512x2048.Idx) (q : (D₁).contr.Idx) : ((D₁).rhsIdx i q 1).val = (i 1).val := by
  unfold DotDims.rhsIdx
  rw [dif_neg (show ¬(1 : Fin S256x2048.rank) ∈ (D₁).rhsBatch by decide),
    dif_pos (show (1 : Fin S256x2048.rank) ∈ (D₁).rhsNonContracting by decide)]
  rfl

/-- The product of two blocks into a zero accumulator, at entry `(p, q)`: the sum over the 256 shared
    coordinates of the products of entries. -/
theorem product1_apply (a : FVec Ideal S512x256 .bf16) (b : FVec Ideal S256x2048 .bf16) (p : Fin 512) (q : Fin 2048) :
    matmul (D₁) none a b (constant S512x2048 .f32 0x00000000#32) (ix2 p q)
      = ∑ k : Fin 256, a (ix2 p k) * b (ix2 k q) := by
  simp only [matmul]
  rw [Ideal.matmul_constant_zero_apply, ← Equiv.sum_comp (ValueIdx.contrEquiv1 (D₁) 256 rfl rfl).symm]
  refine Finset.sum_congr rfl fun k _ => ?_
  have hk := ValueIdx.contrEquiv1_symm_val (D₁) 256 rfl rfl k
  have el : (D₁).lhsIdx (ix2 p q) ((ValueIdx.contrEquiv1 (D₁) 256 rfl rfl).symm k) = ix2 p k :=
    funext fun x => Fin.ext (by
      match x with
      | ⟨0, _⟩ => exact lhs1_0 _ _
      | ⟨1, _⟩ => exact (lhs1_1 _ _).trans hk)
  have er : (D₁).rhsIdx (ix2 p q) ((ValueIdx.contrEquiv1 (D₁) 256 rfl rfl).symm k) = ix2 k q :=
    funext fun x => Fin.ext (by
      match x with
      | ⟨0, _⟩ => exact (rhs1_0 _ _).trans hk
      | ⟨1, _⟩ => exact rhs1_1 _ _)
  rw [el, er]

/-- The pattern of the float one denotes the real one. -/
theorem k1_ofBits_one : Ideal.ofBits .f32 0x3F800000#32 = 1 := by
  simp [Ideal.ofBits, Ideal.ieee, -EReal.coe_mul]; norm_num

/-- The reset stores zero. -/
theorem k1_pay1_apply (i : S512x2048.Idx) : k1_pay1 (F := Ideal) i = 0 := by
  unfold k1_pay1
  simp only [shapeCast_self]
  show Ideal.ofBits .f32 0x00000000#32 = 0
  exact Ideal.ofBits_zero_f32

/-- A reduction step: the accumulator's entry plus the step's two sums of products; in the second the left factor
    is the state's entry times the reset gate's. -/
theorem k1_pay2_apply (v3 v4 v8 : Vec Ideal S512x256 .f32) (v10 v13 : Vec Ideal S256x2048 .bf16)
    (xa : Vec Ideal S512x2048 .f32) (p : Fin 512) (q : Fin 2048) :
    k1_pay2 (F := Ideal) v3 v4 v8 v10 v13 xa (ix2 p q)
      = xa (ix2 p q) + ((∑ k : Fin 256, v8 (ix2 p k) * v10 (ix2 k q))
          + (∑ k : Fin 256, (v3 (ix2 p k) * v4 (ix2 p k)) * v13 (ix2 k q))) := by
  unfold k1_pay2
  simp only [shapeCast_self]
  show xa (ix2 p q) + (matmul (F := Ideal) (D₁) none (truncf (F := Ideal) .bf16 v8 bitsLt_bf16_f32) v10
        (constant (F := Ideal) S512x2048 .f32 0x00000000#32) (ix2 p q)
      + matmul (F := Ideal) (D₁) none (truncf (F := Ideal) .bf16 (mulf (F := Ideal) v3 v4) bitsLt_bf16_f32) v13
        (constant (F := Ideal) S512x2048 .f32 0x00000000#32) (ix2 p q)) = _
  rw [product1_apply, product1_apply]
  rfl

/-- The last step: one minus the gate's entry times the state's entry, plus the gate's entry times the hyperbolic
    tangent of the accumulator's entry plus the bias of its column. -/
theorem k1_pay3_apply (a : Vec Ideal S512x2048 .f32) (b : Vec Ideal S1x2048 .f32) (z s : Vec Ideal S512x2048 .f32)
    (p : Fin 512) (q : Fin 2048) :
    k1_pay3 (F := Ideal) a b z s (ix2 p q)
      = (1 - z (ix2 p q)) * s (ix2 p q) + z (ix2 p q) * Ideal.tanh (a (ix2 p q) + b (ix2 (0 : Fin 1) q)) := by
  unfold k1_pay3
  simp only [shapeCast_self]
  show (Ideal.ofBits .f32 0x3F800000#32 - z (ix2 p q)) * s (ix2 p q)
      + z (ix2 p q) * Ideal.tanh (a (ix2 p q) + broadcastTo (α := EReal) S512x2048 b broadcasts_S1x2048_S512x2048 (ix2 p q)) = _
  rw [broadcastTo_1b_ab_apply, k1_ofBits_one]

end Cert.KernelIdeal.HandValue

end
-- ==== Proof.K1Blocks.lean ====
/-
  The blocks the second kernel's windows hold at a grid point, read off their arrays.

  Point number t of the 8 × 8 grid has coordinates (i, k) = (t / 8, t mod 8): i the row of tiles, k the reduction
  step. There the inputs', the states' and the reset gate's windows hold rows 512·i … and columns 256·k … of
  their arrays; the two weight windows hold rows 256·k … and all 2048 columns; the bias window holds its one
  row; and the states' second window, the update gate's window and the output window hold rows 512·i … and
  all 2048 columns. An entry of a block is the array's entry at the block's offset plus the entry's place
  in the block.
-/
import proofs.«172101_j11879879541673_2_alg».proof.Proof.K1Dat
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

/-! ### Which block each window selects at point `t` -/

theorem idx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem idx1_1 : ∀ t : Fin cfg1.N, win1_1.index t 0 = t.val / 8 ∧ win1_1.index t 1 = t.val % 8 :=
  (by decide +kernel : ∀ t : Fin grid1.N, win1_1.index t 0 = t.val / 8 ∧ win1_1.index t 1 = t.val % 8)
theorem idx1_2 : ∀ t : Fin cfg1.N, win1_2.index t 0 = t.val / 8 ∧ win1_2.index t 1 = t.val % 8 :=
  (by decide +kernel : ∀ t : Fin grid1.N, win1_2.index t 0 = t.val / 8 ∧ win1_2.index t 1 = t.val % 8)
theorem idx1_3 : ∀ t : Fin cfg1.N, win1_3.index t 0 = t.val % 8 ∧ win1_3.index t 1 = 0 :=
  (by decide +kernel : ∀ t : Fin grid1.N, win1_3.index t 0 = t.val % 8 ∧ win1_3.index t 1 = 0)
theorem idx1_4 : ∀ t : Fin cfg1.N, win1_4.index t 0 = t.val % 8 ∧ win1_4.index t 1 = 0 :=
  (by decide +kernel : ∀ t : Fin grid1.N, win1_4.index t 0 = t.val % 8 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = t.val / 8 ∧ win1_6.index t 1 = 0 :=
  (by decide +kernel : ∀ t : Fin grid1.N, win1_6.index t 0 = t.val / 8 ∧ win1_6.index t 1 = 0)
theorem idx1_7 : ∀ t : Fin cfg1.N, win1_7.index t 0 = t.val / 8 ∧ win1_7.index t 1 = 0 :=
  (by decide +kernel : ∀ t : Fin grid1.N, win1_7.index t 0 = t.val / 8 ∧ win1_7.index t 1 = 0)
theorem idx1_8 : ∀ t : Fin cfg1.N, win1_8.index t 0 = t.val / 8 ∧ win1_8.index t 1 = 0 :=
  (by decide +kernel : ∀ t : Fin grid1.N, win1_8.index t 0 = t.val / 8 ∧ win1_8.index t 1 = 0)

/-! ### An entry of a block is an entry of the array -/

theorem blk1_0_apply (c : Dev nD) (t : Fin cfg1.N) (p : Fin 512) (q : Fin 256) (r : Fin 4096) (col : Fin 2048) (hr : r.val = 512 * (t.val / 8) + p.val) (hc : col.val = 256 * (t.val % 8) + q.val) :
    (iblk1 V c 0 t : Vec F S512x256 .f32) (ix2 p q) = (V c main_arg0 : S4096x2048.Idx → Elt F .f32) (ix2 r col) := by
  unfold iblk1
  rw [View.read_apply]
  show V c main_arg0 _ = V c main_arg0 _
  refine congrArg _ (funext fun a => Fin.ext ?_)
  match a with
  | ⟨0, _⟩ => show win1_0.index t 0 * 512 + 1 * p.val = r.val; rw [(idx1_0 t).1, hr]; omega
  | ⟨1, _⟩ => show win1_0.index t 1 * 256 + 1 * q.val = col.val; rw [(idx1_0 t).2, hc]; omega

theorem blk1_1_apply (c : Dev nD) (t : Fin cfg1.N) (p : Fin 512) (q : Fin 256) (r : Fin 4096) (col : Fin 2048) (hr : r.val = 512 * (t.val / 8) + p.val) (hc : col.val = 256 * (t.val % 8) + q.val) :
    (iblk1 V c 1 t : Vec F S512x256 .f32) (ix2 p q) = (V c main_arg1 : S4096x2048.Idx → Elt F .f32) (ix2 r col) := by
  unfold iblk1
  rw [View.read_apply]
  show V c main_arg1 _ = V c main_arg1 _
  refine congrArg _ (funext fun a => Fin.ext ?_)
  match a with
  | ⟨0, _⟩ => show win1_1.index t 0 * 512 + 1 * p.val = r.val; rw [(idx1_1 t).1, hr]; omega
  | ⟨1, _⟩ => show win1_1.index t 1 * 256 + 1 * q.val = col.val; rw [(idx1_1 t).2, hc]; omega

theorem blk1_2_apply (c : Dev nD) (t : Fin cfg1.N) (p : Fin 512) (q : Fin 256) (r : Fin 4096) (col : Fin 2048) (hr : r.val = 512 * (t.val / 8) + p.val) (hc : col.val = 256 * (t.val % 8) + q.val) :
    (iblk1 V c 2 t : Vec F S512x256 .f32) (ix2 p q) = (V c main_v11 : S4096x2048.Idx → Elt F .f32) (ix2 r col) := by
  unfold iblk1
  rw [View.read_apply]
  show V c main_v11 _ = V c main_v11 _
  refine congrArg _ (funext fun a => Fin.ext ?_)
  match a with
  | ⟨0, _⟩ => show win1_2.index t 0 * 512 + 1 * p.val = r.val; rw [(idx1_2 t).1, hr]; omega
  | ⟨1, _⟩ => show win1_2.index t 1 * 256 + 1 * q.val = col.val; rw [(idx1_2 t).2, hc]; omega

theorem blk1_3_apply (c : Dev nD) (t : Fin cfg1.N) (p : Fin 256) (q : Fin 2048) (r : Fin 2048) (hr : r.val = 256 * (t.val % 8) + p.val) :
    (iblk1 V c 3 t : Vec F S256x2048 .bf16) (ix2 p q) = (V c main_v14 : S2048x2048.Idx → Elt F .bf16) (ix2 r q) := by
  unfold iblk1
  rw [View.read_apply]
  show V c main_v14 _ = V c main_v14 _
  refine congrArg _ (funext fun a => Fin.ext ?_)
  match a with
  | ⟨0, _⟩ => show win1_3.index t 0 * 256 + 1 * p.val = r.val; rw [(idx1_3 t).1, hr]; omega
  | ⟨1, _⟩ => show win1_3.index t 1 * 2048 + 1 * q.val = q.val; rw [(idx1_3 t).2]; omega

theorem blk1_4_apply (c : Dev nD) (t : Fin cfg1.N) (p : Fin 256) (q : Fin 2048) (r : Fin 2048) (hr : r.val = 256 * (t.val % 8) + p.val) :
    (iblk1 V c 4 t : Vec F S256x2048 .bf16) (ix2 p q) = (V c main_v16 : S2048x2048.Idx → Elt F .bf16) (ix2 r q) := by
  unfold iblk1
  rw [View.read_apply]
  show V c main_v16 _ = V c main_v16 _
  refine congrArg _ (funext fun a => Fin.ext ?_)
  match a with
  | ⟨0, _⟩ => show win1_4.index t 0 * 256 + 1 * p.val = r.val; rw [(idx1_4 t).1, hr]; omega
  | ⟨1, _⟩ => show win1_4.index t 1 * 2048 + 1 * q.val = q.val; rw [(idx1_4 t).2]; omega

theorem blk1_5_apply (c : Dev nD) (t : Fin cfg1.N) (p : Fin 1) (q : Fin 2048) :
    (iblk1 V c 5 t : Vec F S1x2048 .f32) (ix2 p q) = (V c main_v17 : S1x2048.Idx → Elt F .f32) (ix2 p q) := by
  unfold iblk1
  rw [View.read_apply]
  show V c main_v17 _ = V c main_v17 _
  refine congrArg _ (funext fun a => Fin.ext ?_)
  match a with
  | ⟨0, _⟩ => show win1_5.index t 0 * 1 + 1 * p.val = p.val; rw [(idx1_5 t).1]; omega
  | ⟨1, _⟩ => show win1_5.index t 1 * 2048 + 1 * q.val = q.val; rw [(idx1_5 t).2]; omega

theorem blk1_6_apply (c : Dev nD) (t : Fin cfg1.N) (p : Fin 512) (q : Fin 2048) (r : Fin 4096) (hr : r.val = 512 * (t.val / 8) + p.val) :
    (iblk1 V c 6 t : Vec F S512x2048 .f32) (ix2 p q) = (V c main_arg1 : S4096x2048.Idx → Elt F .f32) (ix2 r q) := by
  unfold iblk1
  rw [View.read_apply]
  show V c main_arg1 _ = V c main_arg1 _
  refine congrArg _ (funext fun a => Fin.ext ?_)
  match a with
  | ⟨0, _⟩ => show win1_6.index t 0 * 512 + 1 * p.val = r.val; rw [(idx1_6 t).1, hr]; omega
  | ⟨1, _⟩ => show win1_6.index t 1 * 2048 + 1 * q.val = q.val; rw [(idx1_6 t).2]; omega

theorem blk1_7_apply (c : Dev nD) (t : Fin cfg1.N) (p : Fin 512) (q : Fin 2048) (r : Fin 4096) (hr : r.val = 512 * (t.val / 8) + p.val) :
    (iblk1 V c 7 t : Vec F S512x2048 .f32) (ix2 p q) = (V c main_v12 : S4096x2048.Idx → Elt F .f32) (ix2 r q) := by
  unfold iblk1
  rw [View.read_apply]
  show V c main_v12 _ = V c main_v12 _
  refine congrArg _ (funext fun a => Fin.ext ?_)
  match a with
  | ⟨0, _⟩ => show win1_7.index t 0 * 512 + 1 * p.val = r.val; rw [(idx1_7 t).1, hr]; omega
  | ⟨1, _⟩ => show win1_7.index t 1 * 2048 + 1 * q.val = q.val; rw [(idx1_7 t).2]; omega

end Cert.KernelIdeal.HandValue

end
-- ==== Proof.SumTiles8.lean ====
/-
  A sum over 2048 indices, cut into eight consecutive runs of 256.

  Every index below 2048 is 256·s + k for exactly one run s < 8 and one place k < 256, so the sum of any
  function over the 2048 indices is the sum over the runs of the sums over the places — in any
  commutative monoid, the extended reals among them.
-/
import Idealize.ShloMosaic.Lib.ValueIdx

namespace Cert.KernelIdeal.HandValue

/-- Place `k` of run `s` of eight: the index `256·s + k`. -/
abbrev tileIdx8 (s : Fin 8) (k : Fin 256) : Fin 2048 := ⟨256 * s.val + k.val, by have := s.isLt; have := k.isLt; omega⟩

/-- The sum over all 2048 indices is the sum over the eight runs of the sums over their 256 places. -/
theorem sum_tiles_8x256 {M : Type*} [AddCommMonoid M] (f : Fin 2048 → M) :
    ∑ k : Fin 2048, f k = ∑ s : Fin 8, ∑ k : Fin 256, f (tileIdx8 s k) := by
  rw [← Fintype.sum_prod_type' (f := fun s k => f (tileIdx8 s k))]
  refine ((Equiv.sum_comp (finProdFinEquiv (m := 8) (n := 256)) f).symm).trans ?_
  refine Finset.sum_congr rfl fun x _ => congrArg f (Fin.ext ?_)
  show x.2.val + 256 * x.1.val = 256 * x.1.val + x.2.val
  omega

/-- The same with the eight runs written out. -/
theorem sum_tiles8 {M : Type*} [AddCommMonoid M] (f : Fin 2048 → M) :
    ∑ k : Fin 2048, f k
      = (∑ k : Fin 256, f (tileIdx8 0 k)) + (∑ k : Fin 256, f (tileIdx8 1 k))
        + (∑ k : Fin 256, f (tileIdx8 2 k)) + (∑ k : Fin 256, f (tileIdx8 3 k))
        + (∑ k : Fin 256, f (tileIdx8 4 k)) + (∑ k : Fin 256, f (tileIdx8 5 k))
        + (∑ k : Fin 256, f (tileIdx8 6 k)) + (∑ k : Fin 256, f (tileIdx8 7 k)) := by
  rw [sum_tiles_8x256, Fin.sum_univ_eight]

end Cert.KernelIdeal.HandValue
-- ==== Proof.K1Acc.lean ====
/-
  The second kernel's accumulation over the reduction steps, and what a tile's last step stores.

  For a tile of the output — 512 rows, all 2048 columns — the eight reduction steps run one after another. Each
  adds to the accumulator its own contribution: the sum, over the step's 256 reduction indices, of the products
  of the inputs' and the upper weight's entries, plus the same for the states scaled by the reset gate and the
  lower weight. The first step starts from zero, so after step k the accumulator holds the contributions of
  steps 0 … k, added in that order. The last step stores the blend of the state with the hyperbolic tangent
  of the finished sum plus the bias, weighted by the update gate. The eight runs of 256 reduction indices make
  up all 2048, and addition of extended reals is commutative and associative, so the finished sum is the sum
  over all 2048 indices of the inputs' products plus the sum over all 2048 of the scaled states' products.
-/
import proofs.«172101_j11879879541673_2_alg».proof.Proof.K1Pieces
import proofs.«172101_j11879879541673_2_alg».proof.Proof.K1Payload
import proofs.«172101_j11879879541673_2_alg».proof.Proof.K1Blocks
import proofs.«172101_j11879879541673_2_alg».proof.Proof.SumTiles8

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

/-- What one reduction step contributes to entry `(p, q)` of a tile, from the step's five blocks: the sum over
    the step's 256 reduction indices of inputs times upper weight, plus that of states times reset gate times
    lower weight. -/
def tileSum1 (x1 x2 x0 : Vec Ideal S512x256 .f32) (x3 x4 : Vec Ideal S256x2048 .bf16) (p : Fin 512) (q : Fin 2048) : EReal :=
  (∑ k : Fin 256, x0 (ix2 p k) * x3 (ix2 k q)) + (∑ k : Fin 256, (x1 (ix2 p k) * x2 (ix2 p k)) * x4 (ix2 k q))

/-- What a reduction step stores, at an entry: the accumulator's entry plus the step's contribution. -/
theorem pay2_tile1 (x1 x2 x0 : Vec Ideal S512x256 .f32) (x3 x4 : Vec Ideal S256x2048 .bf16)
    (xa : Vec Ideal S512x2048 .f32) (p : Fin 512) (q : Fin 2048) :
    k1_pay2 (F := Ideal) x1 x2 x0 x3 x4 xa (ix2 p q) = xa (ix2 p q) + tileSum1 x1 x2 x0 x3 x4 p q :=
  k1_pay2_apply x1 x2 x0 x3 x4 xa p q

variable (V : (c : Dev nD) → (b : Ref sig .tc) → Buf (Elt Ideal) ((c : Thread nD τ).loc b))

/-- The arrays the second kernel's windows read, as the region finds them: the inputs, the states (read through
    two windows), the reset gate and the update gate (4096 rows, 2048 columns each), the upper and the lower
    weight (2048 rows, 2048 columns each) and the bias (one row of 2048). -/
abbrev inp1 (c : Dev nD) : S4096x2048.Idx → EReal := V c main_arg0
abbrev sta1 (c : Dev nD) : S4096x2048.Idx → EReal := V c main_arg1
abbrev rst1 (c : Dev nD) : S4096x2048.Idx → EReal := V c main_v11
abbrev upd1 (c : Dev nD) : S4096x2048.Idx → EReal := V c main_v12
abbrev wUp1 (c : Dev nD) : S2048x2048.Idx → EReal := V c main_v14
abbrev wLo1 (c : Dev nD) : S2048x2048.Idx → EReal := V c main_v16
abbrev bias1 (c : Dev nD) : S1x2048.Idx → EReal := V c main_v17

/-- The contribution of the step at point `t` to entry `(p, q)` of its tile. -/
def stepSum1 (c : Dev nD) (t : Fin cfg1.N) (p : Fin 512) (q : Fin 2048) : EReal :=
  tileSum1 (iblk1 V c 1 t) (iblk1 V c 2 t) (iblk1 V c 0 t) (iblk1 V c 3 t) (iblk1 V c 4 t) p q

/-- The running sum after the point at position `n`: the step's own contribution at a first step, otherwise
    the running sum before plus the step's contribution. -/
def accVal1 (c : Dev nD) : (n : ℕ) → n < cfg1.N → Fin 512 → Fin 2048 → EReal
  | 0, h, p, q => stepSum1 V c ⟨0, h⟩ p q
  | n + 1, h, p, q =>
    if (n + 1) % 8 = 0 then stepSum1 V c ⟨n + 1, h⟩ p q
    else accVal1 c n (Nat.lt_of_succ_lt h) p q + stepSum1 V c ⟨n + 1, h⟩ p q

theorem accVal1_first (c : Dev nD) (n : ℕ) (h : n < cfg1.N) (h0 : n % 8 = 0) (p : Fin 512) (q : Fin 2048) :
    accVal1 V c n h p q = stepSum1 V c ⟨n, h⟩ p q := by
  cases n with
  | zero => rfl
  | succ n => exact if_pos h0

theorem accVal1_next (c : Dev nD) (n : ℕ) (h : n + 1 < cfg1.N) (h0 : ¬(n + 1) % 8 = 0) (p : Fin 512) (q : Fin 2048) :
    accVal1 V c (n + 1) h p q = accVal1 V c n (Nat.lt_of_succ_lt h) p q + stepSum1 V c ⟨n + 1, h⟩ p q :=
  if_neg h0

/-- Six steps after a first step the running sum is the seven contributions so far, in order. -/
theorem accVal1_seventh (c : Dev nD) (n : ℕ) (h : n < cfg1.N) (h6 : n % 8 = 6) (p : Fin 512) (q : Fin 2048) :
    accVal1 V c n h p q
      = ((((((stepSum1 V c ⟨n - 6, by omega⟩ p q + stepSum1 V c ⟨n - 5, by omega⟩ p q) + stepSum1 V c ⟨n - 4, by omega⟩ p q)
          + stepSum1 V c ⟨n - 3, by omega⟩ p q) + stepSum1 V c ⟨n - 2, by omega⟩ p q) + stepSum1 V c ⟨n - 1, by omega⟩ p q)
        + stepSum1 V c ⟨n, h⟩ p q) := by
  obtain ⟨m, rfl⟩ : ∃ m, n = m + 1 + 1 + 1 + 1 + 1 + 1 := ⟨n - 6, by omega⟩
  show accVal1 V c (m + 1 + 1 + 1 + 1 + 1 + 1) h p q
    = ((((((stepSum1 V c ⟨m, by omega⟩ p q + stepSum1 V c ⟨m + 1, by omega⟩ p q) + stepSum1 V c ⟨m + 1 + 1, by omega⟩ p q)
          + stepSum1 V c ⟨m + 1 + 1 + 1, by omega⟩ p q) + stepSum1 V c ⟨m + 1 + 1 + 1 + 1, by omega⟩ p q) + stepSum1 V c ⟨m + 1 + 1 + 1 + 1 + 1, by omega⟩ p q)
        + stepSum1 V c ⟨m + 1 + 1 + 1 + 1 + 1 + 1, h⟩ p q)
  rw [accVal1_next V c (m + 1 + 1 + 1 + 1 + 1) h (by omega), accVal1_next V c (m + 1 + 1 + 1 + 1) (by omega) (by omega),
    accVal1_next V c (m + 1 + 1 + 1) (by omega) (by omega), accVal1_next V c (m + 1 + 1) (by omega) (by omega),
    accVal1_next V c (m + 1) (by omega) (by omega), accVal1_next V c m (by omega) (by omega),
    accVal1_first V c m (by omega) (by omega)]

/-- THE ACCUMULATOR after the point at position `n` holds the running sum — by induction on the position. -/
theorem acc1_eq (c : Dev nD) : ∀ (n : ℕ) (h : n < cfg1.N) (p : Fin 512) (q : Fin 2048),
    (outsAt1 V c n h).2 (ix2 p q) = accVal1 V c n h p q
  | 0, h, p, q => by
    rw [outsAt1_A V c ⟨0, h⟩ rfl (by show ¬(0 % 8 = 7); decide)]
    dsimp only
    rw [accA1_eq, pay2_tile1, k1_pay1_apply, zero_add]
    rfl
  | n + 1, h, p, q => by
    by_cases h0 : (n + 1) % 8 = 0
    · have h1 : ¬(n + 1) % 8 = 7 := by omega
      rw [outsAt1_A V c ⟨n + 1, h⟩ h0 h1]
      dsimp only
      rw [accA1_eq, pay2_tile1, k1_pay1_apply, zero_add, accVal1_first V c (n + 1) h h0]
      rfl
    · have ih := acc1_eq c n (Nat.lt_of_succ_lt h) p q
      rw [accVal1_next V c n h h0, ← ih]
      by_cases h1 : (n + 1) % 8 = 7
      · rw [outsAt1_C V c ⟨n + 1, h⟩ h0 h1]
        dsimp only
        rw [accC1_eq, pay2_tile1]
        rfl
      · rw [outsAt1_B V c ⟨n + 1, h⟩ h0 h1]
        dsimp only
        rw [accB1_eq, pay2_tile1]
        rfl

/-- A step's contribution over the arrays: at reduction step `s` the step's 256 reduction indices are run `s`
    of the 2048; the entry is at row `r` of the whole output and at column `q` (a tile has all the columns). -/
theorem stepSum1_eq (c : Dev nD) (t : Fin cfg1.N) (s : Fin 8) (hs : t.val % 8 = s.val) (p : Fin 512) (q : Fin 2048)
    (r : Fin 4096) (hr : r.val = 512 * (t.val / 8) + p.val) :
    stepSum1 V c t p q
      = (∑ k : Fin 256, inp1 V c (ix2 r (tileIdx8 s k)) * wUp1 V c (ix2 (tileIdx8 s k) q))
        + (∑ k : Fin 256, (sta1 V c (ix2 r (tileIdx8 s k)) * rst1 V c (ix2 r (tileIdx8 s k))) * wLo1 V c (ix2 (tileIdx8 s k) q)) := by
  have hk : ∀ k : Fin 256, (tileIdx8 s k).val = 256 * (t.val % 8) + k.val := fun k => by
    show 256 * s.val + k.val = _; rw [hs]
  unfold stepSum1 tileSum1
  refine congrArg₂ (· + ·) (Finset.sum_congr rfl fun k _ => ?_) (Finset.sum_congr rfl fun k _ => ?_)
  · rw [blk1_0_apply V c t p k r (tileIdx8 s k) hr (hk k), blk1_3_apply V c t k q (tileIdx8 s k) (hk k)]
  · rw [blk1_1_apply V c t p k r (tileIdx8 s k) hr (hk k), blk1_2_apply V c t p k r (tileIdx8 s k) hr (hk k),
      blk1_4_apply V c t k q (tileIdx8 s k) (hk k)]

/-- WHAT A LAST STEP STORES. At a point `t` that is a tile's last step, entry `(p, q)` of the output's buffer is,
    at row `r = 512·(t/8) + p` and column `q`: one minus the update gate's entry, times the state's entry, plus the
    gate's entry times the hyperbolic tangent of — the sum over all 2048 reduction indices of inputs times upper
    weight, plus the same of states times reset gate times lower weight, plus the bias. -/
theorem out_last1 (c : Dev nD) (t : Fin cfg1.N) (ht : t.val % 8 = 7) (p : Fin 512) (q : Fin 2048) (r : Fin 4096)
    (hr : r.val = 512 * (t.val / 8) + p.val) :
    (outsAt1 V c t.val t.isLt).1 (ix2 p q)
      = (1 - upd1 V c (ix2 r q)) * sta1 V c (ix2 r q)
        + upd1 V c (ix2 r q) * Ideal.tanh (((∑ k : Fin 2048, inp1 V c (ix2 r k) * wUp1 V c (ix2 k q))
            + (∑ k : Fin 2048, (sta1 V c (ix2 r k) * rst1 V c (ix2 r k)) * wLo1 V c (ix2 k q)))
          + bias1 V c (ix2 (0 : Fin 1) q)) := by
  have hN : t.val < cfg1.N := t.isLt
  have h0 : ¬t.val % 8 = 0 := by omega
  rw [outsAt1_C V c t h0 ht]
  dsimp only
  rw [outC1_eq, k1_pay3_apply, pay2_tile1, acc1_eq V c _ _ p q, accVal1_seventh V c (t.val - 1) _ (by omega) p q,
    blk1_5_apply V c t 0 q, blk1_7_apply V c t p q r hr, blk1_6_apply V c t p q r hr]
  rw [show tileSum1 (iblk1 V c 1 t) (iblk1 V c 2 t) (iblk1 V c 0 t) (iblk1 V c 3 t) (iblk1 V c 4 t) p q = stepSum1 V c t p q from rfl,
    stepSum1_eq V c ⟨t.val - 1 - 6, by omega⟩ 0 (by dsimp only; omega) p q r (by dsimp only; omega),
    stepSum1_eq V c ⟨t.val - 1 - 5, by omega⟩ 1 (by dsimp only; omega) p q r (by dsimp only; omega),
    stepSum1_eq V c ⟨t.val - 1 - 4, by omega⟩ 2 (by dsimp only; omega) p q r (by dsimp only; omega),
    stepSum1_eq V c ⟨t.val - 1 - 3, by omega⟩ 3 (by dsimp only; omega) p q r (by dsimp only; omega),
    stepSum1_eq V c ⟨t.val - 1 - 2, by omega⟩ 4 (by dsimp only; omega) p q r (by dsimp only; omega),
    stepSum1_eq V c ⟨t.val - 1 - 1, by omega⟩ 5 (by dsimp only; omega) p q r (by dsimp only; omega),
    stepSum1_eq V c ⟨t.val - 1, by omega⟩ 6 (by dsimp only; omega) p q r (by dsimp only; omega),
    stepSum1_eq V c t 7 ht p q r hr,
    sum_tiles8 (fun k => inp1 V c (ix2 r k) * wUp1 V c (ix2 k q)),
    sum_tiles8 (fun k => (sta1 V c (ix2 r k) * rst1 V c (ix2 r k)) * wLo1 V c (ix2 k q))]
  refine congrArg (fun y => (1 - upd1 V c (ix2 r q)) * sta1 V c (ix2 r q)
    + upd1 V c (ix2 r q) * Ideal.tanh (y + bias1 V c (ix2 (0 : Fin 1) q))) ?_
  abel

end Cert.KernelIdeal.HandValue

end
-- ==== Proof.K1Arr.lean ====
/-
  The second kernel's output array after the region, as one function of the arrays the region reads.

  The output's window is written back at the last step of each row tile — the points 8·i + 7 — and there its
  buffer holds, entry by entry, the blend of the state with the hyperbolic tangent of the finished sum plus the
  bias, weighted by the update gate, at rows 512·i … of the whole array and all its columns. Row r of the array
  lies in the block of the tile i = r / 512, so the eight tiles' blocks cover the array, and the array ends holding
  that one function of the inputs, the states, the two gates, the two weights and the bias.
-/
import proofs.«172101_j11879879541673_2_alg».proof.Proof.K1Acc

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The new state at row `r` and column `q`: one minus the update gate's entry, times the state's entry, plus the
    gate's entry times the hyperbolic tangent of — inputs against the upper weight, plus states scaled by the reset
    gate against the lower weight, plus the bias. -/
def newStateAt1 (c : Dev nD) (r : Fin 4096) (q : Fin 2048) : EReal :=
  (1 - upd1 V c (ix2 r q)) * sta1 V c (ix2 r q)
    + upd1 V c (ix2 r q) * Ideal.tanh (((∑ k : Fin 2048, inp1 V c (ix2 r k) * wUp1 V c (ix2 k q))
        + (∑ k : Fin 2048, (sta1 V c (ix2 r k) * rst1 V c (ix2 r k)) * wLo1 V c (ix2 k q)))
      + bias1 V c (ix2 (0 : Fin 1) q))

/-- The whole output array: the new state at every index. -/
def newState1 (c : Dev nD) : S4096x2048.Idx → EReal := fun i => newStateAt1 V c (i 0 : Fin 4096) (i 1 : Fin 2048)

theorem newState1_apply (c : Dev nD) (r : Fin 4096) (q : Fin 2048) :
    newState1 V c (ix2 r q)
      = (1 - upd1 V c (ix2 r q)) * sta1 V c (ix2 r q)
        + upd1 V c (ix2 r q) * Ideal.tanh (((∑ k : Fin 2048, inp1 V c (ix2 r k) * wUp1 V c (ix2 k q))
            + (∑ k : Fin 2048, (sta1 V c (ix2 r k) * rst1 V c (ix2 r k)) * wLo1 V c (ix2 k q)))
          + bias1 V c (ix2 (0 : Fin 1) q)) := rfl

/-- WHAT A WRITING-BACK POINT WRITES BACK is its block of the new state. -/
theorem flushed1_8_eq (c : Dev nD) (t : Fin cfg1.N) (hf : (cfg1.win 8).flush t = true) :
    (dat1 V c).flushed 8 t = ((cfg1.win 8).blk t).view.read (Elt Ideal) (newState1 V c) := by
  have ht : t.val % 8 = 7 := (flush1_8 t).mp hf
  have hN : t.val < 64 := lt_of_lt_of_eq t.isLt (show cfg1.N = 64 from N_1)
  show (cfg1.win 8).cut (grid1.coords t) ((dat1 V c).after 8 t) = _
  rw [after1_8]
  funext j
  have hp : (j 0).val < 512 := (j 0).isLt
  have hq : (j 1).val < 2048 := (j 1).isLt
  have he : ((cfg1.win 8).blk t).view.emb j
      = ix2 (⟨512 * (t.val / 8) + (j 0).val, by omega⟩ : Fin 4096) (⟨(j 1).val, hq⟩ : Fin 2048) := by
    funext a; apply Fin.ext
    match a with
    | ⟨0, _⟩ => show win1_8.index t (0 : Fin 2) * 512 + 1 * (j 0).val = 512 * (t.val / 8) + (j 0).val; rw [(idx1_8 t).1]; omega
    | ⟨1, _⟩ => show win1_8.index t (1 : Fin 2) * 2048 + 1 * (j 1).val = (j 1).val; rw [(idx1_8 t).2]; omega
  rw [View.read_apply, he, newState1_apply]
  have hj : j = ix2 (⟨(j 0).val, hp⟩ : Fin 512) (⟨(j 1).val, hq⟩ : Fin 2048) := by
    funext a; apply Fin.ext
    match a with
    | ⟨0, _⟩ => rfl
    | ⟨1, _⟩ => rfl
  exact (congrArg ((outsAt1 V c t.val t.isLt).1) hj).trans
    (out_last1 V c t ht ⟨(j 0).val, hp⟩ ⟨(j 1).val, hq⟩ ⟨512 * (t.val / 8) + (j 0).val, by omega⟩ rfl)

/-- An index of the array is in point `t`'s block iff each coordinate is in the block's range on its axis. -/
theorem mem_blk1_8 (t : Fin cfg1.N) (i : S4096x2048.Idx) :
    i ∈ ((cfg1.win 8).blk t).view.set ↔ ∀ a : Fin 2, win1_8.index t a * S512x2048.size a ≤ (i a).val ∧ (i a).val < win1_8.index t a * S512x2048.size a + S512x2048.size a := by
  show i ∈ ((View.whole main_v18).slice (win1_8.rect t)).set ↔ _
  rw [View.set_slice_whole, Rect.mem_set_unit]
  exact Iff.rfl

/-- THE COVER: row `r` of the array is written back at the last step of its tile, the point `8·(r / 512) + 7`. -/
theorem cover1_8 (i : S4096x2048.Idx) :
    ∃ t : Fin cfg1.N, (cfg1.win 8).flush t = true ∧ i ∈ ((cfg1.win 8).blk t).view.set := by
  have hi0 : (i 0).val < 4096 := (i 0).isLt
  have hi1 : (i 1).val < 2048 := (i 1).isLt
  have hN : cfg1.N = 64 := N_1
  refine ⟨⟨8 * ((i 0).val / 512) + 7, by rw [hN]; omega⟩, (flush1_8 _).mpr (by show (8 * ((i 0).val / 512) + 7) % 8 = 7; omega), ?_⟩
  rw [mem_blk1_8]
  intro a
  match a with
  | ⟨0, _⟩ =>
    show win1_8.index _ (0 : Fin 2) * 512 ≤ (i 0).val ∧ (i 0).val < win1_8.index _ (0 : Fin 2) * 512 + 512
    rw [(idx1_8 _).1]; show (8 * ((i 0).val / 512) + 7) / 8 * 512 ≤ (i 0).val ∧ (i 0).val < (8 * ((i 0).val / 512) + 7) / 8 * 512 + 512
    omega
  | ⟨1, _⟩ =>
    show win1_8.index _ (1 : Fin 2) * 2048 ≤ (i 1).val ∧ (i 1).val < win1_8.index _ (1 : Fin 2) * 2048 + 2048
    rw [(idx1_8 _).2]; omega

/-- THE ARRAY after the region: the new state, as one function of the arrays the region reads. -/
theorem final1_8 (c : Dev nD) : (dat1 V c).arrAt 8 cfg1.N = newState1 V c :=
  (dat1 V c).arrAt_eq_of_cover 8 (newState1 V c) (fun t hf => flushed1_8_eq V c t hf) cover1_8

end Cert.KernelIdeal.HandValue

end
-- ==== Proof.Glue.lean ====
import proofs.«172101_j11879879541673_2_alg».proof.Proof.Mid
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the host operations between the kernels compute

Before the first kernel: the upper halves of the reset and update weights side by side, converted (the operand of the
products with the inputs); their lower halves likewise (the operand of the products with the states); the two bias
vectors end to end as one row. Between the kernels: the gates' array cut into its reset half and its update half; the
candidate's weights cut into halves and converted; its bias as a row. -/

variable (m : (ℓ : Loc nD τ sig) → Buf (Elt F) ℓ) (ρ : Dev nD → PrngReg)

theorem V1_v3 (c : Dev nD) : (V1 m ρ c main_v3 : Vec F S2048x4096 .bf16) =
    truncf .bf16 (concatenate S2048x4096 1 [⟨S2048x2048, extractStridedSlice S2048x2048 ![0, 0] (m ((c : Thread nD τ).loc main_arg2)) slices_S4096x2048_S2048x2048_0_0⟩, ⟨S2048x2048, extractStridedSlice S2048x2048 ![0, 0] (m ((c : Thread nD τ).loc main_arg4)) slices_S4096x2048_S2048x2048_0_0⟩] concatenates_S2048x2048_S2048x2048_S2048x4096_d1) bitsLt_bf16_f32 := by
  show StableHlo.after hostOps0 (W0 m ρ c) (Proc.devRef .tc main_v3) = _
  after_results
  try rfl

theorem V1_v7 (c : Dev nD) : (V1 m ρ c main_v7 : Vec F S2048x4096 .bf16) =
    truncf .bf16 (concatenate S2048x4096 1 [⟨S2048x2048, extractStridedSlice S2048x2048 ![2048, 0] (m ((c : Thread nD τ).loc main_arg2)) slices_S4096x2048_S2048x2048_2048_0⟩, ⟨S2048x2048, extractStridedSlice S2048x2048 ![2048, 0] (m ((c : Thread nD τ).loc main_arg4)) slices_S4096x2048_S2048x2048_2048_0⟩] concatenates_S2048x2048_S2048x2048_S2048x4096_d1) bitsLt_bf16_f32 := by
  show StableHlo.after hostOps0 (W0 m ρ c) (Proc.devRef .tc main_v7) = _
  after_results
  try rfl

theorem V1_v9 (c : Dev nD) : (V1 m ρ c main_v9 : Vec F S1x4096 .f32) =
    shapeCast S1x4096 (concatenate S4096 0 [⟨S2048, m ((c : Thread nD τ).loc main_arg3)⟩, ⟨S2048, m ((c : Thread nD τ).loc main_arg5)⟩] concatenates_S2048_S2048_S4096_d0) shapeCasts_S4096_S1x4096 := by
  show StableHlo.after hostOps0 (W0 m ρ c) (Proc.devRef .tc main_v9) = _
  after_results
  try rfl

theorem V1_arg0 (c : Dev nD) : V1 m ρ c main_arg0 = m ((c : Thread nD τ).loc main_arg0) := W1_of m ρ c main_arg0 (by decide)
theorem V1_arg1 (c : Dev nD) : V1 m ρ c main_arg1 = m ((c : Thread nD τ).loc main_arg1) := W1_of m ρ c main_arg1 (by decide)

theorem V3_v11 (c : Dev nD) : (V3 m ρ c main_v11 : Vec F S4096x2048 .f32) =
    extractStridedSlice S4096x2048 ![0, 0] (V2 m ρ c main_v10) slices_S4096x4096_S4096x2048_0_0 := by
  show StableHlo.after hostOps1 (W2 m ρ c) (Proc.devRef .tc main_v11) = _
  after_results
  try rfl
theorem V3_v12 (c : Dev nD) : (V3 m ρ c main_v12 : Vec F S4096x2048 .f32) =
    extractStridedSlice S4096x2048 ![0, 2048] (V2 m ρ c main_v10) slices_S4096x4096_S4096x2048_0_2048 := by
  show StableHlo.after hostOps1 (W2 m ρ c) (Proc.devRef .tc main_v12) = _
  after_results
  try rfl
theorem V3_v14 (c : Dev nD) : (V3 m ρ c main_v14 : Vec F S2048x2048 .bf16) =
    truncf .bf16 (extractStridedSlice S2048x2048 ![0, 0] (V2 m ρ c main_arg6) slices_S4096x2048_S2048x2048_0_0) bitsLt_bf16_f32 := by
  show StableHlo.after hostOps1 (W2 m ρ c) (Proc.devRef .tc main_v14) = _
  after_results
  try rfl
theorem V3_v16 (c : Dev nD) : (V3 m ρ c main_v16 : Vec F S2048x2048 .bf16) =
    truncf .bf16 (extractStridedSlice S2048x2048 ![2048, 0] (V2 m ρ c main_arg6) slices_S4096x2048_S2048x2048_2048_0) bitsLt_bf16_f32 := by
  show StableHlo.after hostOps1 (W2 m ρ c) (Proc.devRef .tc main_v16) = _
  after_results
  try rfl
theorem V3_v17 (c : Dev nD) : (V3 m ρ c main_v17 : Vec F S1x2048 .f32) =
    shapeCast S1x2048 (V2 m ρ c main_arg7) shapeCasts_S2048_S1x2048 := by
  show StableHlo.after hostOps1 (W2 m ρ c) (Proc.devRef .tc main_v17) = _
  after_results
  try rfl

/-- The arguments the second stretch and the first kernel leave alone. -/
theorem V2_arg6 (c : Dev nD) : V2 m ρ c main_arg6 = m ((c : Thread nD τ).loc main_arg6) :=
  (W2_of_ne m ρ c main_arg6 (by decide)).trans (W1_of m ρ c main_arg6 (by decide))
theorem V2_arg7 (c : Dev nD) : V2 m ρ c main_arg7 = m ((c : Thread nD τ).loc main_arg7) :=
  (W2_of_ne m ρ c main_arg7 (by decide)).trans (W1_of m ρ c main_arg7 (by decide))
theorem V3_arg0 (c : Dev nD) : V3 m ρ c main_arg0 = m ((c : Thread nD τ).loc main_arg0) :=
  (W3_of m ρ c main_arg0 (by decide)).trans <|
    ((W2_arr m ρ c 0).trans (((dat0 (V1 m ρ) c).arrAt_in 0 rfl _).trans (A_eq0 (V1 m ρ) c 0))).trans (V1_arg0 m ρ c)
theorem V3_arg1 (c : Dev nD) : V3 m ρ c main_arg1 = m ((c : Thread nD τ).loc main_arg1) :=
  (W3_of m ρ c main_arg1 (by decide)).trans <|
    ((W2_arr m ρ c 1).trans (((dat0 (V1 m ρ) c).arrAt_in 1 rfl _).trans (A_eq0 (V1 m ρ) c 1))).trans (V1_arg1 m ρ c)
/-- The gates' array after the first kernel is what its pipeline leaves. -/
theorem V2_v10 (c : Dev nD) : V2 m ρ c main_v10 = (dat0 (V1 m ρ) c).arrAt 5 cfg0.N := W2_arr m ρ c 5

end Cert.KernelIdeal.HandValue

end
-- ==== Proof.GlueIdx.lean ====
import proofs.«172101_j11879879541673_2_alg».proof.Proof.Glue
import proofs.«172101_j11879879541673_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Cert.Gru (upper lower)

/-! # The host-side arrays read at an index (extended reals)

The first kernel's weight operand for the inputs has, in row `k`, the reset weights' row `k` in its columns below
2048 and the update weights' row `k` in the columns from 2048 on; the operand for the states the same with rows
`2048 + k`; the bias row the two biases end to end. The reset gate is the left half of the gates' array, the update
gate its right half. The candidate's weight operands are the upper and lower halves of its weight array. A change of
float format is the identity on the extended reals. -/

variable (m : (ℓ : Loc nD τ sig) → Buf (Elt Ideal) ℓ) (ρ : Dev nD → PrngReg)

theorem wTop_left (c : Dev nD) (k : Fin 2048) (col : Fin 4096) (q : Fin 2048) (h : col.val = q.val) :
    (V1 m ρ c main_v3 : S2048x4096.Idx → EReal) (ix2 k col)
      = (m ((c : Thread nD τ).loc main_arg2) : S4096x2048.Idx → EReal) (ix2 (upper k) q) := by
  rw [V1_v3]
  rw [ValueIdx.truncf_apply]
  refine (concatenate_pair_apply_left (t := S2048x4096) (s₁ := S2048x2048) (s₂ := S2048x2048) (1 : Fin 2) _ _ _ (ix2 k col) rfl (ix2 k q)
    (by intro b; match b with | ⟨0, _⟩ => rfl | ⟨1, _⟩ => exact h.symm)).trans ?_
  exact extractStridedSlice_apply _ _ _ (ix2 k q) (ix2 (upper k) q)
    (by intro a; match a with | ⟨0, _⟩ => simp [upper] | ⟨1, _⟩ => simp)

theorem wTop_right (c : Dev nD) (k : Fin 2048) (col : Fin 4096) (q : Fin 2048) (h : col.val = 2048 + q.val) :
    (V1 m ρ c main_v3 : S2048x4096.Idx → EReal) (ix2 k col)
      = (m ((c : Thread nD τ).loc main_arg4) : S4096x2048.Idx → EReal) (ix2 (upper k) q) := by
  rw [V1_v3]
  rw [ValueIdx.truncf_apply]
  refine (concatenate_pair_apply_right (t := S2048x4096) (s₁ := S2048x2048) (s₂ := S2048x2048) (1 : Fin 2) _ _ _ (ix2 k col) rfl rfl (ix2 k q)
    (by intro b hb; match b with | ⟨0, _⟩ => rfl | ⟨1, _⟩ => exact absurd rfl hb)
    (by show q.val + 2048 = col.val; omega)).trans ?_
  exact extractStridedSlice_apply _ _ _ (ix2 k q) (ix2 (upper k) q)
    (by intro a; match a with | ⟨0, _⟩ => simp [upper] | ⟨1, _⟩ => simp)

theorem wBot_left (c : Dev nD) (k : Fin 2048) (col : Fin 4096) (q : Fin 2048) (h : col.val = q.val) :
    (V1 m ρ c main_v7 : S2048x4096.Idx → EReal) (ix2 k col)
      = (m ((c : Thread nD τ).loc main_arg2) : S4096x2048.Idx → EReal) (ix2 (lower k) q) := by
  rw [V1_v7]
  rw [ValueIdx.truncf_apply]
  refine (concatenate_pair_apply_left (t := S2048x4096) (s₁ := S2048x2048) (s₂ := S2048x2048) (1 : Fin 2) _ _ _ (ix2 k col) rfl (ix2 k q)
    (by intro b; match b with | ⟨0, _⟩ => rfl | ⟨1, _⟩ => exact h.symm)).trans ?_
  exact extractStridedSlice_apply _ _ _ (ix2 k q) (ix2 (lower k) q)
    (by intro a; match a with | ⟨0, _⟩ => simp [lower] | ⟨1, _⟩ => simp)

theorem wBot_right (c : Dev nD) (k : Fin 2048) (col : Fin 4096) (q : Fin 2048) (h : col.val = 2048 + q.val) :
    (V1 m ρ c main_v7 : S2048x4096.Idx → EReal) (ix2 k col)
      = (m ((c : Thread nD τ).loc main_arg4) : S4096x2048.Idx → EReal) (ix2 (lower k) q) := by
  rw [V1_v7]
  rw [ValueIdx.truncf_apply]
  refine (concatenate_pair_apply_right (t := S2048x4096) (s₁ := S2048x2048) (s₂ := S2048x2048) (1 : Fin 2) _ _ _ (ix2 k col) rfl rfl (ix2 k q)
    (by intro b hb; match b with | ⟨0, _⟩ => rfl | ⟨1, _⟩ => exact absurd rfl hb)
    (by show q.val + 2048 = col.val; omega)).trans ?_
  exact extractStridedSlice_apply _ _ _ (ix2 k q) (ix2 (lower k) q)
    (by intro a; match a with | ⟨0, _⟩ => simp [lower] | ⟨1, _⟩ => simp)

theorem bias_left (c : Dev nD) (col : Fin 4096) (q : Fin 2048) (h : col.val = q.val) :
    (V1 m ρ c main_v9 : S1x4096.Idx → EReal) (ix2 (0 : Fin 1) col)
      = (m ((c : Thread nD τ).loc main_arg3) : S2048.Idx → EReal) (ix1 q) := by
  rw [V1_v9]
  rw [shapeCast_apply _ _ (ix2 (0 : Fin 1) col) (ix1 col) (by rw [Shape.rowMajor_val_one, Shape.rowMajor_val_two]; simp)]
  exact concatenate_pair_apply_left (t := S4096) (s₁ := S2048) (s₂ := S2048) (0 : Fin 1) _ _ _ (ix1 col) rfl (ix1 q)
    (by intro b; match b with | ⟨0, _⟩ => exact h.symm)

theorem bias_right (c : Dev nD) (col : Fin 4096) (q : Fin 2048) (h : col.val = 2048 + q.val) :
    (V1 m ρ c main_v9 : S1x4096.Idx → EReal) (ix2 (0 : Fin 1) col)
      = (m ((c : Thread nD τ).loc main_arg5) : S2048.Idx → EReal) (ix1 q) := by
  rw [V1_v9]
  rw [shapeCast_apply _ _ (ix2 (0 : Fin 1) col) (ix1 col) (by rw [Shape.rowMajor_val_one, Shape.rowMajor_val_two]; simp)]
  exact concatenate_pair_apply_right (t := S4096) (s₁ := S2048) (s₂ := S2048) (0 : Fin 1) _ _ _ (ix1 col) rfl rfl (ix1 q)
    (by intro b hb; match b with | ⟨0, _⟩ => exact absurd rfl hb)
    (by show q.val + 2048 = col.val; omega)

/-- The reset gate's array is the left half of the gates' array, the update gate's its right half. -/
theorem gateR_at (c : Dev nD) (p : Fin 4096) (q : Fin 2048) (col : Fin 4096) (h : col.val = q.val) :
    (V3 m ρ c main_v11 : S4096x2048.Idx → EReal) (ix2 p q) = (V2 m ρ c main_v10 : S4096x4096.Idx → EReal) (ix2 p col) := by
  rw [V3_v11]
  exact extractStridedSlice_apply _ _ _ (ix2 p q) (ix2 p col)
    (by intro a; match a with | ⟨0, _⟩ => simp | ⟨1, _⟩ => simp [h])
theorem gateZ_at (c : Dev nD) (p : Fin 4096) (q : Fin 2048) (col : Fin 4096) (h : col.val = 2048 + q.val) :
    (V3 m ρ c main_v12 : S4096x2048.Idx → EReal) (ix2 p q) = (V2 m ρ c main_v10 : S4096x4096.Idx → EReal) (ix2 p col) := by
  rw [V3_v12]
  exact extractStridedSlice_apply _ _ _ (ix2 p q) (ix2 p col)
    (by intro a; match a with | ⟨0, _⟩ => simp | ⟨1, _⟩ => simp [h])

/-- The candidate's weight operands and bias row. -/
theorem wN_top (c : Dev nD) (k q : Fin 2048) :
    (V3 m ρ c main_v14 : S2048x2048.Idx → EReal) (ix2 k q)
      = (m ((c : Thread nD τ).loc main_arg6) : S4096x2048.Idx → EReal) (ix2 (upper k) q) := by
  rw [V3_v14, ValueIdx.truncf_apply, V2_arg6]
  exact extractStridedSlice_apply _ _ _ (ix2 k q) (ix2 (upper k) q)
    (by intro a; match a with | ⟨0, _⟩ => simp [upper] | ⟨1, _⟩ => simp)
theorem wN_bot (c : Dev nD) (k q : Fin 2048) :
    (V3 m ρ c main_v16 : S2048x2048.Idx → EReal) (ix2 k q)
      = (m ((c : Thread nD τ).loc main_arg6) : S4096x2048.Idx → EReal) (ix2 (lower k) q) := by
  rw [V3_v16, ValueIdx.truncf_apply, V2_arg6]
  exact extractStridedSlice_apply _ _ _ (ix2 k q) (ix2 (lower k) q)
    (by intro a; match a with | ⟨0, _⟩ => simp [lower] | ⟨1, _⟩ => simp)
theorem bN_at (c : Dev nD) (q : Fin 2048) :
    (V3 m ρ c main_v17 : S1x2048.Idx → EReal) (ix2 (0 : Fin 1) q)
      = (m ((c : Thread nD τ).loc main_arg7) : S2048.Idx → EReal) (ix1 q) := by
  rw [V3_v17, V2_arg7]
  exact shapeCast_apply _ _ (ix2 (0 : Fin 1) q) (ix1 q) (by rw [Shape.rowMajor_val_one, Shape.rowMajor_val_two]; simp)

end Cert.KernelIdeal.HandValue

end
-- ==== Proof.K0Pieces.lean ====
/-
  What a step of the first kernel leaves in the accumulator and, at a last step, in the output's
  buffer — as the stored values themselves.

  Every store of the body writes a whole tile, so what a buffer holds afterwards is the value of the
  last store into it, and a load of a whole buffer reads what it holds. A first step stores zero, reads
  it back and stores zero plus the step's two products; a middle step stores the accumulator plus the
  two products; a last step does the same and then stores, into the output's buffer, the logistic
  function of that sum plus the bias.
-/
import proofs.«172101_j11879879541673_2_alg».proof.Proof.K0Dat
import Idealize.ShloMosaic.Lib.Pipeline.Value
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]

/-- The offsets of a whole-tile access are zero. -/
theorem hz : (![0, 0] : Fin 2 → Nat) = fun _ => 0 := funext fun a => by fin_cases a <;> rfl

/-- After a FIRST step the accumulator holds zero plus the step's two products. -/
theorem accA0_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : first0 i) (hl : ¬last0 i) (x0 : Vec F S1024x512 .f32) (x1 : Vec F S1024x512 .f32) (x2 : Vec F S512x1024 .bf16) (x3 : Vec F S512x1024 .bf16) (x4 : Vec F S1x1024 .f32) :
    accA0 c i arg3 harg3 arg4 harg4 arg5 harg5 arg6 harg6 arg7 harg7 arg8 harg8 arg9 harg9 hf hl x0 x1 x2 x3 x4 = k0_pay2 x0 x2 x1 x3 (k0_pay1 (F := F)) := by
  unfold accA0
  rw [View.read_writes_eq_canon _ _ _ (coverA0 c i arg3 harg3 arg4 harg4 arg5 harg5 arg6 harg6 arg7 harg7 arg8 harg8 arg9 harg9 hf hl x0 x1 x2 x3 x4)]
  unfold run0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg9.read_unread,
    View.ld_unit_zero (S := S1024x512) hz, View.ld_unit_zero (S := S512x1024) hz, View.ld_unit_zero (S := S1024x1024) hz,
    View.ld_unit_zero (S := S1x1024) hz]

/-- After a MIDDLE step it holds what it held plus the step's two products. -/
theorem accB0_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : ¬last0 i) (x0 : Vec F S1024x512 .f32) (x1 : Vec F S1024x512 .f32) (x2 : Vec F S512x1024 .bf16) (x3 : Vec F S512x1024 .bf16) (x4 : Vec F S1x1024 .f32) (xa : Vec F S1024x1024 .f32) :
    accB0 c i arg3 harg3 arg4 harg4 arg5 harg5 arg6 harg6 arg7 harg7 arg8 harg8 arg9 harg9 hf hl x0 x1 x2 x3 x4 xa = k0_pay2 x0 x2 x1 x3 xa := by
  unfold accB0
  rw [View.read_writes_eq_canon _ _ _ (coverB0 c i arg3 harg3 arg4 harg4 arg5 harg5 arg6 harg6 arg7 harg7 arg8 harg8 arg9 harg9 hf hl x0 x1 x2 x3 x4 xa)]
  unfold run0_B
  dsimp only
  rw [View.canon_unit_zero (S := S1024x1024) hz]
  simp only [View.readAt_eq_ld, harg3.read_unread, harg4.read_unread, harg5.read_unread, harg6.read_unread, harg7.read_unread, harg9.read_unread,
    View.ld_unit_zero (S := S1024x512) hz, View.ld_unit_zero (S := S512x1024) hz, View.ld_unit_zero (S := S1024x1024) hz,
    View.ld_unit_zero (S := S1x1024) hz]

/-- After a LAST step likewise. -/
theorem accC0_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : last0 i) (x0 : Vec F S1024x512 .f32) (x1 : Vec F S1024x512 .f32) (x2 : Vec F S512x1024 .bf16) (x3 : Vec F S512x1024 .bf16) (x4 : Vec F S1x1024 .f32) (xa : Vec F S1024x1024 .f32) :
    accC0 c i arg3 harg3 arg4 harg4 arg5 harg5 arg6 harg6 arg7 harg7 arg8 harg8 arg9 harg9 hf hl x0 x1 x2 x3 x4 xa = k0_pay2 x0 x2 x1 x3 xa := by
  unfold accC0
  rw [View.read_writes_eq_canon _ _ _ (coverC0 c i arg3 harg3 arg4 harg4 arg5 harg5 arg6 harg6 arg7 harg7 arg8 harg8 arg9 harg9 hf hl x0 x1 x2 x3 x4 xa)]
  unfold run0_C
  dsimp only
  sl_unfold_words
  rw [View.canon_unit_zero (S := S1024x1024) hz]
  simp only [View.readAt_eq_ld, harg3.read_unread, harg4.read_unread, harg5.read_unread, harg6.read_unread, harg7.read_unread, harg9.read_unread,
    View.ld_unit_zero (S := S1024x512) hz, View.ld_unit_zero (S := S512x1024) hz, View.ld_unit_zero (S := S1024x1024) hz,
    View.ld_unit_zero (S := S1x1024) hz]

/-- A LAST step leaves in the output's buffer the logistic function of the finished sum plus the bias. -/
theorem outC0_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hf : ¬first0 i) (hl : last0 i) (x0 : Vec F S1024x512 .f32) (x1 : Vec F S1024x512 .f32) (x2 : Vec F S512x1024 .bf16) (x3 : Vec F S512x1024 .bf16) (x4 : Vec F S1x1024 .f32) (xa : Vec F S1024x1024 .f32) :
    outC0 c i arg3 harg3 arg4 harg4 arg5 harg5 arg6 harg6 arg7 harg7 arg8 harg8 arg9 harg9 hf hl x0 x1 x2 x3 x4 xa = k0_pay3 (k0_pay2 x0 x2 x1 x3 xa) x4 := by
  unfold outC0
  rw [View.read_writes_eq_canon _ _ _ (coverO0 c i arg3 harg3 arg4 harg4 arg5 harg5 arg6 harg6 arg7 harg7 arg8 harg8 arg9 harg9 hf hl x0 x1 x2 x3 x4 xa)]
  unfold run0_C
  dsimp only
  sl_unfold_words
  rw [View.canon_unit_zero (S := S1024x1024) hz, View.readCov_unit_zero (S := S1024x1024) _ hz]
  simp only [View.readAt_eq_ld, harg3.read_unread, harg4.read_unread, harg5.read_unread, harg6.read_unread, harg7.read_unread, harg9.read_unread,
    View.ld_unit_zero (S := S1024x512) hz, View.ld_unit_zero (S := S512x1024) hz, View.ld_unit_zero (S := S1024x1024) hz,
    View.ld_unit_zero (S := S1x1024) hz]

end Cert.KernelIdeal.HandValue

end
-- ==== Proof.K0Payload.lean ====
/-
  The first kernel's three stored values, entry by entry, on the extended reals.

  The accumulator's reset stores zero. A reduction step adds to the accumulator the product of the
  step's block of inputs with its block of the weight's upper half and the product of its block of
  states with its block of the lower half: at (p, q) that is the accumulator's entry plus the two sums,
  over the 512 columns of the step, of the products of entries. (Narrowing an operand to the shorter
  float format changes no extended real, and a product into a zero accumulator is the bare sum.) The
  last step adds the bias row, the same for every row of the tile, and applies the logistic function.
-/
import proofs.«172101_j11879879541673_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx

local notation "D₀" => dot_S1024x512_S512x1024_S1024x1024_1_0_0_1_n_n

/-! ### Where a product of a 1024 × 512 block with a 512 × 1024 block reads its operands -/

theorem lhs0 (i : S1024x1024.Idx) (q : (D₀).contr.Idx) : ((D₀).lhsIdx i q 0).val = (i 0).val := by
  unfold DotDims.lhsIdx
  rw [dif_neg (show ¬(0 : Fin S1024x512.rank) ∈ (D₀).lhsBatch by decide),
    dif_pos (show (0 : Fin S1024x512.rank) ∈ (D₀).lhsNonContracting by decide)]
  rfl
theorem lhs1 (i : S1024x1024.Idx) (q : (D₀).contr.Idx) : ((D₀).lhsIdx i q 1).val = (q ⟨0, by decide⟩).val :=
  (D₀).lhsIdx_val_of_single rfl i q
theorem rhs0 (i : S1024x1024.Idx) (q : (D₀).contr.Idx) : ((D₀).rhsIdx i q 0).val = (q ⟨0, by decide⟩).val :=
  (D₀).rhsIdx_val_of_single rfl i q
theorem rhs1 (i : S1024x1024.Idx) (q : (D₀).contr.Idx) : ((D₀).rhsIdx i q 1).val = (i 1).val := by
  unfold DotDims.rhsIdx
  rw [dif_neg (show ¬(1 : Fin S512x1024.rank) ∈ (D₀).rhsBatch by decide),
    dif_pos (show (1 : Fin S512x1024.rank) ∈ (D₀).rhsNonContracting by decide)]
  rfl

/-- The product of two blocks into a zero accumulator, at entry `(p, q)`: the sum over the 512 shared
    coordinates of the products of entries. -/
theorem product_apply (a : FVec Ideal S1024x512 .bf16) (b : FVec Ideal S512x1024 .bf16) (p q : Fin 1024) :
    matmul (D₀) none a b (constant S1024x1024 .f32 0x00000000#32) (ix2 p q)
      = ∑ k : Fin 512, a (ix2 p k) * b (ix2 k q) := by
  simp only [matmul]
  rw [Ideal.matmul_constant_zero_apply, ← Equiv.sum_comp (ValueIdx.contrEquiv1 (D₀) 512 rfl rfl).symm]
  refine Finset.sum_congr rfl fun k _ => ?_
  have hk := ValueIdx.contrEquiv1_symm_val (D₀) 512 rfl rfl k
  have el : (D₀).lhsIdx (ix2 p q) ((ValueIdx.contrEquiv1 (D₀) 512 rfl rfl).symm k) = ix2 p k :=
    funext fun x => Fin.ext (by
      match x with
      | ⟨0, _⟩ => exact lhs0 _ _
      | ⟨1, _⟩ => exact (lhs1 _ _).trans hk)
  have er : (D₀).rhsIdx (ix2 p q) ((ValueIdx.contrEquiv1 (D₀) 512 rfl rfl).symm k) = ix2 k q :=
    funext fun x => Fin.ext (by
      match x with
      | ⟨0, _⟩ => exact (rhs0 _ _).trans hk
      | ⟨1, _⟩ => exact rhs1 _ _)
  rw [el, er]

/-- The reset stores zero. -/
theorem pay1_apply (i : S1024x1024.Idx) : k0_pay1 (F := Ideal) i = 0 := by
  unfold k0_pay1
  simp only [shapeCast_self]
  show Ideal.ofBits .f32 0x00000000#32 = 0
  exact Ideal.ofBits_zero_f32

/-- A reduction step: the accumulator's entry plus the step's two sums of products. -/
theorem pay2_apply (x0 : Vec Ideal S1024x512 .f32) (x2 : Vec Ideal S512x1024 .bf16) (x1 : Vec Ideal S1024x512 .f32)
    (x3 : Vec Ideal S512x1024 .bf16) (xa : Vec Ideal S1024x1024 .f32) (p q : Fin 1024) :
    k0_pay2 (F := Ideal) x0 x2 x1 x3 xa (ix2 p q)
      = xa (ix2 p q) + ((∑ k : Fin 512, x0 (ix2 p k) * x2 (ix2 k q)) + (∑ k : Fin 512, x1 (ix2 p k) * x3 (ix2 k q))) := by
  unfold k0_pay2
  simp only [shapeCast_self]
  show xa (ix2 p q) + (matmul (F := Ideal) (D₀) none (truncf (F := Ideal) .bf16 x0 bitsLt_bf16_f32) x2
        (constant (F := Ideal) S1024x1024 .f32 0x00000000#32) (ix2 p q)
      + matmul (F := Ideal) (D₀) none (truncf (F := Ideal) .bf16 x1 bitsLt_bf16_f32) x3
        (constant (F := Ideal) S1024x1024 .f32 0x00000000#32) (ix2 p q)) = _
  rw [product_apply, product_apply]
  rfl

/-- The last step: the logistic function of the accumulator's entry plus the bias of its column. -/
theorem pay3_apply (a : Vec Ideal S1024x1024 .f32) (b : Vec Ideal S1x1024 .f32) (p q : Fin 1024) :
    k0_pay3 (F := Ideal) a b (ix2 p q) = Ideal.logistic (a (ix2 p q) + b (ix2 (0 : Fin 1) q)) := by
  unfold k0_pay3
  simp only [shapeCast_self]
  show Ideal.logistic (a (ix2 p q) + broadcastTo (α := EReal) S1024x1024 b broadcasts_S1x1024_S1024x1024 (ix2 p q)) = _
  rw [broadcastTo_1b_ab_apply]

end Cert.KernelIdeal.HandValue

end
-- ==== Proof.K0Blocks.lean ====
/-
  The blocks the first kernel's windows hold at a grid point, read off their arrays.

  Point number t of the 4 × 4 × 4 grid has coordinates (i, j, k) = (t / 16, (t / 4) mod 4, t mod 4): i the row
  of tiles, j the column of tiles, k the reduction step. There the inputs' and the states' windows hold
  rows 1024·i … and columns 512·k … of their arrays; the two weight windows hold rows 512·k … and columns
  1024·j …; the bias window holds columns 1024·j … of its one row; and the output window's block is rows
  1024·i …, columns 1024·j … . An entry of a block is the array's entry at the block's offset plus the
  entry's place in the block.
-/
import proofs.«172101_j11879879541673_2_alg».proof.Proof.K0Dat
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

/-! ### Which block each window selects at point `t` -/

theorem idx0_0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem idx0_1 : ∀ t : Fin cfg0.N, win0_1.index t 0 = t.val / 16 ∧ win0_1.index t 1 = t.val % 4 :=
  (by decide +kernel : ∀ t : Fin grid0.N, win0_1.index t 0 = t.val / 16 ∧ win0_1.index t 1 = t.val % 4)
theorem idx0_2 : ∀ t : Fin cfg0.N, win0_2.index t 0 = t.val % 4 ∧ win0_2.index t 1 = t.val / 4 % 4 :=
  (by decide +kernel : ∀ t : Fin grid0.N, win0_2.index t 0 = t.val % 4 ∧ win0_2.index t 1 = t.val / 4 % 4)
theorem idx0_3 : ∀ t : Fin cfg0.N, win0_3.index t 0 = t.val % 4 ∧ win0_3.index t 1 = t.val / 4 % 4 :=
  (by decide +kernel : ∀ t : Fin grid0.N, win0_3.index t 0 = t.val % 4 ∧ win0_3.index t 1 = t.val / 4 % 4)
theorem idx0_4 : ∀ t : Fin cfg0.N, win0_4.index t 0 = 0 ∧ win0_4.index t 1 = t.val / 4 % 4 :=
  (by decide +kernel : ∀ t : Fin grid0.N, win0_4.index t 0 = 0 ∧ win0_4.index t 1 = t.val / 4 % 4)
theorem idx0_5 : ∀ t : Fin cfg0.N, win0_5.index t 0 = t.val / 16 ∧ win0_5.index t 1 = t.val / 4 % 4 :=
  (by decide +kernel : ∀ t : Fin grid0.N, win0_5.index t 0 = t.val / 16 ∧ win0_5.index t 1 = t.val / 4 % 4)

/-! ### An entry of a block is an entry of the array -/

theorem blk0_apply (c : Dev nD) (t : Fin cfg0.N) (p : Fin 1024) (q : Fin 512) (r : Fin 4096) (col : Fin 2048)
    (hr : r.val = 1024 * (t.val / 16) + p.val) (hc : col.val = 512 * (t.val % 4) + q.val) :
    (iblk0 V c 0 t : Vec F S1024x512 .f32) (ix2 p q) = (V c main_arg0 : S4096x2048.Idx → Elt F .f32) (ix2 r col) := by
  unfold iblk0
  rw [View.read_apply]
  show V c main_arg0 _ = V c main_arg0 _
  refine congrArg _ (funext fun a => Fin.ext ?_)
  match a with
  | ⟨0, _⟩ => show win0_0.index t 0 * 1024 + 1 * p.val = r.val; rw [(idx0_0 t).1, hr]; omega
  | ⟨1, _⟩ => show win0_0.index t 1 * 512 + 1 * q.val = col.val; rw [(idx0_0 t).2, hc]; omega

theorem blk1_apply (c : Dev nD) (t : Fin cfg0.N) (p : Fin 1024) (q : Fin 512) (r : Fin 4096) (col : Fin 2048)
    (hr : r.val = 1024 * (t.val / 16) + p.val) (hc : col.val = 512 * (t.val % 4) + q.val) :
    (iblk0 V c 1 t : Vec F S1024x512 .f32) (ix2 p q) = (V c main_arg1 : S4096x2048.Idx → Elt F .f32) (ix2 r col) := by
  unfold iblk0
  rw [View.read_apply]
  show V c main_arg1 _ = V c main_arg1 _
  refine congrArg _ (funext fun a => Fin.ext ?_)
  match a with
  | ⟨0, _⟩ => show win0_1.index t 0 * 1024 + 1 * p.val = r.val; rw [(idx0_1 t).1, hr]; omega
  | ⟨1, _⟩ => show win0_1.index t 1 * 512 + 1 * q.val = col.val; rw [(idx0_1 t).2, hc]; omega

theorem blk2_apply (c : Dev nD) (t : Fin cfg0.N) (p : Fin 512) (q : Fin 1024) (r : Fin 2048) (col : Fin 4096)
    (hr : r.val = 512 * (t.val % 4) + p.val) (hc : col.val = 1024 * (t.val / 4 % 4) + q.val) :
    (iblk0 V c 2 t : Vec F S512x1024 .bf16) (ix2 p q) = (V c main_v3 : S2048x4096.Idx → Elt F .bf16) (ix2 r col) := by
  unfold iblk0
  rw [View.read_apply]
  show V c main_v3 _ = V c main_v3 _
  refine congrArg _ (funext fun a => Fin.ext ?_)
  match a with
  | ⟨0, _⟩ => show win0_2.index t 0 * 512 + 1 * p.val = r.val; rw [(idx0_2 t).1, hr]; omega
  | ⟨1, _⟩ => show win0_2.index t 1 * 1024 + 1 * q.val = col.val; rw [(idx0_2 t).2, hc]; omega

theorem blk3_apply (c : Dev nD) (t : Fin cfg0.N) (p : Fin 512) (q : Fin 1024) (r : Fin 2048) (col : Fin 4096)
    (hr : r.val = 512 * (t.val % 4) + p.val) (hc : col.val = 1024 * (t.val / 4 % 4) + q.val) :
    (iblk0 V c 3 t : Vec F S512x1024 .bf16) (ix2 p q) = (V c main_v7 : S2048x4096.Idx → Elt F .bf16) (ix2 r col) := by
  unfold iblk0
  rw [View.read_apply]
  show V c main_v7 _ = V c main_v7 _
  refine congrArg _ (funext fun a => Fin.ext ?_)
  match a with
  | ⟨0, _⟩ => show win0_3.index t 0 * 512 + 1 * p.val = r.val; rw [(idx0_3 t).1, hr]; omega
  | ⟨1, _⟩ => show win0_3.index t 1 * 1024 + 1 * q.val = col.val; rw [(idx0_3 t).2, hc]; omega

theorem blk4_apply (c : Dev nD) (t : Fin cfg0.N) (p : Fin 1) (q : Fin 1024) (r : Fin 1) (col : Fin 4096)
    (hr : r.val = p.val) (hc : col.val = 1024 * (t.val / 4 % 4) + q.val) :
    (iblk0 V c 4 t : Vec F S1x1024 .f32) (ix2 p q) = (V c main_v9 : S1x4096.Idx → Elt F .f32) (ix2 r col) := by
  unfold iblk0
  rw [View.read_apply]
  show V c main_v9 _ = V c main_v9 _
  refine congrArg _ (funext fun a => Fin.ext ?_)
  match a with
  | ⟨0, _⟩ => show win0_4.index t 0 * 1 + 1 * p.val = r.val; rw [(idx0_4 t).1, hr]; omega
  | ⟨1, _⟩ => show win0_4.index t 1 * 1024 + 1 * q.val = col.val; rw [(idx0_4 t).2, hc]; omega

end Cert.KernelIdeal.HandValue

end
-- ==== Proof.SumTiles.lean ====
/-
  A sum over 2048 indices, cut into four consecutive runs of 512.

  Every index below 2048 is 512·s + k for exactly one run s < 4 and one place k < 512, so the sum of any
  function over the 2048 indices is the sum over the runs of the sums over the places — in any
  commutative monoid, the extended reals among them.
-/
import Idealize.ShloMosaic.Lib.ValueIdx

namespace Cert.KernelIdeal.HandValue

/-- Place `k` of run `s`: the index `512·s + k`. -/
abbrev tileIdx (s : Fin 4) (k : Fin 512) : Fin 2048 := ⟨512 * s.val + k.val, by have := s.isLt; have := k.isLt; omega⟩

/-- The sum over all 2048 indices is the sum over the four runs of the sums over their 512 places. -/
theorem sum_tiles {M : Type*} [AddCommMonoid M] (f : Fin 2048 → M) :
    ∑ k : Fin 2048, f k = ∑ s : Fin 4, ∑ k : Fin 512, f (tileIdx s k) := by
  rw [← Fintype.sum_prod_type' (f := fun s k => f (tileIdx s k))]
  refine ((Equiv.sum_comp (finProdFinEquiv (m := 4) (n := 512)) f).symm).trans ?_
  refine Finset.sum_congr rfl fun x _ => congrArg f (Fin.ext ?_)
  show x.2.val + 512 * x.1.val = 512 * x.1.val + x.2.val
  omega

/-- The same with the four runs written out. -/
theorem sum_tiles4 {M : Type*} [AddCommMonoid M] (f : Fin 2048 → M) :
    ∑ k : Fin 2048, f k
      = (∑ k : Fin 512, f (tileIdx 0 k)) + (∑ k : Fin 512, f (tileIdx 1 k))
        + (∑ k : Fin 512, f (tileIdx 2 k)) + (∑ k : Fin 512, f (tileIdx 3 k)) := by
  rw [sum_tiles, Fin.sum_univ_four]

end Cert.KernelIdeal.HandValue
-- ==== Proof.K0Acc.lean ====
/-
  The first kernel's accumulation over the reduction steps, and what a tile's last step stores.

  For a tile of the output, the four reduction steps run one after another. Each adds to the
  accumulator its own contribution: the sum, over the step's 512 reduction indices, of the products of
  the inputs' and the upper weight's entries, plus the same for the states and the lower weight. The
  first step starts from zero, so after step k the accumulator holds the contributions of steps 0 … k,
  added in that order. The last step stores the logistic function of the finished sum plus the bias.
  The four runs of 512 reduction indices make up all 2048, and addition of extended reals is
  commutative and associative, so the finished sum is the sum over all 2048 indices of the inputs'
  products plus the sum over all 2048 of the states' products.
-/
import proofs.«172101_j11879879541673_2_alg».proof.Proof.K0Pieces
import proofs.«172101_j11879879541673_2_alg».proof.Proof.K0Payload
import proofs.«172101_j11879879541673_2_alg».proof.Proof.K0Blocks
import proofs.«172101_j11879879541673_2_alg».proof.Proof.SumTiles

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

/-- What one reduction step contributes to entry `(p, q)` of a tile, from the step's four blocks: the sum over
    the step's 512 reduction indices of inputs times upper weight, plus that of states times lower weight. -/
def tileSum (x0 : Vec Ideal S1024x512 .f32) (x2 : Vec Ideal S512x1024 .bf16) (x1 : Vec Ideal S1024x512 .f32)
    (x3 : Vec Ideal S512x1024 .bf16) (p q : Fin 1024) : EReal :=
  (∑ k : Fin 512, x0 (ix2 p k) * x2 (ix2 k q)) + (∑ k : Fin 512, x1 (ix2 p k) * x3 (ix2 k q))

/-- What a reduction step stores, at an entry: the accumulator's entry plus the step's contribution. -/
theorem pay2_tile (x0 : Vec Ideal S1024x512 .f32) (x2 : Vec Ideal S512x1024 .bf16) (x1 : Vec Ideal S1024x512 .f32)
    (x3 : Vec Ideal S512x1024 .bf16) (xa : Vec Ideal S1024x1024 .f32) (p q : Fin 1024) :
    k0_pay2 (F := Ideal) x0 x2 x1 x3 xa (ix2 p q) = xa (ix2 p q) + tileSum x0 x2 x1 x3 p q :=
  pay2_apply x0 x2 x1 x3 xa p q

variable (V : (c : Dev nD) → (b : Ref sig .tc) → Buf (Elt Ideal) ((c : Thread nD τ).loc b))

/-- The arrays the first kernel's windows read, as the region finds them: the inputs, the states, the
    upper and the lower weight (2048 rows, 4096 columns each) and the bias (one row of 4096). -/
abbrev inputs (c : Dev nD) : S4096x2048.Idx → EReal := V c main_arg0
abbrev states (c : Dev nD) : S4096x2048.Idx → EReal := V c main_arg1
abbrev wTop (c : Dev nD) : S2048x4096.Idx → EReal := V c main_v3
abbrev wBot (c : Dev nD) : S2048x4096.Idx → EReal := V c main_v7
abbrev biasRow (c : Dev nD) : S1x4096.Idx → EReal := V c main_v9

/-- The contribution of the step at point `t` to entry `(p, q)` of its tile. -/
def stepSum (c : Dev nD) (t : Fin cfg0.N) (p q : Fin 1024) : EReal :=
  tileSum (iblk0 V c 0 t) (iblk0 V c 2 t) (iblk0 V c 1 t) (iblk0 V c 3 t) p q

/-- The running sum after the point at position `n`: the step's own contribution at a first step, otherwise
    the running sum before plus the step's contribution. -/
def accVal (c : Dev nD) : (n : ℕ) → n < cfg0.N → Fin 1024 → Fin 1024 → EReal
  | 0, h, p, q => stepSum V c ⟨0, h⟩ p q
  | n + 1, h, p, q =>
    if (n + 1) % 4 = 0 then stepSum V c ⟨n + 1, h⟩ p q
    else accVal c n (Nat.lt_of_succ_lt h) p q + stepSum V c ⟨n + 1, h⟩ p q

theorem accVal_first (c : Dev nD) (n : ℕ) (h : n < cfg0.N) (h0 : n % 4 = 0) (p q : Fin 1024) :
    accVal V c n h p q = stepSum V c ⟨n, h⟩ p q := by
  cases n with
  | zero => rfl
  | succ n => exact if_pos h0

theorem accVal_next (c : Dev nD) (n : ℕ) (h : n + 1 < cfg0.N) (h0 : ¬(n + 1) % 4 = 0) (p q : Fin 1024) :
    accVal V c (n + 1) h p q = accVal V c n (Nat.lt_of_succ_lt h) p q + stepSum V c ⟨n + 1, h⟩ p q :=
  if_neg h0

/-- Two steps after a first step the running sum is the three contributions so far, in order. -/
theorem accVal_third (c : Dev nD) (n : ℕ) (h : n < cfg0.N) (h2 : n % 4 = 2) (p q : Fin 1024) :
    accVal V c n h p q
      = (stepSum V c ⟨n - 2, by omega⟩ p q + stepSum V c ⟨n - 1, by omega⟩ p q) + stepSum V c ⟨n, h⟩ p q := by
  obtain ⟨m, rfl⟩ : ∃ m, n = m + 1 + 1 := ⟨n - 2, by omega⟩
  show accVal V c (m + 1 + 1) h p q = (stepSum V c ⟨m, by omega⟩ p q + stepSum V c ⟨m + 1, by omega⟩ p q)
    + stepSum V c ⟨m + 1 + 1, h⟩ p q
  rw [accVal_next V c (m + 1) h (by omega), accVal_next V c m (by omega) (by omega),
    accVal_first V c m (by omega) (by omega)]

/-- THE ACCUMULATOR after the point at position `n` holds the running sum — by induction on the position. -/
theorem acc_eq (c : Dev nD) : ∀ (n : ℕ) (h : n < cfg0.N) (p q : Fin 1024),
    (outsAt0 V c n h).2 (ix2 p q) = accVal V c n h p q
  | 0, h, p, q => by
    rw [outsAt0_A V c ⟨0, h⟩ rfl (by show ¬(0 % 4 = 3); decide)]
    dsimp only
    rw [accA0_eq, pay2_tile, pay1_apply, zero_add]
    rfl
  | n + 1, h, p, q => by
    by_cases h0 : (n + 1) % 4 = 0
    · have h1 : ¬(n + 1) % 4 = 3 := by omega
      rw [outsAt0_A V c ⟨n + 1, h⟩ h0 h1]
      dsimp only
      rw [accA0_eq, pay2_tile, pay1_apply, zero_add, accVal_first V c (n + 1) h h0]
      rfl
    · have ih := acc_eq c n (Nat.lt_of_succ_lt h) p q
      rw [accVal_next V c n h h0, ← ih]
      by_cases h1 : (n + 1) % 4 = 3
      · rw [outsAt0_C V c ⟨n + 1, h⟩ h0 h1]
        dsimp only
        rw [accC0_eq, pay2_tile]
        rfl
      · rw [outsAt0_B V c ⟨n + 1, h⟩ h0 h1]
        dsimp only
        rw [accB0_eq, pay2_tile]
        rfl

/-- A step's contribution over the arrays: at reduction step `s` the step's 512 reduction indices are run `s`
    of the 2048; the entry is at row `r` and column `col` of the whole output. -/
theorem stepSum_eq (c : Dev nD) (t : Fin cfg0.N) (s : Fin 4) (hs : t.val % 4 = s.val) (p q : Fin 1024)
    (r col : Fin 4096) (hr : r.val = 1024 * (t.val / 16) + p.val) (hc : col.val = 1024 * (t.val / 4 % 4) + q.val) :
    stepSum V c t p q
      = (∑ k : Fin 512, inputs V c (ix2 r (tileIdx s k)) * wTop V c (ix2 (tileIdx s k) col))
        + (∑ k : Fin 512, states V c (ix2 r (tileIdx s k)) * wBot V c (ix2 (tileIdx s k) col)) := by
  have hk : ∀ k : Fin 512, (tileIdx s k).val = 512 * (t.val % 4) + k.val := fun k => by
    show 512 * s.val + k.val = _; rw [hs]
  unfold stepSum tileSum
  refine congrArg₂ (· + ·) (Finset.sum_congr rfl fun k _ => ?_) (Finset.sum_congr rfl fun k _ => ?_)
  · rw [blk0_apply V c t p k r (tileIdx s k) hr (hk k), blk2_apply V c t k q (tileIdx s k) col (hk k) hc]
  · rw [blk1_apply V c t p k r (tileIdx s k) hr (hk k), blk3_apply V c t k q (tileIdx s k) col (hk k) hc]

/-- WHAT A LAST STEP STORES. At a point `t` that is a tile's last step, entry `(p, q)` of the output's buffer is the
    logistic function of: the sum over all 2048 reduction indices of inputs times upper weight, plus the same of
    states times lower weight, plus the bias — at row `r = 1024·(t/16) + p` and column `col = 1024·((t/4) mod 4) + q`. -/
theorem out_last (c : Dev nD) (t : Fin cfg0.N) (ht : t.val % 4 = 3) (p q : Fin 1024) (r col : Fin 4096)
    (hr : r.val = 1024 * (t.val / 16) + p.val) (hc : col.val = 1024 * (t.val / 4 % 4) + q.val) :
    (outsAt0 V c t.val t.isLt).1 (ix2 p q)
      = Ideal.logistic (((∑ k : Fin 2048, inputs V c (ix2 r k) * wTop V c (ix2 k col))
          + (∑ k : Fin 2048, states V c (ix2 r k) * wBot V c (ix2 k col)))
        + biasRow V c (ix2 (0 : Fin 1) col)) := by
  have hN : t.val < cfg0.N := t.isLt
  have h0 : ¬t.val % 4 = 0 := by omega
  rw [outsAt0_C V c t h0 ht]
  dsimp only
  rw [outC0_eq, pay3_apply, pay2_tile, acc_eq V c _ _ p q, accVal_third V c (t.val - 1) _ (by omega) p q,
    blk4_apply V c t 0 q 0 col rfl hc]
  rw [show tileSum (iblk0 V c 0 t) (iblk0 V c 2 t) (iblk0 V c 1 t) (iblk0 V c 3 t) p q = stepSum V c t p q from rfl,
    stepSum_eq V c ⟨t.val - 1 - 2, by omega⟩ 0 (by dsimp only; omega) p q r col (by dsimp only; omega) (by dsimp only; omega),
    stepSum_eq V c ⟨t.val - 1 - 1, by omega⟩ 1 (by dsimp only; omega) p q r col (by dsimp only; omega) (by dsimp only; omega),
    stepSum_eq V c ⟨t.val - 1, by omega⟩ 2 (by dsimp only; omega) p q r col (by dsimp only; omega) (by dsimp only; omega),
    stepSum_eq V c t 3 ht p q r col hr hc,
    sum_tiles4 (fun k => inputs V c (ix2 r k) * wTop V c (ix2 k col)),
    sum_tiles4 (fun k => states V c (ix2 r k) * wBot V c (ix2 k col))]
  refine congrArg (fun z => Ideal.logistic (z + biasRow V c (ix2 (0 : Fin 1) col))) ?_
  abel

end Cert.KernelIdeal.HandValue

end
-- ==== Proof.K0Array.lean ====
/-
  What the first kernel leaves in its output array: both gates' entries, one whole-array function.

  The output array has 4096 rows and 4096 columns, cut into 4 × 4 tiles of 1024 × 1024. Tile (i, j) is written
  back once, after its last reduction step — point 16·i + 4·j + 3 of the grid —, with the logistic function of
  the finished sums plus the bias at each of its entries. The tiles cover the array, so after the region
  entry (r, col) of the array is the logistic function of the sum over all 2048 reduction indices of inputs
  times upper weight at (r, ·), (·, col), plus that of states times lower weight, plus the bias at col.
-/
import proofs.«172101_j11879879541673_2_alg».proof.Proof.K0Acc
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The gates' array: entry `(r, col)` is the logistic function of the two full sums plus the bias. -/
def gatesArr (c : Dev nD) : S4096x4096.Idx → EReal := fun i =>
  Ideal.logistic (((∑ k : Fin 2048, inputs V c (ix2 (i 0 : Fin 4096) k) * wTop V c (ix2 k (i 1 : Fin 4096)))
      + (∑ k : Fin 2048, states V c (ix2 (i 0 : Fin 4096) k) * wBot V c (ix2 k (i 1 : Fin 4096))))
    + biasRow V c (ix2 (0 : Fin 1) (i 1 : Fin 4096)))

theorem gatesArr_apply (c : Dev nD) (r col : Fin 4096) :
    gatesArr V c (ix2 r col)
      = Ideal.logistic (((∑ k : Fin 2048, inputs V c (ix2 r k) * wTop V c (ix2 k col))
          + (∑ k : Fin 2048, states V c (ix2 r k) * wBot V c (ix2 k col)))
        + biasRow V c (ix2 (0 : Fin 1) col)) := rfl

/-- WHAT A WRITE-BACK WRITES: at a point that writes the output's block back, the block of the gates' array. -/
theorem flushed5_eq (c : Dev nD) (t : Fin cfg0.N) (hf : (cfg0.win 5).flush t = true) :
    (dat0 V c).flushed 5 t = ((cfg0.win 5).blk t).view.read (Elt Ideal) (gatesArr V c) := by
  have ht : t.val % 4 = 3 := (flush0_5 t).mp hf
  have hN : t.val < 64 := t.isLt
  show (cfg0.win 5).cut (grid0.coords t) ((dat0 V c).after 5 t) = _
  rw [after0_5]
  funext y
  obtain ⟨p, q, rfl⟩ : ∃ (p q : Fin 1024), y = ix2 p q := ⟨y 0, y 1, eq_ix2 y⟩
  have hr : 1024 * (t.val / 16) + p.val < 4096 := by have := p.isLt; omega
  have hc : 1024 * (t.val / 4 % 4) + q.val < 4096 := by have := q.isLt; omega
  have e : ((cfg0.win 5).blk t).view.emb (ix2 p q) = ix2 (⟨_, hr⟩ : Fin 4096) (⟨_, hc⟩ : Fin 4096) :=
    funext fun a => Fin.ext (by
      match a with
      | ⟨0, _⟩ => show win0_5.index t 0 * 1024 + 1 * p.val = 1024 * (t.val / 16) + p.val; rw [(idx0_5 t).1]; omega
      | ⟨1, _⟩ => show win0_5.index t 1 * 1024 + 1 * q.val = 1024 * (t.val / 4 % 4) + q.val; rw [(idx0_5 t).2]; omega)
  show (outsAt0 V c t.val t.isLt).1 (ix2 p q) = gatesArr V c (((cfg0.win 5).blk t).view.emb (ix2 p q))
  rw [e, gatesArr_apply]
  exact out_last V c t ht p q _ _ rfl rfl

/-- An index of the array is in point `t`'s block iff each coordinate is in the block's range on its axis. -/
theorem mem_blk5 (t : Fin cfg0.N) (i : S4096x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v10).slice (win0_5.rect t)).set ↔ _
  rw [View.set_slice_whole, Rect.mem_set_unit]
  exact Iff.rfl

/-- THE COVER: every entry of the array lies in the block of its tile's last step, which writes it back. -/
theorem cover5 (i : S4096x4096.Idx) :
    ∃ t : Fin cfg0.N, (cfg0.win 5).flush t = true ∧ i ∈ ((cfg0.win 5).blk t).view.set := by
  have h0 : (i 0).val < 4096 := (i 0).isLt
  have h1 : (i 1).val < 4096 := (i 1).isLt
  have hN : 16 * ((i 0).val / 1024) + 4 * ((i 1).val / 1024) + 3 < 64 := by omega
  refine ⟨⟨16 * ((i 0).val / 1024) + 4 * ((i 1).val / 1024) + 3, hN⟩, (flush0_5 _).mpr (by dsimp only; omega), ?_⟩
  rw [mem_blk5]
  intro a
  match a with
  | ⟨0, _⟩ =>
    show win0_5.index _ 0 * 1024 ≤ (i 0).val ∧ (i 0).val < win0_5.index _ 0 * 1024 + 1024
    rw [(idx0_5 _).1]; dsimp only; omega
  | ⟨1, _⟩ =>
    show win0_5.index _ 1 * 1024 ≤ (i 1).val ∧ (i 1).val < win0_5.index _ 1 * 1024 + 1024
    rw [(idx0_5 _).2]; dsimp only; omega

/-- THE OUTPUT ARRAY AFTER THE REGION is the gates' array. -/
theorem gates_final (c : Dev nD) : (dat0 V c).arrAt 5 cfg0.N = gatesArr V c :=
  (dat0 V c).arrAt_eq_of_cover 5 (gatesArr V c) (fun t hf => flushed5_eq V c t hf) (cover5)

end Cert.KernelIdeal.HandValue

end
-- ==== Proof.GatesJoin.lean ====
/-
  The first kernel's two gates are the specification's.

  After the first kernel the gates' array holds, at (p, col), the logistic function of the two full sums
  plus the bias, over the kernel's operands. Those operands are the arguments rearranged: the inputs and
  the states themselves; for the columns below 2048 the reset weight's upper and lower halves and the
  reset bias, for the columns from 2048 on the update weight's halves and the update bias. The reset
  gate's array is the left half of the gates' array and the update gate's its right half, so entry (p, q)
  of each is the logistic function of the specification's pre-activation at (p, q).
-/
import proofs.«172101_j11879879541673_2_alg».proof.Proof.GlueIdx
import proofs.«172101_j11879879541673_2_alg».proof.Proof.K0Array
import proofs.«172101_j11879879541673_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Cert.Gru (upper lower)

variable (m : (ℓ : Loc nD τ sig) → Buf (Elt Ideal) ℓ) (ρ : Dev nD → PrngReg)

/-- THE RESET GATE: entry `(p, q)` of its array is the specification's reset gate there. -/
theorem gateR_eq (c : Dev nD) (p : Fin 4096) (q : Fin 2048) :
    (V3 m ρ c main_v11 : S4096x2048.Idx → EReal) (ix2 p q)
      = Cert.Gru.gateR (m ((c : Thread nD τ).loc main_arg0)) (m ((c : Thread nD τ).loc main_arg1)) (m ((c : Thread nD τ).loc main_arg2)) (m ((c : Thread nD τ).loc main_arg3)) (ix2 p q) := by
  have hq : q.val < 4096 := by have := q.isLt; omega
  rw [gateR_at m ρ c p q ⟨q.val, hq⟩ rfl, V2_v10, gates_final (V1 m ρ) c, gatesArr_apply]
  show _ = Ideal.logistic (Cert.Gru.pre (m ((c : Thread nD τ).loc main_arg0)) (m ((c : Thread nD τ).loc main_arg1)) (m ((c : Thread nD τ).loc main_arg2)) (m ((c : Thread nD τ).loc main_arg3)) (ix2 p q))
  rw [Cert.Gru.pre_apply]
  dsimp only [inputs, states, wTop, wBot, biasRow]
  refine congrArg Ideal.logistic (congrArg₂ (· + ·) (congrArg₂ (· + ·)
    (Finset.sum_congr rfl fun k _ => ?_) (Finset.sum_congr rfl fun k _ => ?_)) ?_)
  · rw [V1_arg0 m ρ c, wTop_left m ρ c k ⟨q.val, hq⟩ q rfl]
  · rw [V1_arg1 m ρ c, wBot_left m ρ c k ⟨q.val, hq⟩ q rfl]
  · exact bias_left m ρ c ⟨q.val, hq⟩ q rfl

/-- THE UPDATE GATE: entry `(p, q)` of its array is the specification's update gate there. -/
theorem gateZ_eq (c : Dev nD) (p : Fin 4096) (q : Fin 2048) :
    (V3 m ρ c main_v12 : S4096x2048.Idx → EReal) (ix2 p q)
      = Cert.Gru.gateZ (m ((c : Thread nD τ).loc main_arg0)) (m ((c : Thread nD τ).loc main_arg1)) (m ((c : Thread nD τ).loc main_arg4)) (m ((c : Thread nD τ).loc main_arg5)) (ix2 p q) := by
  have hq : 2048 + q.val < 4096 := by have := q.isLt; omega
  rw [gateZ_at m ρ c p q ⟨2048 + q.val, hq⟩ rfl, V2_v10, gates_final (V1 m ρ) c, gatesArr_apply]
  show _ = Ideal.logistic (Cert.Gru.pre (m ((c : Thread nD τ).loc main_arg0)) (m ((c : Thread nD τ).loc main_arg1)) (m ((c : Thread nD τ).loc main_arg4)) (m ((c : Thread nD τ).loc main_arg5)) (ix2 p q))
  rw [Cert.Gru.pre_apply]
  dsimp only [inputs, states, wTop, wBot, biasRow]
  refine congrArg Ideal.logistic (congrArg₂ (· + ·) (congrArg₂ (· + ·)
    (Finset.sum_congr rfl fun k _ => ?_) (Finset.sum_congr rfl fun k _ => ?_)) ?_)
  · rw [V1_arg0 m ρ c, wTop_right m ρ c k ⟨2048 + q.val, hq⟩ q rfl]
  · rw [V1_arg1 m ρ c, wBot_right m ρ c k ⟨2048 + q.val, hq⟩ q rfl]
  · exact bias_right m ρ c ⟨2048 + q.val, hq⟩ q rfl

end Cert.KernelIdeal.HandValue

end
-- ==== Proof.KernelValue.lean ====
/-
  The kernel computes the gated recurrent cell of Proof/Spec.lean.

  After the second kernel the result array holds, at (p, q), the blend (1 − z)·S + z·tanh(…) over the
  second kernel's operands. Those operands are: the inputs and the states themselves; the reset and the
  update gate's arrays, which the first kernel left at the specification's gates; the candidate weight's
  upper and lower halves; and the candidate bias as a row. Put in place, the hyperbolic tangent's argument
  is the specification's pre-activation taken with the states scaled by the reset gate, and the blend is
  the specification's cell.
-/
import proofs.«172101_j11879879541673_2_alg».proof.Proof.K1Arr
import proofs.«172101_j11879879541673_2_alg».proof.Proof.GatesJoin

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Cert.Gru (upper lower)

variable (m : (ℓ : Loc nD τ sig) → Buf (Elt Ideal) ℓ) (ρ : Dev nD → PrngReg)

/-- The candidate's pre-activation: over the second kernel's operands, the two full sums plus the bias at `(p, q)`
    are the specification's pre-activation taken with the states scaled by the reset gate. -/
theorem cand_pre_eq (c : Dev nD) (p : Fin 4096) (q : Fin 2048) :
    ((∑ k : Fin 2048, inp1 (V3 m ρ) c (ix2 p k) * wUp1 (V3 m ρ) c (ix2 k q))
        + (∑ k : Fin 2048, (sta1 (V3 m ρ) c (ix2 p k) * rst1 (V3 m ρ) c (ix2 p k)) * wLo1 (V3 m ρ) c (ix2 k q)))
      + bias1 (V3 m ρ) c (ix2 (0 : Fin 1) q)
    = Cert.Gru.pre (m ((c : Thread nD τ).loc main_arg0)) (Cert.Gru.reset (m ((c : Thread nD τ).loc main_arg0)) (m ((c : Thread nD τ).loc main_arg1)) (m ((c : Thread nD τ).loc main_arg2)) (m ((c : Thread nD τ).loc main_arg3))) (m ((c : Thread nD τ).loc main_arg6)) (m ((c : Thread nD τ).loc main_arg7)) (ix2 p q) := by
  rw [Cert.Gru.pre_apply]
  refine congrArg₂ (· + ·) (congrArg₂ (· + ·)
    (Finset.sum_congr rfl fun k _ => ?_) (Finset.sum_congr rfl fun k _ => ?_)) ?_
  · dsimp only [inp1, wUp1]
    rw [V3_arg0 m ρ c, wN_top m ρ c k q]
  · dsimp only [sta1, rst1, wLo1]
    rw [V3_arg1 m ρ c, gateR_eq m ρ c p k, wN_bot m ρ c k q]
    rfl
  · exact bN_at m ρ c q

/-- THE KERNEL'S RESULT ARRAY after its second region is the cell of the eight arguments. -/
theorem kernel_value (c : Dev nD) :
    (dat1 (V3 m ρ) c).arrAt 8 cfg1.N
      = Cert.Gru.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [final1_8]
  funext i
  obtain ⟨p, q, rfl⟩ : ∃ (p : Fin 4096) (q : Fin 2048), i = ix2 p q := ⟨i 0, i 1, eq_ix2 i⟩
  rw [newState1_apply, cand_pre_eq m ρ c p q]
  dsimp only [sta1, upd1]
  rw [gateZ_eq m ρ c p q, V3_arg1 m ρ c]
  rfl

end Cert.KernelIdeal.HandValue

end
-- ==== Proof.lean ====
/-
  A gated recurrent cell computed by two tiled kernels, against its plain formulation.

  The cell: with inputs X and states S (4096 x 2048 each), three weight arrays (4096 x 2048: the upper 2048 rows act on the
  inputs, the lower 2048 on the states) and three bias vectors,
      r = logistic(X·Wr↑ + S·Wr↓ + br),   z = logistic(X·Wz↑ + S·Wz↓ + bz),
      n = tanh(X·Wn↑ + (S∘r)·Wn↓ + bn),   out = (1 − z)∘S + z∘n.
  The first kernel computes r and z side by side as one 4096 x 4096 array, tile by tile, adding the products of the
  reduction axis's four blocks into an accumulator and applying the bias and the logistic function at the last block; the
  second computes the output row tile by row tile over eight reduction blocks, forming S∘r on each block.

  Frames: each kernel region is run from the core's buffers at its entry contents to the same at its exit contents, the
  accumulator carried between grid points inside the region's invariant; the states array, which the second kernel reads
  through two windows, is dealt to them in two half shares and joined again. The same text proves the word-level program's
  frame. Values (extended reals): a change of float format is the identity; each accumulated tile is the full sum over the
  reduction axis, regrouped using only that addition is commutative and associative; the host operations between the
  kernels are slices and joins, read index by index. The reference's run ends at the same function of the arguments.
-/
import proofs.«172101_j11879879541673_2_alg».proof.Defs
import proofs.«172101_j11879879541673_2_alg».proof.Proof.Gen.Kernel
import proofs.«172101_j11879879541673_2_alg».proof.Proof.Gen.KernelIdeal
import proofs.«172101_j11879879541673_2_alg».proof.Proof.Gen.ReferenceIdeal
import proofs.«172101_j11879879541673_2_alg».proof.Proof.Gen.Pre_finite_inputs
import proofs.«172101_j11879879541673_2_alg».proof.Proof.Run
import proofs.«172101_j11879879541673_2_alg».proof.Proof.WRun
import proofs.«172101_j11879879541673_2_alg».proof.Proof.RefRun
import proofs.«172101_j11879879541673_2_alg».proof.Proof.KernelValue

noncomputable section

namespace Cert.Proof

open Idealize.ShloMosaic Idealize.ShloMosaic.TcCoe Idealize.SL.Sem

/-- The word-level program runs to the end, faults nowhere, and leaves its arguments as launched. -/
theorem frame_kernel : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run (F := Bits) m ρ)

/-- So does the program read over the extended reals. -/
theorem frame_kernelIdeal : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run (F := Ideal) m ρ)

/-- Over the extended reals both programs end with the cell's output, entry by entry the same function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gru.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_,
    Cert.Gru.Ref.ref_run_of_agree m' ρ' _ _ _ _ _ _ _ _ hagree⟩
  exact (θ_run Cert.KernelIdeal.defs _ _).mono
    (fun _ h c => ⟨(h c).1.trans (Cert.KernelIdeal.HandValue.kernel_value m ρ c), (h c).2⟩)
    (Cert.KernelIdeal.Hand.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, Cert.Gru.Ref.ref_frame, trivial, algebraic⟩

end Cert.Proof

end
